-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v3_0)) (v4 : (c : Dev Cert.KernelIdeal.nD) → Buf (Elt Ideal) ((c.tc : Thread Cert.KernelIdeal.nD Cert.KernelIdeal.τ).loc Cert.KernelIdeal.main_v4_1)) (v5 : (c : Dev Cert.KernelIdeal.nD) → Buf (Elt Ideal) ((c.tc : Thread Cert.KernelIdeal.nD Cert.KernelIdeal.τ).loc Cert.KernelIdeal.main_v1_0)) (v6 : (c : Dev Cert.KernelIdeal.nD) → Buf (Elt Ideal) ((c.tc : Thread Cert.KernelIdeal.nD Cert.KernelIdeal.τ).loc Cert.KernelIdeal.main_v2_1)) (v7 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v3_0) = v3 c
          ∧ r.2.mem ((c.tc : Thread Cert.KernelIdeal.nD Cert.KernelIdeal.τ).loc Cert.KernelIdeal.main_v4_1) = v4 c
          ∧ r.2.mem ((c.tc : Thread Cert.KernelIdeal.nD Cert.KernelIdeal.τ).loc Cert.KernelIdeal.main_v1_0) = v5 c
          ∧ r.2.mem ((c.tc : Thread Cert.KernelIdeal.nD Cert.KernelIdeal.τ).loc Cert.KernelIdeal.main_v2_1) = v6 c
          ∧ r.2.mem ((c.tc : Thread Cert.KernelIdeal.nD Cert.KernelIdeal.τ).loc Cert.KernelIdeal.main_v3_1) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_v6) = v5 c
          ∧ r.2.mem ((c.tc : Thread Cert.ReferenceIdeal.nD Cert.ReferenceIdeal.τ).loc Cert.ReferenceIdeal.main_v14) = v6 c
          ∧ r.2.mem ((c.tc : Thread Cert.ReferenceIdeal.nD Cert.ReferenceIdeal.τ).loc Cert.ReferenceIdeal.main_v17) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x64 .f32) (main_arg3 : FVec F S64x32 .f32) (main_arg4 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x16 : Shape := ⟨2, ![32, 16]⟩
abbrev S10000x64 : Shape := ⟨2, ![10000, 64]⟩
abbrev S2000x128 : Shape := ⟨2, ![2000, 128]⟩
abbrev S2000x64 : Shape := ⟨2, ![2000, 64]⟩
abbrev S10000x32 : Shape := ⟨2, ![10000, 32]⟩
abbrev S200x10000 : Shape := ⟨2, ![200, 10000]⟩
abbrev S200x64 : Shape := ⟨2, ![200, 64]⟩
abbrev S200x32 : Shape := ⟨2, ![200, 32]⟩
abbrev S10000x16 : Shape := ⟨2, ![10000, 16]⟩
abbrev S400x10000 : Shape := ⟨2, ![400, 10000]⟩
abbrev S400x64 : Shape := ⟨2, ![400, 64]⟩
abbrev S400x32 : Shape := ⟨2, ![400, 32]⟩
abbrev S400x16 : Shape := ⟨2, ![400, 16]⟩
abbrev S200x16 : Shape := ⟨2, ![200, 16]⟩

abbrev nBuf : Space → Nat
  | .hbm => 16
  | .vmem => 43
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S32x16, .f32⟩
  | .hbm, ⟨5, _⟩ => ⟨S10000x64, .f32⟩
  | .hbm, ⟨6, _⟩ => ⟨S10000x64, .f32⟩
  | .hbm, ⟨7, _⟩ => ⟨S10000x32, .f32⟩
  | .hbm, ⟨8, _⟩ => ⟨S10000x10000, .bf16⟩
  | .hbm, ⟨9, _⟩ => ⟨S10000x64, .f32⟩
  | .hbm, ⟨10, _⟩ => ⟨S10000x32, .f32⟩
  | .hbm, ⟨11, _⟩ => ⟨S10000x16, .f32⟩
  | .hbm, ⟨12, _⟩ => ⟨S10000x32, .f32⟩
  | .hbm, ⟨13, _⟩ => ⟨S10000x16, .f32⟩
  | .hbm, ⟨14, _⟩ => ⟨S10000x10000, .f32⟩
  | .hbm, ⟨15, _⟩ => ⟨S10000x16, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S200x10000, .f32⟩
  | .local _ .vmem, ⟨6, _⟩ => ⟨S200x10000, .f32⟩
  | .local _ .vmem, ⟨7, _⟩ => ⟨S10000x64, .f32⟩
  | .local _ .vmem, ⟨8, _⟩ => ⟨S64x32, .f32⟩
  | .local _ .vmem, ⟨9, _⟩ => ⟨S200x64, .f32⟩
  | .local _ .vmem, ⟨10, _⟩ => ⟨S200x64, .f32⟩
  | .local _ .vmem, ⟨11, _⟩ => ⟨S200x32, .f32⟩
  | .local _ .vmem, ⟨12, _⟩ => ⟨S200x32, .f32⟩
  | .local _ .vmem, ⟨13, _⟩ => ⟨S200x10000, .bf16⟩
  | .local _ .vmem, ⟨14, _⟩ => ⟨S200x10000, .bf16⟩
  | .local _ .vmem, ⟨15, _⟩ => ⟨S400x10000, .bf16⟩
  | .local _ .vmem, ⟨16, _⟩ => ⟨S400x10000, .bf16⟩
  | .local _ .vmem, ⟨17, _⟩ => ⟨S10000x64, .f32⟩
  | .local _ .vmem, ⟨18, _⟩ => ⟨S10000x32, .f32⟩
  | .local _ .vmem, ⟨19, _⟩ => ⟨S32x16, .f32⟩
  | .local _ .vmem, ⟨20, _⟩ => ⟨S400x64, .f32⟩
  | .local _ .vmem, ⟨21, _⟩ => ⟨S400x64, .f32⟩
  | .local _ .vmem, ⟨22, _⟩ => ⟨S400x32, .f32⟩
  | .local _ .vmem, ⟨23, _⟩ => ⟨S400x32, .f32⟩
  | .local _ .vmem, ⟨24, _⟩ => ⟨S400x16, .f32⟩
  | .local _ .vmem, ⟨25, _⟩ => ⟨S400x16, .f32⟩
  | .local _ .vmem, ⟨26, _⟩ => ⟨S400x10000, .bf16⟩
  | .local _ .vmem, ⟨27, _⟩ => ⟨S400x10000, .bf16⟩
  | .local _ .vmem, ⟨28, _⟩ => ⟨S10000x32, .f32⟩
  | .local _ .vmem, ⟨29, _⟩ => ⟨S10000x16, .f32⟩
  | .local _ .vmem, ⟨30, _⟩ => ⟨S400x32, .f32⟩
  | .local _ .vmem, ⟨31, _⟩ => ⟨S400x32, .f32⟩
  | .local _ .vmem, ⟨32, _⟩ => ⟨S400x16, .f32⟩
  | .local _ .vmem, ⟨33, _⟩ => ⟨S400x16, .f32⟩
  | .local _ .vmem, ⟨34, _⟩ => ⟨S200x10000, .bf16⟩
  | .local _ .vmem, ⟨35, _⟩ => ⟨S200x10000, .bf16⟩
  | .local _ .vmem, ⟨36, _⟩ => ⟨S200x16, .f32⟩
  | .local _ .vmem, ⟨37, _⟩ => ⟨S200x16, .f32⟩
  | .local _ .vmem, ⟨38, _⟩ => ⟨S10000x16, .f32⟩
  | .local _ .vmem, ⟨39, _⟩ => ⟨S200x10000, .f32⟩
  | .local _ .vmem, ⟨40, _⟩ => ⟨S200x10000, .f32⟩
  | .local _ .vmem, ⟨41, _⟩ => ⟨S200x16, .f32⟩
  | .local _ .vmem, ⟨42, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3_0 : Ref sig .tc := ⟨.hbm, 12, rfl⟩
abbrev main_v3_1 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc4_stg4_0 : Ref sig .tc := ⟨.vmem, 41, rfl⟩
abbrev cc4_stg4_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40
abbrev cc4_sem4_0 : DmaSem sig := 41
abbrev cc4_sem4_1 : DmaSem sig := 42

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S400x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10000x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S200x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S10000x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S200x10000 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S200x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x64_S200x64_0_0 : ∀ a, (![0, 0] : Fin 2 → Nat) a + S200x64.size a ≤ S200x64.size a
  h_S200x64 : 0 < S200x64.numel
  inb_S64x32_S64x32_0_0 : ∀ a, (![0, 0] : Fin 2 → Nat) a + S64x32.size a ≤ S64x32.size a
  h_S64x32 : 0 < S64x32.numel
  inb_S200x32_S200x32_0_0 : ∀ a, (![0, 0] : Fin 2 → Nat) a + S200x32.size a ≤ S200x32.size a
  h_S200x32 : 0 < S200x32.numel
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x64_S400x64_0_0 : ∀ a, (![0, 0] : Fin 2 → Nat) a + S400x64.size a ≤ S400x64.size a
  h_S400x64 : 0 < S400x64.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x32_S400x32_0_0 : ∀ a, (![0, 0] : Fin 2 → Nat) a + S400x32.size a ≤ S400x32.size a
  h_S400x32 : 0 < S400x32.numel
  inb_S32x16_S32x16_0_0 : ∀ a, (![0, 0] : Fin 2 → Nat) a + S32x16.size a ≤ S32x16.size a
  h_S32x16 : 0 < S32x16.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S200x16_S200x16_0_0 : ∀ a, (![0, 0] : Fin 2 → Nat) a + S200x16.size a ≤ S200x16.size a
  h_S200x16 : 0 < S200x16.numel
  shapeCasts_S200x16_S200x16 : S200x16.ShapeCasts S200x16
  shapeCasts_S200x10000_S200x10000 : S200x10000.ShapeCasts S200x10000
  dot_S2000x128_S128x64_S2000x64_1_0_0_1_n_n_wf : DotDims.WF S2000x128 S128x64 S2000x64 [1] [0] [0] [1] [] []
  dot_S200x10000_S10000x64_S200x64_1_0_0_1_n_n_wf : DotDims.WF S200x10000 S10000x64 S200x64 [1] [0] [0] [1] [] []
  dot_S200x64_S64x32_S200x32_1_0_0_1_n_n_wf : DotDims.WF S200x64 S64x32 S200x32 [1] [0] [0] [1] [] []
  dot_S400x10000_S10000x64_S400x64_1_0_0_1_n_n_wf : DotDims.WF S400x10000 S10000x64 S400x64 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  dot_S200x16_S10000x16_S200x10000_1_1_0_0_n_n_wf : DotDims.WF S200x16 S10000x16 S200x10000 [1] [1] [0] [0] [] []
  dot_S200x10000_S10000x16_S200x16_1_0_0_1_n_n_wf : DotDims.WF S200x10000 S10000x16 S200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .f32 = 32 ∨ (Rect.block (s := S10000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x64.size a ≤ S10000x64.size a
  hwx1_3 : ∀ i : grid1.Coords, EltTy.bits .f32 = 32 ∨ (Rect.block (s := S10000x64) S200x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x32.size a ≤ S10000x32.size a
  hwx1_4 : ∀ i : grid1.Coords, EltTy.bits .f32 = 32 ∨ (Rect.block (s := S10000x32) S200x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S10000x32.size a
  hwx2_2 : ∀ i : grid2.Coords, EltTy.bits .f32 = 32 ∨ (Rect.block (s := S10000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .f32 = 32 ∨ (Rect.block (s := S10000x64) S400x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x32.size a ≤ S10000x32.size a
  hwx2_5 : ∀ i : grid2.Coords, EltTy.bits .f32 = 32 ∨ (Rect.block (s := S10000x32) S400x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x16.size a ≤ S10000x16.size a
  hwx2_6 : ∀ i : grid2.Coords, EltTy.bits .f32 = 32 ∨ (Rect.block (s := S10000x16) S400x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .f32 = 32 ∨ (Rect.block (s := S10000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S10000x16.size a
  hwx3_2 : ∀ i : grid3.Coords, EltTy.bits .f32 = 32 ∨ (Rect.block (s := S10000x16) S10000x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x32.size a ≤ S10000x32.size a
  hwx3_3 : ∀ i : grid3.Coords, EltTy.bits .f32 = 32 ∨ (Rect.block (s := S10000x32) S400x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x16.size a ≤ S10000x16.size a
  hwx3_4 : ∀ i : grid3.Coords, EltTy.bits .f32 = 32 ∨ (Rect.block (s := S10000x16) S400x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x10000.size a ≤ S10000x10000.size a
  hwx4_0 : ∀ i : grid4.Coords, EltTy.bits .bf16 = 32 ∨ (Rect.block (s := S10000x10000) S200x10000.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S200x16.size a ≤ S10000x16.size a
  hwx4_1 : ∀ i : grid4.Coords, EltTy.bits .f32 = 32 ∨ (Rect.block (s := S10000x16) S200x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S10000x16.size a
  hwx4_2 : ∀ i : grid4.Coords, EltTy.bits .f32 = 32 ∨ (Rect.block (s := S10000x16) S10000x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S200x10000.size a ≤ S10000x10000.size a
  hwx4_3 : ∀ i : grid4.Coords, EltTy.bits .f32 = 32 ∨ (Rect.block (s := S10000x10000) S200x10000.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S200x16.size a ≤ S10000x16.size a
  hwx4_4 : ∀ i : grid4.Coords, EltTy.bits .f32 = 32 ∨ (Rect.block (s := S10000x16) S200x16.size (cc4_transform_4 i) (hinb4_4 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x32_S200x32_1_0_0_1_n_n : DotDims S200x64 S64x32 S200x32 where
  lhsContracting := [1]
  rhsContracting := [0]
  lhsNonContracting := [0]
  rhsNonContracting := [1]
  lhsBatch := []
  rhsBatch := []
  wf := dot_S200x64_S64x32_S200x32_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S200x16_S10000x16_S200x10000_1_1_0_0_n_n : DotDims S200x16 S10000x16 S200x10000 where
  lhsContracting := [1]
  rhsContracting := [1]
  lhsNonContracting := [0]
  rhsNonContracting := [0]
  lhsBatch := []
  rhsBatch := []
  wf := dot_S200x16_S10000x16_S200x10000_1_1_0_0_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S200x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S200x32.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_2) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1_2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S10000x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S400x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_1) S400x32.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v2_2) S400x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v1_2) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_1) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2_2) S10000x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3_0) S400x32.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3_1) S400x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v1_2) S200x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3_1) S200x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3_1) S10000x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4_0) S200x10000.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v4_1) S200x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x16 : Shape := ⟨2, ![32, 16]⟩
abbrev S10000x64 : Shape := ⟨2, ![10000, 64]⟩
abbrev S_ : Shape := ⟨0, ![]⟩
abbrev S10000x32 : Shape := ⟨2, ![10000, 32]⟩
abbrev S10000x16 : Shape := ⟨2, ![10000, 16]⟩
abbrev S16x10000 : Shape := ⟨2, ![16, 10000]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S32x16, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .i1⟩
  | .hbm, ⟨9, _⟩ => ⟨S_, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S10000x32, .f32⟩
  | .hbm, ⟨16, _⟩ => ⟨S_, .f32⟩
  | .hbm, ⟨17, _⟩ => ⟨S10000x32, .f32⟩
  | .hbm, ⟨18, _⟩ => ⟨S10000x32, .i1⟩
  | .hbm, ⟨19, _⟩ => ⟨S_, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S10000x32, .f32⟩
  | .hbm, ⟨24, _⟩ => ⟨S10000x32, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S16x10000, .f32⟩
  | .hbm, ⟨29, _⟩ => ⟨S10000x10000, .f32⟩
  | .hbm, ⟨30, _⟩ => ⟨S10000x10000, .f32⟩
  | .hbm, ⟨31, _⟩ => ⟨S10000x10000, .f32⟩
  | .hbm, ⟨32, _⟩ => ⟨S_, .f32⟩
  | .hbm, ⟨33, _⟩ => ⟨S10000x10000, .f32⟩
  | .hbm, ⟨34, _⟩ => ⟨S10000x10000, .f32⟩
  | .hbm, ⟨35, _⟩ => ⟨S_, .f32⟩
  | .hbm, ⟨36, _⟩ => ⟨S10000x10000, .f32⟩
  | .hbm, ⟨37, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  bcast_S_S10000x32 : S_.BroadcastsInDim S10000x32 (![] : Fin 0 → Fin S10000x32.rank)
  transposes_S10000x16_S16x10000_1_0 : S10000x16.Transposes [1, 0] S16x10000
  bcast_S_S10000x10000 : S_.BroadcastsInDim S10000x10000 (![] : Fin 0 → Fin S10000x10000.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.K.R0.lean ====
/-
  Region 0 of the program: the kernel `cc0__s1_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.Kernel.Launch
import proofs.«104007_g67070209294347_cont_9to1_m_584_3_alg».proof.Proof.Gen.Kernel.Skeleton
import proofs.«104007_g67070209294347_cont_9to1_m_584_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, fetched there or kept from an earlier
    point at which the block index was the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, fetched there or kept from an earlier
    point at which the block index was the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in output window 2's staging buffer: one store of the whole buffer, its value a pure function
    of the loaded input blocks. -/
def out0_2 (x0 : Vec F S2000x128 .f32) (x1 : Vec F S128x64 .f32) : Vec F S2000x64 .f32 :=
  View.canon [⟨(Rect.unit (s := S2000x64) ![0, 0] S2000x64.size inb_S2000x64_S2000x64_0_0), k0_pay1 (View.ld x0 (Rect.unit (s := S2000x128) ![0, 0] S2000x128.size inb_S2000x128_S2000x128_0_0)) (View.ld x1 (Rect.unit (s := S128x64) ![0, 0] S128x64.size inb_S128x64_S128x64_0_0))⟩]

/-- The one store covers the buffer. -/
theorem cover0_2 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the inputs' at known contents and the outputs' at anything, runs to the end
    leaving the inputs' as they were and each output's at its function of the inputs'. -/
theorem sound_kernel0 (c : Dev nD) (E : Set ℕ) (i : grid0.Coords) (arg0 : Memref sig .tc .vmem S2000x128 .f32) (harg0 : arg0.IsWhole) (arg1 : Memref sig .tc .vmem S128x64 .f32) (harg1 : arg1.IsWhole) (arg2 : Memref sig .tc .vmem S2000x64 .f32) (harg2 : arg2.IsWhole)
    (x0 : Vec F S2000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__s1_body i arg0 harg0 arg1 harg1 arg2 harg2) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at grid point `t` each
    input's staging buffer at its block and each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at grid point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the inputs' staging buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of the program: the kernel `cc1__pa_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.Kernel.Launch
import proofs.«104007_g67070209294347_cont_9to1_m_584_3_alg».proof.Proof.Gen.Kernel.Skeleton
import proofs.«104007_g67070209294347_cont_9to1_m_584_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, fetched there or kept from an earlier
    point at which the block index was the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, fetched there or kept from an earlier
    point at which the block index was the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, fetched there or kept from an earlier
    point at which the block index was the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in output window 3's staging buffer: one store of the whole buffer, its value a pure function
    of the loaded input blocks. -/
def out1_3 (x0 : Vec F S200x10000 .f32) (x1 : Vec F S10000x64 .f32) : Vec F S200x64 .f32 :=
  View.canon [⟨(Rect.unit (s := S200x64) ![0, 0] S200x64.size inb_S200x64_S200x64_0_0), k1_pay2 (View.ld x0 (Rect.unit (s := S200x10000) ![0, 0] S200x10000.size inb_S200x10000_S200x10000_0_0)) (View.ld x1 (Rect.unit (s := S10000x64) ![0, 0] S10000x64.size inb_S10000x64_S10000x64_0_0))⟩]

/-- The one store covers the buffer. -/
theorem cover1_3 (p0 : Vec F S200x64 .f32) (y : S200x64.Idx) :
    ∃ pc ∈ ([⟨(Rect.unit (s := S200x64) ![0, 0] S200x64.size inb_S200x64_S200x64_0_0), p0⟩] : List (View.Piece (Elt F) S200x64 .f32)), y ∈ pc.1.set :=
  View.cover_of_tiled [⟨(Rect.unit (s := S200x64) ![0, 0] S200x64.size inb_S200x64_S200x64_0_0), p0⟩] S200x64.size (by rfl) y

/-- What the body leaves in output window 4's staging buffer: one store of the whole buffer, its value a pure function
    of the loaded input blocks. -/
def out1_4 (x0 : Vec F S200x10000 .f32) (x1 : Vec F S10000x64 .f32) (x2 : Vec F S64x32 .f32) : Vec F S200x32 .f32 :=
  View.canon [⟨(Rect.unit (s := S200x32) ![0, 0] S200x32.size inb_S200x32_S200x32_0_0), k1_pay3 (View.ld x0 (Rect.unit (s := S200x10000) ![0, 0] S200x10000.size inb_S200x10000_S200x10000_0_0)) (View.ld x1 (Rect.unit (s := S10000x64) ![0, 0] S10000x64.size inb_S10000x64_S10000x64_0_0)) (View.ld x2 (Rect.unit (s := S64x32) ![0, 0] S64x32.size inb_S64x32_S64x32_0_0))⟩]

/-- The one store covers the buffer. -/
theorem cover1_4 (p0 : Vec F S200x32 .f32) (y : S200x32.Idx) :
    ∃ pc ∈ ([⟨(Rect.unit (s := S200x32) ![0, 0] S200x32.size inb_S200x32_S200x32_0_0), p0⟩] : List (View.Piece (Elt F) S200x32 .f32)), y ∈ pc.1.set :=
  View.cover_of_tiled [⟨(Rect.unit (s := S200x32) ![0, 0] S200x32.size inb_S200x32_S200x32_0_0), p0⟩] S200x32.size (by rfl) y

/-- What the body leaves in output window 5's staging buffer: one store of the whole buffer, its value a pure function
    of the loaded input blocks. -/
def out1_5 (x0 : Vec F S200x10000 .f32) : Vec F S200x10000 .bf16 :=
  View.canon [⟨(Rect.unit (s := S200x10000) ![0, 0] S200x10000.size inb_S200x10000_S200x10000_0_0), k1_pay1 (View.ld x0 (Rect.unit (s := S200x10000) ![0, 0] S200x10000.size inb_S200x10000_S200x10000_0_0))⟩]

/-- The one store covers the buffer. -/
theorem cover1_5 (p0 : Vec F S200x10000 .bf16) (y : S200x10000.Idx) :
    ∃ pc ∈ ([⟨(Rect.unit (s := S200x10000) ![0, 0] S200x10000.size inb_S200x10000_S200x10000_0_0), p0⟩] : List (View.Piece (Elt F) S200x10000 .bf16)), y ∈ pc.1.set :=
  View.cover_of_tiled [⟨(Rect.unit (s := S200x10000) ![0, 0] S200x10000.size inb_S200x10000_S200x10000_0_0), p0⟩] S200x10000.size (by rfl) y

set_option maxHeartbeats 4000000 in
/-- The body on whole staging buffers, the inputs' at known contents and the outputs' at anything, runs to the end
    leaving the inputs' as they were and each output's at its function of the inputs'. -/
theorem sound_kernel1 (c : Dev nD) (E : Set ℕ) (i : grid1.Coords) (arg0 : Memref sig .tc .vmem S200x10000 .f32) (harg0 : arg0.IsWhole) (arg1 : Memref sig .tc .vmem S10000x64 .f32) (harg1 : arg1.IsWhole) (arg2 : Memref sig .tc .vmem S64x32 .f32) (harg2 : arg2.IsWhole) (arg3 : Memref sig .tc .vmem S200x64 .f32) (harg3 : arg3.IsWhole) (arg4 : Memref sig .tc .vmem S200x32 .f32) (harg4 : arg4.IsWhole) (arg5 : Memref sig .tc .vmem S200x10000 .bf16) (harg5 : arg5.IsWhole)
    (x0 : Vec F S200x10000 .f32) (x1 : Vec F S10000x64 .f32) (x2 : Vec F S64x32 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1) ∗ owns (c : Thread nD τ) arg4 fullShare (out1_4 x0 x1 x2) ∗ owns (c : Thread nD τ) arg5 fullShare (out1_5 x0)) -∗ K ⟨⟩))
      ⊢ wp frame (wpE (defs₀ (F := F)) Variants.none c none) E (cc1__pa_body i arg0 harg0 arg1 harg1 arg2 harg2 arg3 harg3 arg4 harg4 arg5 harg5) K := by
  simp only [cc1__pa_body_eq_skeleton]; unfold cc1__pa_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-- The pipeline's proof data on core `c`: the arrays as the region finds them; after the body at grid point `t` each
    input's staging buffer at its block and each output's at its function of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
    | ⟨5, _⟩ => out1_5 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at grid point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the inputs' staging buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 of the program: the kernel `cc2__pb_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.Kernel.Launch
import proofs.«104007_g67070209294347_cont_9to1_m_584_3_alg».proof.Proof.Gen.Kernel.Skeleton
import proofs.«104007_g67070209294347_cont_9to1_m_584_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every grid point, fetched there or kept from an earlier
    point at which the block index was the same. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, fetched there or kept from an earlier
    point at which the block index was the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, fetched there or kept from an earlier
    point at which the block index was the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every grid point, fetched there or kept from an earlier
    point at which the block index was the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in output window 4's staging buffer: one store of the whole buffer, its value a pure function
    of the loaded input blocks. -/
def out2_4 (x0 : Vec F S400x10000 .bf16) (x1 : Vec F S10000x64 .f32) : Vec F S400x64 .f32 :=
  View.canon [⟨(Rect.unit (s := S400x64) ![0, 0] S400x64.size inb_S400x64_S400x64_0_0), k2_pay2 (View.ld x0 (Rect.unit (s := S400x10000) ![0, 0] S400x10000.size inb_S400x10000_S400x10000_0_0)) (View.ld x1 (Rect.unit (s := S10000x64) ![0, 0] S10000x64.size inb_S10000x64_S10000x64_0_0))⟩]

/-- The one store covers the buffer. -/
theorem cover2_4 (p0 : Vec F S400x64 .f32) (y : S400x64.Idx) :
    ∃ pc ∈ ([⟨(Rect.unit (s := S400x64) ![0, 0] S400x64.size inb_S400x64_S400x64_0_0), p0⟩] : List (View.Piece (Elt F) S400x64 .f32)), y ∈ pc.1.set :=
  View.cover_of_tiled [⟨(Rect.unit (s := S400x64) ![0, 0] S400x64.size inb_S400x64_S400x64_0_0), p0⟩] S400x64.size (by rfl) y

/-- What the body leaves in output window 5's staging buffer: one store of the whole buffer, its value a pure function
    of the loaded input blocks. -/
def out2_5 (x0 : Vec F S400x10000 .bf16) (x2 : Vec F S10000x32 .f32) : Vec F S400x32 .f32 :=
  View.canon [⟨(Rect.unit (s := S400x32) ![0, 0] S400x32.size inb_S400x32_S400x32_0_0), k2_pay3 (View.ld x0 (Rect.unit (s := S400x10000) ![0, 0] S400x10000.size inb_S400x10000_S400x10000_0_0)) (View.ld x2 (Rect.unit (s := S10000x32) ![0, 0] S10000x32.size inb_S10000x32_S10000x32_0_0))⟩]

/-- The one store covers the buffer. -/
theorem cover2_5 (p0 : Vec F S400x32 .f32) (y : S400x32.Idx) :
    ∃ pc ∈ ([⟨(Rect.unit (s := S400x32) ![0, 0] S400x32.size inb_S400x32_S400x32_0_0), p0⟩] : List (View.Piece (Elt F) S400x32 .f32)), y ∈ pc.1.set :=
  View.cover_of_tiled [⟨(Rect.unit (s := S400x32) ![0, 0] S400x32.size inb_S400x32_S400x32_0_0), p0⟩] S400x32.size (by rfl) y

/-- What the body leaves in output window 6's staging buffer: one store of the whole buffer, its value a pure function
    of the loaded input blocks. -/
def out2_6 (x0 : Vec F S400x10000 .bf16) (x2 : Vec F S10000x32 .f32) (x3 : Vec F S32x16 .f32) : Vec F S400x16 .f32 :=
  View.canon [⟨(Rect.unit (s := S400x16) ![0, 0] S400x16.size inb_S400x16_S400x16_0_0), k2_pay4 (View.ld x0 (Rect.unit (s := S400x10000) ![0, 0] S400x10000.size inb_S400x10000_S400x10000_0_0)) (View.ld x2 (Rect.unit (s := S10000x32) ![0, 0] S10000x32.size inb_S10000x32_S10000x32_0_0)) (View.ld x3 (Rect.unit (s := S32x16) ![0, 0] S32x16.size inb_S32x16_S32x16_0_0))⟩]

/-- The one store covers the buffer. -/
theorem cover2_6 (p0 : Vec F S400x16 .f32) (y : S400x16.Idx) :
    ∃ pc ∈ ([⟨(Rect.unit (s := S400x16) ![0, 0] S400x16.size inb_S400x16_S400x16_0_0), p0⟩] : List (View.Piece (Elt F) S400x16 .f32)), y ∈ pc.1.set :=
  View.cover_of_tiled [⟨(Rect.unit (s := S400x16) ![0, 0] S400x16.size inb_S400x16_S400x16_0_0), p0⟩] S400x16.size (by rfl) y

set_option maxHeartbeats 4000000 in
/-- The body on whole staging buffers, the inputs' at known contents and the outputs' at anything, runs to the end
    leaving the inputs' as they were and each output's at its function of the inputs'. -/
theorem sound_kernel2 (c : Dev nD) (E : Set ℕ) (i : grid2.Coords) (arg0 : Memref sig .tc .vmem S400x10000 .bf16) (harg0 : arg0.IsWhole) (arg1 : Memref sig .tc .vmem S10000x64 .f32) (harg1 : arg1.IsWhole) (arg2 : Memref sig .tc .vmem S10000x32 .f32) (harg2 : arg2.IsWhole) (arg3 : Memref sig .tc .vmem S32x16 .f32) (harg3 : arg3.IsWhole) (arg4 : Memref sig .tc .vmem S400x64 .f32) (harg4 : arg4.IsWhole) (arg5 : Memref sig .tc .vmem S400x32 .f32) (harg5 : arg5.IsWhole) (arg6 : Memref sig .tc .vmem S400x16 .f32) (harg6 : arg6.IsWhole)
    (x0 : Vec F S400x10000 .bf16) (x1 : Vec F S10000x64 .f32) (x2 : Vec F S10000x32 .f32) (x3 : Vec F S32x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1) ∗ owns (c : Thread nD τ) arg5 fullShare (out2_5 x0 x2) ∗ owns (c : Thread nD τ) arg6 fullShare (out2_6 x0 x2 x3)) -∗ K ⟨⟩))
      ⊢ wp frame (wpE (defs₀ (F := F)) Variants.none c none) E (cc2__pb_body i arg0 harg0 arg1 harg1 arg2 harg2 arg3 harg3 arg4 harg4 arg5 harg5 arg6 harg6) K := by
  simp only [cc2__pb_body_eq_skeleton]; unfold cc2__pb_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-- The pipeline's proof data on core `c`: the arrays as the region finds them; after the body at grid point `t` each
    input's staging buffer at its block and each output's at its function of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 2 t)
    | ⟨6, _⟩ => out2_6 (iblk2 V c 0 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 2 t) := by dsimp only [dat2]
theorem after2_6 (c : Dev nD) (t : Fin cfg2.N) : (dat2 V c).after 6 t = out2_6 (iblk2 V c 0 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at grid point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any grid point: the inputs' staging buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3 of the program: the kernel `cc3__pc_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.Kernel.Launch
import proofs.«104007_g67070209294347_cont_9to1_m_584_3_alg».proof.Proof.Gen.Kernel.Skeleton
import proofs.«104007_g67070209294347_cont_9to1_m_584_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every grid point, fetched there or kept from an earlier
    point at which the block index was the same. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every grid point, fetched there or kept from an earlier
    point at which the block index was the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every grid point, fetched there or kept from an earlier
    point at which the block index was the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in output window 3's staging buffer: one store of the whole buffer, its value a pure function
    of the loaded input blocks. -/
def out3_3 (x0 : Vec F S400x10000 .bf16) (x1 : Vec F S10000x32 .f32) : Vec F S400x32 .f32 :=
  View.canon [⟨(Rect.unit (s := S400x32) ![0, 0] S400x32.size inb_S400x32_S400x32_0_0), k3_pay2 (View.ld x0 (Rect.unit (s := S400x10000) ![0, 0] S400x10000.size inb_S400x10000_S400x10000_0_0)) (View.ld x1 (Rect.unit (s := S10000x32) ![0, 0] S10000x32.size inb_S10000x32_S10000x32_0_0))⟩]

/-- The one store covers the buffer. -/
theorem cover3_3 (p0 : Vec F S400x32 .f32) (y : S400x32.Idx) :
    ∃ pc ∈ ([⟨(Rect.unit (s := S400x32) ![0, 0] S400x32.size inb_S400x32_S400x32_0_0), p0⟩] : List (View.Piece (Elt F) S400x32 .f32)), y ∈ pc.1.set :=
  View.cover_of_tiled [⟨(Rect.unit (s := S400x32) ![0, 0] S400x32.size inb_S400x32_S400x32_0_0), p0⟩] S400x32.size (by rfl) y

/-- What the body leaves in output window 4's staging buffer: one store of the whole buffer, its value a pure function
    of the loaded input blocks. -/
def out3_4 (x0 : Vec F S400x10000 .bf16) (x2 : Vec F S10000x16 .f32) : Vec F S400x16 .f32 :=
  View.canon [⟨(Rect.unit (s := S400x16) ![0, 0] S400x16.size inb_S400x16_S400x16_0_0), k3_pay3 (View.ld x0 (Rect.unit (s := S400x10000) ![0, 0] S400x10000.size inb_S400x10000_S400x10000_0_0)) (View.ld x2 (Rect.unit (s := S10000x16) ![0, 0] S10000x16.size inb_S10000x16_S10000x16_0_0))⟩]

/-- The one store covers the buffer. -/
theorem cover3_4 (p0 : Vec F S400x16 .f32) (y : S400x16.Idx) :
    ∃ pc ∈ ([⟨(Rect.unit (s := S400x16) ![0, 0] S400x16.size inb_S400x16_S400x16_0_0), p0⟩] : List (View.Piece (Elt F) S400x16 .f32)), y ∈ pc.1.set :=
  View.cover_of_tiled [⟨(Rect.unit (s := S400x16) ![0, 0] S400x16.size inb_S400x16_S400x16_0_0), p0⟩] S400x16.size (by rfl) y

set_option maxHeartbeats 4000000 in
/-- The body on whole staging buffers, the inputs' at known contents and the outputs' at anything, runs to the end
    leaving the inputs' as they were and each output's at its function of the inputs'. -/
theorem sound_kernel3 (c : Dev nD) (E : Set ℕ) (i : grid3.Coords) (arg0 : Memref sig .tc .vmem S400x10000 .bf16) (harg0 : arg0.IsWhole) (arg1 : Memref sig .tc .vmem S10000x32 .f32) (harg1 : arg1.IsWhole) (arg2 : Memref sig .tc .vmem S10000x16 .f32) (harg2 : arg2.IsWhole) (arg3 : Memref sig .tc .vmem S400x32 .f32) (harg3 : arg3.IsWhole) (arg4 : Memref sig .tc .vmem S400x16 .f32) (harg4 : arg4.IsWhole)
    (x0 : Vec F S400x10000 .bf16) (x1 : Vec F S10000x32 .f32) (x2 : Vec F S10000x16 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1) ∗ owns (c : Thread nD τ) arg4 fullShare (out3_4 x0 x2)) -∗ K ⟨⟩))
      ⊢ wp frame (wpE (defs₀ (F := F)) Variants.none c none) E (cc3__pc_body i arg0 harg0 arg1 harg1 arg2 harg2 arg3 harg3 arg4 harg4) K := by
  simp only [cc3__pc_body_eq_skeleton]; unfold cc3__pc_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-- The pipeline's proof data on core `c`: the arrays as the region finds them; after the body at grid point `t` each
    input's staging buffer at its block and each output's at its function of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at grid point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any grid point: the inputs' staging buffers hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/-
  Region 4 of the program: the kernel `cc4__pd_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.Kernel.Launch
import proofs.«104007_g67070209294347_cont_9to1_m_584_3_alg».proof.Proof.Gen.Kernel.Skeleton
import proofs.«104007_g67070209294347_cont_9to1_m_584_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every grid point, fetched there or kept from an earlier
    point at which the block index was the same. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every grid point, fetched there or kept from an earlier
    point at which the block index was the same. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every grid point, fetched there or kept from an earlier
    point at which the block index was the same. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in output window 3's staging buffer: one store of the whole buffer, its value a pure function
    of the loaded input blocks. -/
def out4_3 (x1 : Vec F S200x16 .f32) (x2 : Vec F S10000x16 .f32) : Vec F S200x10000 .f32 :=
  View.canon [⟨(Rect.unit (s := S200x10000) ![0, 0] S200x10000.size inb_S200x10000_S200x10000_0_0), k4_pay1 (View.ld x1 (Rect.unit (s := S200x16) ![0, 0] S200x16.size inb_S200x16_S200x16_0_0)) (View.ld x2 (Rect.unit (s := S10000x16) ![0, 0] S10000x16.size inb_S10000x16_S10000x16_0_0))⟩]

/-- The one store covers the buffer. -/
theorem cover4_3 (p0 : Vec F S200x10000 .f32) (y : S200x10000.Idx) :
    ∃ pc ∈ ([⟨(Rect.unit (s := S200x10000) ![0, 0] S200x10000.size inb_S200x10000_S200x10000_0_0), p0⟩] : List (View.Piece (Elt F) S200x10000 .f32)), y ∈ pc.1.set :=
  View.cover_of_tiled [⟨(Rect.unit (s := S200x10000) ![0, 0] S200x10000.size inb_S200x10000_S200x10000_0_0), p0⟩] S200x10000.size (by rfl) y

/-- What the body leaves in output window 4's staging buffer: one store of the whole buffer, its value a pure function
    of the loaded input blocks. -/
def out4_4 (x0 : Vec F S200x10000 .bf16) (x2 : Vec F S10000x16 .f32) : Vec F S200x16 .f32 :=
  View.canon [⟨(Rect.unit (s := S200x16) ![0, 0] S200x16.size inb_S200x16_S200x16_0_0), k4_pay2 (View.ld x0 (Rect.unit (s := S200x10000) ![0, 0] S200x10000.size inb_S200x10000_S200x10000_0_0)) (View.ld x2 (Rect.unit (s := S10000x16) ![0, 0] S10000x16.size inb_S10000x16_S10000x16_0_0))⟩]

/-- The one store covers the buffer. -/
theorem cover4_4 (p0 : Vec F S200x16 .f32) (y : S200x16.Idx) :
    ∃ pc ∈ ([⟨(Rect.unit (s := S200x16) ![0, 0] S200x16.size inb_S200x16_S200x16_0_0), p0⟩] : List (View.Piece (Elt F) S200x16 .f32)), y ∈ pc.1.set :=
  View.cover_of_tiled [⟨(Rect.unit (s := S200x16) ![0, 0] S200x16.size inb_S200x16_S200x16_0_0), p0⟩] S200x16.size (by rfl) y

set_option maxHeartbeats 4000000 in
/-- The body on whole staging buffers, the inputs' at known contents and the outputs' at anything, runs to the end
    leaving the inputs' as they were and each output's at its function of the inputs'. -/
theorem sound_kernel4 (c : Dev nD) (E : Set ℕ) (i : grid4.Coords) (arg0 : Memref sig .tc .vmem S200x10000 .bf16) (harg0 : arg0.IsWhole) (arg1 : Memref sig .tc .vmem S200x16 .f32) (harg1 : arg1.IsWhole) (arg2 : Memref sig .tc .vmem S10000x16 .f32) (harg2 : arg2.IsWhole) (arg3 : Memref sig .tc .vmem S200x10000 .f32) (harg3 : arg3.IsWhole) (arg4 : Memref sig .tc .vmem S200x16 .f32) (harg4 : arg4.IsWhole)
    (x0 : Vec F S200x10000 .bf16) (x1 : Vec F S200x16 .f32) (x2 : Vec F S10000x16 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x1 x2) ∗ owns (c : Thread nD τ) arg4 fullShare (out4_4 x0 x2)) -∗ K ⟨⟩))
      ⊢ wp frame (wpE (defs₀ (F := F)) Variants.none c none) E (cc4__pd_body i arg0 harg0 arg1 harg1 arg2 harg2 arg3 harg3 arg4 harg4) K := by
  simp only [cc4__pd_body_eq_skeleton]; unfold cc4__pd_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-- The pipeline's proof data on core `c`: the arrays as the region finds them; after the body at grid point `t` each
    input's staging buffer at its block and each output's at its function of the input blocks; nothing owed; full shares, but for the one array that input windows 1 and 2 both read, which they hold at its two half shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 1 t) (iblk4 V c 2 t)
    | ⟨4, _⟩ => out4_4 (iblk4 V c 0 t) (iblk4 V c 2 t)
  Φ _ := Pipeline.ΦA spec4 c
  q w := match w with
    | ⟨1, _⟩ => fullShare.left
    | ⟨2, _⟩ => fullShare.right
    | _ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 1 t) (iblk4 V c 2 t) := by dsimp only [dat4]
theorem after4_4 (c : Dev nD) (t : Fin cfg4.N) : (dat4 V c).after 4 t = out4_4 (iblk4 V c 0 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at grid point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any grid point: the inputs' staging buffers hold their blocks, so the body's triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The whole run: the five regions in sequence from the launch to the return.
  The contents of the core's buffers at each boundary are a fold from the launch memory: a region leaves each of its
  output windows' arrays at what its write-backs made of it and every other buffer as it found it. Each region is a
  record over the thread state "every unscoped buffer at the boundary's contents, the generator register at some
  state, nothing owed"; the last region reads one array through two input windows, which hold it at half shares.
  The run ends with every unscoped buffer at the last boundary's contents.
-/
import proofs.«104007_g67070209294347_cont_9to1_m_584_3_alg».proof.Proof.K.R0
import proofs.«104007_g67070209294347_cont_9to1_m_584_3_alg».proof.Proof.K.R1
import proofs.«104007_g67070209294347_cont_9to1_m_584_3_alg».proof.Proof.K.R2
import proofs.«104007_g67070209294347_cont_9to1_m_584_3_alg».proof.Proof.K.R3
import proofs.«104007_g67070209294347_cont_9to1_m_584_3_alg».proof.Proof.K.R4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After region 2: its arrays at what the pipeline leaves, every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After region 3: its arrays at what the pipeline leaves, every other buffer as entered. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-- After the last region: its two output arrays at what the pipeline leaves, every other buffer as entered (two of its
    input windows read one array, so the arrays are not pairwise distinct and the contents are updated by name). -/
def W5 (c : Dev nD) : Valuation τ sig (Elt F) :=
  Function.update (Function.update (W4 m c) (Proc.devRef .tc main_v4_0) ((dat4 (V4 m) c).arrAt 3 cfg4.N))
    (Proc.devRef .tc main_v4_1) ((dat4 (V4 m) c).arrAt 4 cfg4.N)
abbrev V5 : (c : Dev nD) → (b : Ref sig .tc) → Buf (Elt F) ((c : Thread nD τ).loc b) := fun c b => W5 m c b
theorem W5_v4_1 (c : Dev nD) : W5 m c (Proc.devRef .tc main_v4_1) = (dat4 (V4 m) c).arrAt 4 cfg4.N := by
  unfold W5; exact Function.update_self _ _ _
theorem W5_v4_0 (c : Dev nD) : W5 m c (Proc.devRef .tc main_v4_0) = (dat4 (V4 m) c).arrAt 3 cfg4.N := by
  unfold W5
  rw [Function.update_of_ne (StableHlo.devRef_ne_of_ne (by decide) : (Proc.devRef .tc main_v4_0 : DevRef τ sig) ≠ Proc.devRef .tc main_v4_1)]
  exact Function.update_self _ _ _
theorem W5_of_ne (c : Dev nD) (b : Ref sig .tc) (h0 : b ≠ main_v4_0) (h1 : b ≠ main_v4_1) :
    W5 m c (Proc.devRef .tc b) = W4 m c (Proc.devRef .tc b) := by
  unfold W5
  rw [Function.update_of_ne (StableHlo.devRef_ne_of_ne h1 : (Proc.devRef .tc b : DevRef τ sig) ≠ Proc.devRef .tc main_v4_1),
    Function.update_of_ne (StableHlo.devRef_ne_of_ne h0 : (Proc.devRef .tc b : DevRef τ sig) ≠ Proc.devRef .tc main_v4_0)]

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
abbrev 𝒱₀ : Variants := Variants.none
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as records -/

set_option backward.isDefEq.respectTransparency.types false in
/-- Region 0 over the thread state: entered with every unscoped buffer at `W0`, left with them at `W1`. Its arrays
    are split out of the unscoped buffers at entry and put back at their final contents at exit; the generator register
    goes through the pipeline's invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its arrays
    are split out of the unscoped buffers at entry and put back at their final contents at exit; the generator register
    goes through the pipeline's invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. Its arrays
    are split out of the unscoped buffers at entry and put back at their final contents at exit; the generator register
    goes through the pipeline's invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W3`, left with them at `W4`. Its arrays
    are split out of the unscoped buffers at entry and put back at their final contents at exit; the generator register
    goes through the pipeline's invariant; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The last region: one array behind two input windows -/

/-- The distinct buffers behind the last region's window arrays, one by one. -/
theorem arrBufs4_eq (c : Dev nD) (Vc : (b : Ref sig .tc) → Buf (Elt F) ((c : Thread nD τ).loc b)) :
    (Pipeline.arrBufs (Ix := Unit) (Name := ℕ) (U := UR sig nD τ) (Lvl := ℕ) spec4 c Vc : sProp 𝕄)
      = iprop((((c : Thread nD τ).loc main_v1_2) ↦{fullShare} Vc main_v1_2) ∗ (((c : Thread nD τ).loc main_v3_1) ↦{fullShare} Vc main_v3_1)
          ∗ (((c : Thread nD τ).loc main_v4_0) ↦{fullShare} Vc main_v4_0) ∗ (((c : Thread nD τ).loc main_v4_1) ↦{fullShare} Vc main_v4_1)) := by
  unfold Pipeline.arrBufs
  exact bigSep_eq_bigSepL_of_eq [main_v1_2, main_v3_1, main_v4_0, main_v4_1] (by decide) (by decide) _

/-- The last region's arrays, window by window: the array that windows 1 and 2 both read is held at its two half shares. -/
theorem arrays4_eq (c : Dev nD) (G : (w : Fin cfg4.W) → Buf (Elt F) ((cfg4.win w).arr.view.loc (c : Thread nD τ))) :
    ((dat4 (V4 m) c).arrays G : sProp 𝕄)
      = iprop((((c : Thread nD τ).loc main_v1_2) ↦{fullShare} G 0) ∗ (((c : Thread nD τ).loc main_v3_1) ↦{fullShare.left} G 1)
          ∗ (((c : Thread nD τ).loc main_v3_1) ↦{fullShare.right} G 2)
          ∗ (((c : Thread nD τ).loc main_v4_0) ↦{fullShare} G 3) ∗ (((c : Thread nD τ).loc main_v4_1) ↦{fullShare} G 4)) := by
  have h : ((dat4 (V4 m) c).arrays G : sProp 𝕄)
      = bigSep Finset.univ fun w => ((((c : Thread nD τ).loc (Pipeline.arrRef spec4 w)) ↦{(dat4 (V4 m) c).share w} G w : sProp 𝕄)) := by
    unfold Pipeline.Dat.arrays
    exact bigSep_congr fun w _ => by rw [(arr_whole4 w).set_eq_univ]
  rw [h, bigSep_W4]
  rfl

/-- Entry: the core's unscoped buffers are the last region's arrays at their entry contents, the shared array split into
    its two halves, and the unscoped rest. -/
theorem entry4 (c : Dev nD) :
    (unscopedBufs c (V4 m c) : sProp 𝕄)
      ⊢ iprop((dat4 (V4 m) c).arrays ((dat4 (V4 m) c).arrAt · 0)
          ∗ Pipeline.unscopedRest (Ix := Unit) (Name := ℕ) (U := UR sig nD τ) (Lvl := ℕ) spec4 c (V4 m c)) := by
  have hs : (unscopedBufs c (V4 m c) : sProp 𝕄) = iprop(Pipeline.arrBufs spec4 c (V4 m c) ∗ Pipeline.unscopedRest spec4 c (V4 m c)) :=
    Pipeline.unscopedBufs_split₀ cfgs 4 winFacts₀4.arr_unscoped c (V4 m c)
  rw [hs, arrBufs4_eq, arrays4_eq]
  have hsh : ((((c : Thread nD τ).loc main_v3_1) ↦{fullShare} V4 m c main_v3_1 : sProp 𝕄))
      ⊢ iprop((((c : Thread nD τ).loc main_v3_1) ↦{fullShare.left} V4 m c main_v3_1) ∗ (((c : Thread nD τ).loc main_v3_1) ↦{fullShare.right} V4 m c main_v3_1)) :=
    (pointsTo_share (PosShare.mem_left_op_right fullShare)).1
  refine (sep_mono (sep_mono .rfl (sep_mono hsh .rfl)) .rfl).trans ?_
  iintro ⟨⟨H0, ⟨H1l, H1r⟩, H3, H4⟩, Hrest⟩
  isplitr [Hrest]
  · isplitl [H0]; · iexact H0
    isplitl [H1l]; · iexact H1l
    isplitl [H1r]; · iexact H1r
    isplitl [H3]; · iexact H3
    iexact H4
  iexact Hrest

theorem arrAt4_0 (c : Dev nD) : (dat4 (V4 m) c).arrAt 0 cfg4.N = V5 m c main_v1_2 :=
  (((dat4 (V4 m) c).arrAt_in 0 rfl _).trans (A_eq4 (V4 m) c 0)).trans (W5_of_ne m c main_v1_2 (by decide) (by decide)).symm
theorem arrAt4_1 (c : Dev nD) : (dat4 (V4 m) c).arrAt 1 cfg4.N = V5 m c main_v3_1 :=
  (((dat4 (V4 m) c).arrAt_in 1 rfl _).trans (A_eq4 (V4 m) c 1)).trans (W5_of_ne m c main_v3_1 (by decide) (by decide)).symm
theorem arrAt4_2 (c : Dev nD) : (dat4 (V4 m) c).arrAt 2 cfg4.N = V5 m c main_v3_1 :=
  (((dat4 (V4 m) c).arrAt_in 2 rfl _).trans (A_eq4 (V4 m) c 2)).trans (W5_of_ne m c main_v3_1 (by decide) (by decide)).symm

/-- Exit: the last region's arrays at their final contents, the two halves of the shared array joined, and the unscoped
    rest are the core's unscoped buffers at the last boundary's contents. -/
theorem exit4 (c : Dev nD) :
    iprop((dat4 (V4 m) c).arrays ((dat4 (V4 m) c).arrAt · cfg4.N)
          ∗ Pipeline.unscopedRest (Ix := Unit) (Name := ℕ) (U := UR sig nD τ) (Lvl := ℕ) spec4 c (V4 m c))
      ⊢ (unscopedBufs c (V5 m c) : sProp 𝕄) := by
  have hs : (unscopedBufs c (V5 m c) : sProp 𝕄) = iprop(Pipeline.arrBufs spec4 c (V5 m c) ∗ Pipeline.unscopedRest spec4 c (V5 m c)) :=
    Pipeline.unscopedBufs_split₀ cfgs 4 winFacts₀4.arr_unscoped c (V5 m c)
  rw [hs, arrBufs4_eq, arrays4_eq, arrAt4_0, arrAt4_1, arrAt4_2,
    show (Pipeline.unscopedRest (Ix := Unit) (Name := ℕ) (U := UR sig nD τ) (Lvl := ℕ) spec4 c (V4 m c) : sProp 𝕄)
        = Pipeline.unscopedRest spec4 c (V5 m c) from by
      unfold Pipeline.unscopedRest
      exact bigSep_congr fun b hb => by
        have hb' := (Finset.mem_sdiff.mp hb).2
        rw [show V5 m c b = V4 m c b from W5_of_ne m c b
          (fun e => hb' (Finset.mem_image.mpr ⟨3, Finset.mem_univ _, e.symm⟩))
          (fun e => hb' (Finset.mem_image.mpr ⟨4, Finset.mem_univ _, e.symm⟩))]]
  have hsh : iprop((((c : Thread nD τ).loc main_v3_1) ↦{fullShare.left} V5 m c main_v3_1) ∗ (((c : Thread nD τ).loc main_v3_1) ↦{fullShare.right} V5 m c main_v3_1))
      ⊢ ((((c : Thread nD τ).loc main_v3_1) ↦{fullShare} V5 m c main_v3_1 : sProp 𝕄)) :=
    (pointsTo_share (PosShare.mem_left_op_right fullShare)).2
  refine .trans ?_ (sep_mono (sep_mono .rfl (sep_mono hsh .rfl)) .rfl)
  iintro ⟨⟨H0, H1l, H1r, H3, H4⟩, Hrest⟩
  isplitr [Hrest]
  · isplitl [H0]; · iexact H0
    isplitl [H1l H1r]
    · isplitl [H1l]; · iexact H1l
      iexact H1r
    isplitl [H3]
    · rw [show V5 m c main_v4_0 = (dat4 (V4 m) c).arrAt 3 cfg4.N from W5_v4_0 m c]; iexact H3
    rw [show V5 m c main_v4_1 = (dat4 (V4 m) c).arrAt 4 cfg4.N from W5_v4_1 m c]; iexact H4
  iexact Hrest

set_option backward.isDefEq.respectTransparency.types false in
/-- The last region over the thread state: entered with every unscoped buffer at `W4`, left with them at `W5`. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (V4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit : (unscopedBufs c (V4 m c) : sProp 𝕄)
        ⊢ iprop((pdats m 4 c).arrays ((pdats m 4 c).arrAt · 0)
            ∗ Pipeline.unscopedRest (Ix := Unit) (Name := ℕ) (U := UR sig nD τ) (Lvl := ℕ) spec4 c (V4 m c)) := entry4 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N)
          ∗ Pipeline.unscopedRest (Ix := Unit) (Name := ℕ) (U := UR sig nD τ) (Lvl := ℕ) spec4 c (V4 m c))
        ⊢ (unscopedBufs c (V5 m c) : sProp 𝕄) := exit4 m c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The five regions in sequence, and the launch -/

abbrev segs : List (Pipeline.Seg (pcfgs (F := F)) adm (pdats m) () defs₀ 𝒱₀ L lv) :=
  [ .region (reg0 m), .region (reg1 m), .region (reg2 m), .region (reg3 m), .region (reg4 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## What a region keeps: every buffer that is not one of its output windows' arrays -/

theorem keep0_in (c : Dev nD) (w : Fin cfg0.W) (h : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w h _).trans (A_eq0 (V0 m) c w))

theorem keep1_in (c : Dev nD) (w : Fin cfg1.W) (h : (cfg1.win w).isOut = false) :
    W2 m c (Proc.devRef .tc (Pipeline.arrRef spec1 w)) = W1 m c (Proc.devRef .tc (Pipeline.arrRef spec1 w)) :=
  (W2_arr m c w).trans (((dat1 (V1 m) c).arrAt_in w h _).trans (A_eq1 (V1 m) c w))

theorem keep2_in (c : Dev nD) (w : Fin cfg2.W) (h : (cfg2.win w).isOut = false) :
    W3 m c (Proc.devRef .tc (Pipeline.arrRef spec2 w)) = W2 m c (Proc.devRef .tc (Pipeline.arrRef spec2 w)) :=
  (W3_arr m c w).trans (((dat2 (V2 m) c).arrAt_in w h _).trans (A_eq2 (V2 m) c w))

theorem keep3_in (c : Dev nD) (w : Fin cfg3.W) (h : (cfg3.win w).isOut = false) :
    W4 m c (Proc.devRef .tc (Pipeline.arrRef spec3 w)) = W3 m c (Proc.devRef .tc (Pipeline.arrRef spec3 w)) :=
  (W4_arr m c w).trans (((dat3 (V3 m) c).arrAt_in w h _).trans (A_eq3 (V3 m) c w))

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide) (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := keep0_in m c 0 rfl
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := keep1_in m c 0 rfl
    _ = W0 m c (Proc.devRef .tc main_arg1) := W1_of_ne m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide) (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := keep0_in m c 1 rfl
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide) (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := keep1_in m c 2 rfl
    _ = W0 m c (Proc.devRef .tc main_arg3) := W1_of_ne m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide) (by decide)
    _ = W3 m c (Proc.devRef .tc main_arg4) := W4_of_ne m c main_arg4 (by decide)
    _ = W2 m c (Proc.devRef .tc main_arg4) := keep2_in m c 3 rfl
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Hand

end
-- ==== Proof.KI.R0.lean ====
/-
  Region 0 of the program: the kernel `cc0__s1_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.KernelIdeal.Launch
import proofs.«104007_g67070209294347_cont_9to1_m_584_3_alg».proof.Proof.Gen.KernelIdeal.Skeleton
import proofs.«104007_g67070209294347_cont_9to1_m_584_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, fetched there or kept from an earlier
    point at which the block index was the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, fetched there or kept from an earlier
    point at which the block index was the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in output window 2's staging buffer: one store of the whole buffer, its value a pure function
    of the loaded input blocks. -/
def out0_2 (x0 : Vec F S2000x128 .f32) (x1 : Vec F S128x64 .f32) : Vec F S2000x64 .f32 :=
  View.canon [⟨(Rect.unit (s := S2000x64) ![0, 0] S2000x64.size inb_S2000x64_S2000x64_0_0), k0_pay1 (View.ld x0 (Rect.unit (s := S2000x128) ![0, 0] S2000x128.size inb_S2000x128_S2000x128_0_0)) (View.ld x1 (Rect.unit (s := S128x64) ![0, 0] S128x64.size inb_S128x64_S128x64_0_0))⟩]

/-- The one store covers the buffer. -/
theorem cover0_2 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 4000000 in
/-- The body on whole staging buffers, the inputs' at known contents and the outputs' at anything, runs to the end
    leaving the inputs' as they were and each output's at its function of the inputs'. -/
theorem sound_kernel0 (c : Dev nD) (E : Set ℕ) (i : grid0.Coords) (arg0 : Memref sig .tc .vmem S2000x128 .f32) (harg0 : arg0.IsWhole) (arg1 : Memref sig .tc .vmem S128x64 .f32) (harg1 : arg1.IsWhole) (arg2 : Memref sig .tc .vmem S2000x64 .f32) (harg2 : arg2.IsWhole)
    (x0 : Vec F S2000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__s1_body i arg0 harg0 arg1 harg1 arg2 harg2) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at grid point `t` each
    input's staging buffer at its block and each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at grid point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the inputs' staging buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the program: the kernel `cc1__pa_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.KernelIdeal.Launch
import proofs.«104007_g67070209294347_cont_9to1_m_584_3_alg».proof.Proof.Gen.KernelIdeal.Skeleton
import proofs.«104007_g67070209294347_cont_9to1_m_584_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, fetched there or kept from an earlier
    point at which the block index was the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, fetched there or kept from an earlier
    point at which the block index was the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, fetched there or kept from an earlier
    point at which the block index was the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in output window 3's staging buffer: one store of the whole buffer, its value a pure function
    of the loaded input blocks. -/
def out1_3 (x0 : Vec F S200x10000 .f32) (x1 : Vec F S10000x64 .f32) : Vec F S200x64 .f32 :=
  View.canon [⟨(Rect.unit (s := S200x64) ![0, 0] S200x64.size inb_S200x64_S200x64_0_0), k1_pay2 (View.ld x0 (Rect.unit (s := S200x10000) ![0, 0] S200x10000.size inb_S200x10000_S200x10000_0_0)) (View.ld x1 (Rect.unit (s := S10000x64) ![0, 0] S10000x64.size inb_S10000x64_S10000x64_0_0))⟩]

/-- The one store covers the buffer. -/
theorem cover1_3 (p0 : Vec F S200x64 .f32) (y : S200x64.Idx) :
    ∃ pc ∈ ([⟨(Rect.unit (s := S200x64) ![0, 0] S200x64.size inb_S200x64_S200x64_0_0), p0⟩] : List (View.Piece (Elt F) S200x64 .f32)), y ∈ pc.1.set :=
  View.cover_of_tiled [⟨(Rect.unit (s := S200x64) ![0, 0] S200x64.size inb_S200x64_S200x64_0_0), p0⟩] S200x64.size (by rfl) y

/-- What the body leaves in output window 4's staging buffer: one store of the whole buffer, its value a pure function
    of the loaded input blocks. -/
def out1_4 (x0 : Vec F S200x10000 .f32) (x1 : Vec F S10000x64 .f32) (x2 : Vec F S64x32 .f32) : Vec F S200x32 .f32 :=
  View.canon [⟨(Rect.unit (s := S200x32) ![0, 0] S200x32.size inb_S200x32_S200x32_0_0), k1_pay3 (View.ld x0 (Rect.unit (s := S200x10000) ![0, 0] S200x10000.size inb_S200x10000_S200x10000_0_0)) (View.ld x1 (Rect.unit (s := S10000x64) ![0, 0] S10000x64.size inb_S10000x64_S10000x64_0_0)) (View.ld x2 (Rect.unit (s := S64x32) ![0, 0] S64x32.size inb_S64x32_S64x32_0_0))⟩]

/-- The one store covers the buffer. -/
theorem cover1_4 (p0 : Vec F S200x32 .f32) (y : S200x32.Idx) :
    ∃ pc ∈ ([⟨(Rect.unit (s := S200x32) ![0, 0] S200x32.size inb_S200x32_S200x32_0_0), p0⟩] : List (View.Piece (Elt F) S200x32 .f32)), y ∈ pc.1.set :=
  View.cover_of_tiled [⟨(Rect.unit (s := S200x32) ![0, 0] S200x32.size inb_S200x32_S200x32_0_0), p0⟩] S200x32.size (by rfl) y

/-- What the body leaves in output window 5's staging buffer: one store of the whole buffer, its value a pure function
    of the loaded input blocks. -/
def out1_5 (x0 : Vec F S200x10000 .f32) : Vec F S200x10000 .bf16 :=
  View.canon [⟨(Rect.unit (s := S200x10000) ![0, 0] S200x10000.size inb_S200x10000_S200x10000_0_0), k1_pay1 (View.ld x0 (Rect.unit (s := S200x10000) ![0, 0] S200x10000.size inb_S200x10000_S200x10000_0_0))⟩]

/-- The one store covers the buffer. -/
theorem cover1_5 (p0 : Vec F S200x10000 .bf16) (y : S200x10000.Idx) :
    ∃ pc ∈ ([⟨(Rect.unit (s := S200x10000) ![0, 0] S200x10000.size inb_S200x10000_S200x10000_0_0), p0⟩] : List (View.Piece (Elt F) S200x10000 .bf16)), y ∈ pc.1.set :=
  View.cover_of_tiled [⟨(Rect.unit (s := S200x10000) ![0, 0] S200x10000.size inb_S200x10000_S200x10000_0_0), p0⟩] S200x10000.size (by rfl) y

set_option maxHeartbeats 4000000 in
/-- The body on whole staging buffers, the inputs' at known contents and the outputs' at anything, runs to the end
    leaving the inputs' as they were and each output's at its function of the inputs'. -/
theorem sound_kernel1 (c : Dev nD) (E : Set ℕ) (i : grid1.Coords) (arg0 : Memref sig .tc .vmem S200x10000 .f32) (harg0 : arg0.IsWhole) (arg1 : Memref sig .tc .vmem S10000x64 .f32) (harg1 : arg1.IsWhole) (arg2 : Memref sig .tc .vmem S64x32 .f32) (harg2 : arg2.IsWhole) (arg3 : Memref sig .tc .vmem S200x64 .f32) (harg3 : arg3.IsWhole) (arg4 : Memref sig .tc .vmem S200x32 .f32) (harg4 : arg4.IsWhole) (arg5 : Memref sig .tc .vmem S200x10000 .bf16) (harg5 : arg5.IsWhole)
    (x0 : Vec F S200x10000 .f32) (x1 : Vec F S10000x64 .f32) (x2 : Vec F S64x32 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1) ∗ owns (c : Thread nD τ) arg4 fullShare (out1_4 x0 x1 x2) ∗ owns (c : Thread nD τ) arg5 fullShare (out1_5 x0)) -∗ K ⟨⟩))
      ⊢ wp frame (wpE (defs₀ (F := F)) Variants.none c none) E (cc1__pa_body i arg0 harg0 arg1 harg1 arg2 harg2 arg3 harg3 arg4 harg4 arg5 harg5) K := by
  simp only [cc1__pa_body_eq_skeleton]; unfold cc1__pa_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-- The pipeline's proof data on core `c`: the arrays as the region finds them; after the body at grid point `t` each
    input's staging buffer at its block and each output's at its function of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
    | ⟨5, _⟩ => out1_5 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at grid point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: the inputs' staging buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of the program: the kernel `cc2__pb_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.KernelIdeal.Launch
import proofs.«104007_g67070209294347_cont_9to1_m_584_3_alg».proof.Proof.Gen.KernelIdeal.Skeleton
import proofs.«104007_g67070209294347_cont_9to1_m_584_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every grid point, fetched there or kept from an earlier
    point at which the block index was the same. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, fetched there or kept from an earlier
    point at which the block index was the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, fetched there or kept from an earlier
    point at which the block index was the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every grid point, fetched there or kept from an earlier
    point at which the block index was the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in output window 4's staging buffer: one store of the whole buffer, its value a pure function
    of the loaded input blocks. -/
def out2_4 (x0 : Vec F S400x10000 .bf16) (x1 : Vec F S10000x64 .f32) : Vec F S400x64 .f32 :=
  View.canon [⟨(Rect.unit (s := S400x64) ![0, 0] S400x64.size inb_S400x64_S400x64_0_0), k2_pay2 (View.ld x0 (Rect.unit (s := S400x10000) ![0, 0] S400x10000.size inb_S400x10000_S400x10000_0_0)) (View.ld x1 (Rect.unit (s := S10000x64) ![0, 0] S10000x64.size inb_S10000x64_S10000x64_0_0))⟩]

/-- The one store covers the buffer. -/
theorem cover2_4 (p0 : Vec F S400x64 .f32) (y : S400x64.Idx) :
    ∃ pc ∈ ([⟨(Rect.unit (s := S400x64) ![0, 0] S400x64.size inb_S400x64_S400x64_0_0), p0⟩] : List (View.Piece (Elt F) S400x64 .f32)), y ∈ pc.1.set :=
  View.cover_of_tiled [⟨(Rect.unit (s := S400x64) ![0, 0] S400x64.size inb_S400x64_S400x64_0_0), p0⟩] S400x64.size (by rfl) y

/-- What the body leaves in output window 5's staging buffer: one store of the whole buffer, its value a pure function
    of the loaded input blocks. -/
def out2_5 (x0 : Vec F S400x10000 .bf16) (x2 : Vec F S10000x32 .f32) : Vec F S400x32 .f32 :=
  View.canon [⟨(Rect.unit (s := S400x32) ![0, 0] S400x32.size inb_S400x32_S400x32_0_0), k2_pay3 (View.ld x0 (Rect.unit (s := S400x10000) ![0, 0] S400x10000.size inb_S400x10000_S400x10000_0_0)) (View.ld x2 (Rect.unit (s := S10000x32) ![0, 0] S10000x32.size inb_S10000x32_S10000x32_0_0))⟩]

/-- The one store covers the buffer. -/
theorem cover2_5 (p0 : Vec F S400x32 .f32) (y : S400x32.Idx) :
    ∃ pc ∈ ([⟨(Rect.unit (s := S400x32) ![0, 0] S400x32.size inb_S400x32_S400x32_0_0), p0⟩] : List (View.Piece (Elt F) S400x32 .f32)), y ∈ pc.1.set :=
  View.cover_of_tiled [⟨(Rect.unit (s := S400x32) ![0, 0] S400x32.size inb_S400x32_S400x32_0_0), p0⟩] S400x32.size (by rfl) y

/-- What the body leaves in output window 6's staging buffer: one store of the whole buffer, its value a pure function
    of the loaded input blocks. -/
def out2_6 (x0 : Vec F S400x10000 .bf16) (x2 : Vec F S10000x32 .f32) (x3 : Vec F S32x16 .f32) : Vec F S400x16 .f32 :=
  View.canon [⟨(Rect.unit (s := S400x16) ![0, 0] S400x16.size inb_S400x16_S400x16_0_0), k2_pay4 (View.ld x0 (Rect.unit (s := S400x10000) ![0, 0] S400x10000.size inb_S400x10000_S400x10000_0_0)) (View.ld x2 (Rect.unit (s := S10000x32) ![0, 0] S10000x32.size inb_S10000x32_S10000x32_0_0)) (View.ld x3 (Rect.unit (s := S32x16) ![0, 0] S32x16.size inb_S32x16_S32x16_0_0))⟩]

/-- The one store covers the buffer. -/
theorem cover2_6 (p0 : Vec F S400x16 .f32) (y : S400x16.Idx) :
    ∃ pc ∈ ([⟨(Rect.unit (s := S400x16) ![0, 0] S400x16.size inb_S400x16_S400x16_0_0), p0⟩] : List (View.Piece (Elt F) S400x16 .f32)), y ∈ pc.1.set :=
  View.cover_of_tiled [⟨(Rect.unit (s := S400x16) ![0, 0] S400x16.size inb_S400x16_S400x16_0_0), p0⟩] S400x16.size (by rfl) y

set_option maxHeartbeats 4000000 in
/-- The body on whole staging buffers, the inputs' at known contents and the outputs' at anything, runs to the end
    leaving the inputs' as they were and each output's at its function of the inputs'. -/
theorem sound_kernel2 (c : Dev nD) (E : Set ℕ) (i : grid2.Coords) (arg0 : Memref sig .tc .vmem S400x10000 .bf16) (harg0 : arg0.IsWhole) (arg1 : Memref sig .tc .vmem S10000x64 .f32) (harg1 : arg1.IsWhole) (arg2 : Memref sig .tc .vmem S10000x32 .f32) (harg2 : arg2.IsWhole) (arg3 : Memref sig .tc .vmem S32x16 .f32) (harg3 : arg3.IsWhole) (arg4 : Memref sig .tc .vmem S400x64 .f32) (harg4 : arg4.IsWhole) (arg5 : Memref sig .tc .vmem S400x32 .f32) (harg5 : arg5.IsWhole) (arg6 : Memref sig .tc .vmem S400x16 .f32) (harg6 : arg6.IsWhole)
    (x0 : Vec F S400x10000 .bf16) (x1 : Vec F S10000x64 .f32) (x2 : Vec F S10000x32 .f32) (x3 : Vec F S32x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1) ∗ owns (c : Thread nD τ) arg5 fullShare (out2_5 x0 x2) ∗ owns (c : Thread nD τ) arg6 fullShare (out2_6 x0 x2 x3)) -∗ K ⟨⟩))
      ⊢ wp frame (wpE (defs₀ (F := F)) Variants.none c none) E (cc2__pb_body i arg0 harg0 arg1 harg1 arg2 harg2 arg3 harg3 arg4 harg4 arg5 harg5 arg6 harg6) K := by
  simp only [cc2__pb_body_eq_skeleton]; unfold cc2__pb_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-- The pipeline's proof data on core `c`: the arrays as the region finds them; after the body at grid point `t` each
    input's staging buffer at its block and each output's at its function of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 2 t)
    | ⟨6, _⟩ => out2_6 (iblk2 V c 0 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 2 t) := by dsimp only [dat2]
theorem after2_6 (c : Dev nD) (t : Fin cfg2.N) : (dat2 V c).after 6 t = out2_6 (iblk2 V c 0 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at grid point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any grid point: the inputs' staging buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3 of the program: the kernel `cc3__pc_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.KernelIdeal.Launch
import proofs.«104007_g67070209294347_cont_9to1_m_584_3_alg».proof.Proof.Gen.KernelIdeal.Skeleton
import proofs.«104007_g67070209294347_cont_9to1_m_584_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every grid point, fetched there or kept from an earlier
    point at which the block index was the same. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every grid point, fetched there or kept from an earlier
    point at which the block index was the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every grid point, fetched there or kept from an earlier
    point at which the block index was the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in output window 3's staging buffer: one store of the whole buffer, its value a pure function
    of the loaded input blocks. -/
def out3_3 (x0 : Vec F S400x10000 .bf16) (x1 : Vec F S10000x32 .f32) : Vec F S400x32 .f32 :=
  View.canon [⟨(Rect.unit (s := S400x32) ![0, 0] S400x32.size inb_S400x32_S400x32_0_0), k3_pay2 (View.ld x0 (Rect.unit (s := S400x10000) ![0, 0] S400x10000.size inb_S400x10000_S400x10000_0_0)) (View.ld x1 (Rect.unit (s := S10000x32) ![0, 0] S10000x32.size inb_S10000x32_S10000x32_0_0))⟩]

/-- The one store covers the buffer. -/
theorem cover3_3 (p0 : Vec F S400x32 .f32) (y : S400x32.Idx) :
    ∃ pc ∈ ([⟨(Rect.unit (s := S400x32) ![0, 0] S400x32.size inb_S400x32_S400x32_0_0), p0⟩] : List (View.Piece (Elt F) S400x32 .f32)), y ∈ pc.1.set :=
  View.cover_of_tiled [⟨(Rect.unit (s := S400x32) ![0, 0] S400x32.size inb_S400x32_S400x32_0_0), p0⟩] S400x32.size (by rfl) y

/-- What the body leaves in output window 4's staging buffer: one store of the whole buffer, its value a pure function
    of the loaded input blocks. -/
def out3_4 (x0 : Vec F S400x10000 .bf16) (x2 : Vec F S10000x16 .f32) : Vec F S400x16 .f32 :=
  View.canon [⟨(Rect.unit (s := S400x16) ![0, 0] S400x16.size inb_S400x16_S400x16_0_0), k3_pay3 (View.ld x0 (Rect.unit (s := S400x10000) ![0, 0] S400x10000.size inb_S400x10000_S400x10000_0_0)) (View.ld x2 (Rect.unit (s := S10000x16) ![0, 0] S10000x16.size inb_S10000x16_S10000x16_0_0))⟩]

/-- The one store covers the buffer. -/
theorem cover3_4 (p0 : Vec F S400x16 .f32) (y : S400x16.Idx) :
    ∃ pc ∈ ([⟨(Rect.unit (s := S400x16) ![0, 0] S400x16.size inb_S400x16_S400x16_0_0), p0⟩] : List (View.Piece (Elt F) S400x16 .f32)), y ∈ pc.1.set :=
  View.cover_of_tiled [⟨(Rect.unit (s := S400x16) ![0, 0] S400x16.size inb_S400x16_S400x16_0_0), p0⟩] S400x16.size (by rfl) y

set_option maxHeartbeats 4000000 in
/-- The body on whole staging buffers, the inputs' at known contents and the outputs' at anything, runs to the end
    leaving the inputs' as they were and each output's at its function of the inputs'. -/
theorem sound_kernel3 (c : Dev nD) (E : Set ℕ) (i : grid3.Coords) (arg0 : Memref sig .tc .vmem S400x10000 .bf16) (harg0 : arg0.IsWhole) (arg1 : Memref sig .tc .vmem S10000x32 .f32) (harg1 : arg1.IsWhole) (arg2 : Memref sig .tc .vmem S10000x16 .f32) (harg2 : arg2.IsWhole) (arg3 : Memref sig .tc .vmem S400x32 .f32) (harg3 : arg3.IsWhole) (arg4 : Memref sig .tc .vmem S400x16 .f32) (harg4 : arg4.IsWhole)
    (x0 : Vec F S400x10000 .bf16) (x1 : Vec F S10000x32 .f32) (x2 : Vec F S10000x16 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1) ∗ owns (c : Thread nD τ) arg4 fullShare (out3_4 x0 x2)) -∗ K ⟨⟩))
      ⊢ wp frame (wpE (defs₀ (F := F)) Variants.none c none) E (cc3__pc_body i arg0 harg0 arg1 harg1 arg2 harg2 arg3 harg3 arg4 harg4) K := by
  simp only [cc3__pc_body_eq_skeleton]; unfold cc3__pc_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-- The pipeline's proof data on core `c`: the arrays as the region finds them; after the body at grid point `t` each
    input's staging buffer at its block and each output's at its function of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at grid point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any grid point: the inputs' staging buffers hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/-
  Region 4 of the program: the kernel `cc4__pd_body` run once per grid point on the staged blocks of its windows.
  Stated at a parameter `V`, the contents of the core's buffers when the region is entered: the block of each window at
  a grid point, what the body leaves in each output window's staging buffer as a function of the input blocks (one
  whole-buffer store of a pure value of the loaded blocks), the body's triple, and the pipeline's proof data with its
  body obligation at every grid point.
-/
import proofs.«104007_g67070209294347_cont_9to1_m_584_3_alg».proof.Proof.Gen.KernelIdeal.Launch
import proofs.«104007_g67070209294347_cont_9to1_m_584_3_alg».proof.Proof.Gen.KernelIdeal.Skeleton
import proofs.«104007_g67070209294347_cont_9to1_m_584_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every grid point, fetched there or kept from an earlier
    point at which the block index was the same. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every grid point, fetched there or kept from an earlier
    point at which the block index was the same. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every grid point, fetched there or kept from an earlier
    point at which the block index was the same. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in output window 3's staging buffer: one store of the whole buffer, its value a pure function
    of the loaded input blocks. -/
def out4_3 (x1 : Vec F S200x16 .f32) (x2 : Vec F S10000x16 .f32) : Vec F S200x10000 .f32 :=
  View.canon [⟨(Rect.unit (s := S200x10000) ![0, 0] S200x10000.size inb_S200x10000_S200x10000_0_0), k4_pay1 (View.ld x1 (Rect.unit (s := S200x16) ![0, 0] S200x16.size inb_S200x16_S200x16_0_0)) (View.ld x2 (Rect.unit (s := S10000x16) ![0, 0] S10000x16.size inb_S10000x16_S10000x16_0_0))⟩]

/-- The one store covers the buffer. -/
theorem cover4_3 (p0 : Vec F S200x10000 .f32) (y : S200x10000.Idx) :
    ∃ pc ∈ ([⟨(Rect.unit (s := S200x10000) ![0, 0] S200x10000.size inb_S200x10000_S200x10000_0_0), p0⟩] : List (View.Piece (Elt F) S200x10000 .f32)), y ∈ pc.1.set :=
  View.cover_of_tiled [⟨(Rect.unit (s := S200x10000) ![0, 0] S200x10000.size inb_S200x10000_S200x10000_0_0), p0⟩] S200x10000.size (by rfl) y

/-- What the body leaves in output window 4's staging buffer: one store of the whole buffer, its value a pure function
    of the loaded input blocks. -/
def out4_4 (x0 : Vec F S200x10000 .bf16) (x2 : Vec F S10000x16 .f32) : Vec F S200x16 .f32 :=
  View.canon [⟨(Rect.unit (s := S200x16) ![0, 0] S200x16.size inb_S200x16_S200x16_0_0), k4_pay2 (View.ld x0 (Rect.unit (s := S200x10000) ![0, 0] S200x10000.size inb_S200x10000_S200x10000_0_0)) (View.ld x2 (Rect.unit (s := S10000x16) ![0, 0] S10000x16.size inb_S10000x16_S10000x16_0_0))⟩]

/-- The one store covers the buffer. -/
theorem cover4_4 (p0 : Vec F S200x16 .f32) (y : S200x16.Idx) :
    ∃ pc ∈ ([⟨(Rect.unit (s := S200x16) ![0, 0] S200x16.size inb_S200x16_S200x16_0_0), p0⟩] : List (View.Piece (Elt F) S200x16 .f32)), y ∈ pc.1.set :=
  View.cover_of_tiled [⟨(Rect.unit (s := S200x16) ![0, 0] S200x16.size inb_S200x16_S200x16_0_0), p0⟩] S200x16.size (by rfl) y

set_option maxHeartbeats 4000000 in
/-- The body on whole staging buffers, the inputs' at known contents and the outputs' at anything, runs to the end
    leaving the inputs' as they were and each output's at its function of the inputs'. -/
theorem sound_kernel4 (c : Dev nD) (E : Set ℕ) (i : grid4.Coords) (arg0 : Memref sig .tc .vmem S200x10000 .bf16) (harg0 : arg0.IsWhole) (arg1 : Memref sig .tc .vmem S200x16 .f32) (harg1 : arg1.IsWhole) (arg2 : Memref sig .tc .vmem S10000x16 .f32) (harg2 : arg2.IsWhole) (arg3 : Memref sig .tc .vmem S200x10000 .f32) (harg3 : arg3.IsWhole) (arg4 : Memref sig .tc .vmem S200x16 .f32) (harg4 : arg4.IsWhole)
    (x0 : Vec F S200x10000 .bf16) (x1 : Vec F S200x16 .f32) (x2 : Vec F S10000x16 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x1 x2) ∗ owns (c : Thread nD τ) arg4 fullShare (out4_4 x0 x2)) -∗ K ⟨⟩))
      ⊢ wp frame (wpE (defs₀ (F := F)) Variants.none c none) E (cc4__pd_body i arg0 harg0 arg1 harg1 arg2 harg2 arg3 harg3 arg4 harg4) K := by
  simp only [cc4__pd_body_eq_skeleton]; unfold cc4__pd_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-- The pipeline's proof data on core `c`: the arrays as the region finds them; after the body at grid point `t` each
    input's staging buffer at its block and each output's at its function of the input blocks; nothing owed; full shares, but for the one array that input windows 1 and 2 both read, which they hold at its two half shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 1 t) (iblk4 V c 2 t)
    | ⟨4, _⟩ => out4_4 (iblk4 V c 0 t) (iblk4 V c 2 t)
  Φ _ := Pipeline.ΦA spec4 c
  q w := match w with
    | ⟨1, _⟩ => fullShare.left
    | ⟨2, _⟩ => fullShare.right
    | _ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 1 t) (iblk4 V c 2 t) := by dsimp only [dat4]
theorem after4_4 (c : Dev nD) (t : Fin cfg4.N) : (dat4 V c).after 4 t = out4_4 (iblk4 V c 0 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at grid point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any grid point: the inputs' staging buffers hold their blocks, so the body's triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The whole run: the five regions in sequence from the launch to the return.
  The contents of the core's buffers at each boundary are a fold from the launch memory: a region leaves each of its
  output windows' arrays at what its write-backs made of it and every other buffer as it found it. Each region is a
  record over the thread state "every unscoped buffer at the boundary's contents, the generator register at some
  state, nothing owed"; the last region reads one array through two input windows, which hold it at half shares.
  The run ends with every unscoped buffer at the last boundary's contents.
-/
import proofs.«104007_g67070209294347_cont_9to1_m_584_3_alg».proof.Proof.KI.R0
import proofs.«104007_g67070209294347_cont_9to1_m_584_3_alg».proof.Proof.KI.R1
import proofs.«104007_g67070209294347_cont_9to1_m_584_3_alg».proof.Proof.KI.R2
import proofs.«104007_g67070209294347_cont_9to1_m_584_3_alg».proof.Proof.KI.R3
import proofs.«104007_g67070209294347_cont_9to1_m_584_3_alg».proof.Proof.KI.R4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After region 2: its arrays at what the pipeline leaves, every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After region 3: its arrays at what the pipeline leaves, every other buffer as entered. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-- After the last region: its two output arrays at what the pipeline leaves, every other buffer as entered (two of its
    input windows read one array, so the arrays are not pairwise distinct and the contents are updated by name). -/
def W5 (c : Dev nD) : Valuation τ sig (Elt F) :=
  Function.update (Function.update (W4 m c) (Proc.devRef .tc main_v4_0) ((dat4 (V4 m) c).arrAt 3 cfg4.N))
    (Proc.devRef .tc main_v4_1) ((dat4 (V4 m) c).arrAt 4 cfg4.N)
abbrev V5 : (c : Dev nD) → (b : Ref sig .tc) → Buf (Elt F) ((c : Thread nD τ).loc b) := fun c b => W5 m c b
theorem W5_v4_1 (c : Dev nD) : W5 m c (Proc.devRef .tc main_v4_1) = (dat4 (V4 m) c).arrAt 4 cfg4.N := by
  unfold W5; exact Function.update_self _ _ _
theorem W5_v4_0 (c : Dev nD) : W5 m c (Proc.devRef .tc main_v4_0) = (dat4 (V4 m) c).arrAt 3 cfg4.N := by
  unfold W5
  rw [Function.update_of_ne (StableHlo.devRef_ne_of_ne (by decide) : (Proc.devRef .tc main_v4_0 : DevRef τ sig) ≠ Proc.devRef .tc main_v4_1)]
  exact Function.update_self _ _ _
theorem W5_of_ne (c : Dev nD) (b : Ref sig .tc) (h0 : b ≠ main_v4_0) (h1 : b ≠ main_v4_1) :
    W5 m c (Proc.devRef .tc b) = W4 m c (Proc.devRef .tc b) := by
  unfold W5
  rw [Function.update_of_ne (StableHlo.devRef_ne_of_ne h1 : (Proc.devRef .tc b : DevRef τ sig) ≠ Proc.devRef .tc main_v4_1),
    Function.update_of_ne (StableHlo.devRef_ne_of_ne h0 : (Proc.devRef .tc b : DevRef τ sig) ≠ Proc.devRef .tc main_v4_0)]

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
abbrev 𝒱₀ : Variants := Variants.none
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as records -/

set_option backward.isDefEq.respectTransparency.types false in
/-- Region 0 over the thread state: entered with every unscoped buffer at `W0`, left with them at `W1`. Its arrays
    are split out of the unscoped buffers at entry and put back at their final contents at exit; the generator register
    goes through the pipeline's invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`. Its arrays
    are split out of the unscoped buffers at entry and put back at their final contents at exit; the generator register
    goes through the pipeline's invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W2`, left with them at `W3`. Its arrays
    are split out of the unscoped buffers at entry and put back at their final contents at exit; the generator register
    goes through the pipeline's invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W3`, left with them at `W4`. Its arrays
    are split out of the unscoped buffers at entry and put back at their final contents at exit; the generator register
    goes through the pipeline's invariant; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The last region: one array behind two input windows -/

/-- The distinct buffers behind the last region's window arrays, one by one. -/
theorem arrBufs4_eq (c : Dev nD) (Vc : (b : Ref sig .tc) → Buf (Elt F) ((c : Thread nD τ).loc b)) :
    (Pipeline.arrBufs (Ix := Unit) (Name := ℕ) (U := UR sig nD τ) (Lvl := ℕ) spec4 c Vc : sProp 𝕄)
      = iprop((((c : Thread nD τ).loc main_v1_2) ↦{fullShare} Vc main_v1_2) ∗ (((c : Thread nD τ).loc main_v3_1) ↦{fullShare} Vc main_v3_1)
          ∗ (((c : Thread nD τ).loc main_v4_0) ↦{fullShare} Vc main_v4_0) ∗ (((c : Thread nD τ).loc main_v4_1) ↦{fullShare} Vc main_v4_1)) := by
  unfold Pipeline.arrBufs
  exact bigSep_eq_bigSepL_of_eq [main_v1_2, main_v3_1, main_v4_0, main_v4_1] (by decide) (by decide) _

/-- The last region's arrays, window by window: the array that windows 1 and 2 both read is held at its two half shares. -/
theorem arrays4_eq (c : Dev nD) (G : (w : Fin cfg4.W) → Buf (Elt F) ((cfg4.win w).arr.view.loc (c : Thread nD τ))) :
    ((dat4 (V4 m) c).arrays G : sProp 𝕄)
      = iprop((((c : Thread nD τ).loc main_v1_2) ↦{fullShare} G 0) ∗ (((c : Thread nD τ).loc main_v3_1) ↦{fullShare.left} G 1)
          ∗ (((c : Thread nD τ).loc main_v3_1) ↦{fullShare.right} G 2)
          ∗ (((c : Thread nD τ).loc main_v4_0) ↦{fullShare} G 3) ∗ (((c : Thread nD τ).loc main_v4_1) ↦{fullShare} G 4)) := by
  have h : ((dat4 (V4 m) c).arrays G : sProp 𝕄)
      = bigSep Finset.univ fun w => ((((c : Thread nD τ).loc (Pipeline.arrRef spec4 w)) ↦{(dat4 (V4 m) c).share w} G w : sProp 𝕄)) := by
    unfold Pipeline.Dat.arrays
    exact bigSep_congr fun w _ => by rw [(arr_whole4 w).set_eq_univ]
  rw [h, bigSep_W4]
  rfl

/-- Entry: the core's unscoped buffers are the last region's arrays at their entry contents, the shared array split into
    its two halves, and the unscoped rest. -/
theorem entry4 (c : Dev nD) :
    (unscopedBufs c (V4 m c) : sProp 𝕄)
      ⊢ iprop((dat4 (V4 m) c).arrays ((dat4 (V4 m) c).arrAt · 0)
          ∗ Pipeline.unscopedRest (Ix := Unit) (Name := ℕ) (U := UR sig nD τ) (Lvl := ℕ) spec4 c (V4 m c)) := by
  have hs : (unscopedBufs c (V4 m c) : sProp 𝕄) = iprop(Pipeline.arrBufs spec4 c (V4 m c) ∗ Pipeline.unscopedRest spec4 c (V4 m c)) :=
    Pipeline.unscopedBufs_split₀ cfgs 4 winFacts₀4.arr_unscoped c (V4 m c)
  rw [hs, arrBufs4_eq, arrays4_eq]
  have hsh : ((((c : Thread nD τ).loc main_v3_1) ↦{fullShare} V4 m c main_v3_1 : sProp 𝕄))
      ⊢ iprop((((c : Thread nD τ).loc main_v3_1) ↦{fullShare.left} V4 m c main_v3_1) ∗ (((c : Thread nD τ).loc main_v3_1) ↦{fullShare.right} V4 m c main_v3_1)) :=
    (pointsTo_share (PosShare.mem_left_op_right fullShare)).1
  refine (sep_mono (sep_mono .rfl (sep_mono hsh .rfl)) .rfl).trans ?_
  iintro ⟨⟨H0, ⟨H1l, H1r⟩, H3, H4⟩, Hrest⟩
  isplitr [Hrest]
  · isplitl [H0]; · iexact H0
    isplitl [H1l]; · iexact H1l
    isplitl [H1r]; · iexact H1r
    isplitl [H3]; · iexact H3
    iexact H4
  iexact Hrest

theorem arrAt4_0 (c : Dev nD) : (dat4 (V4 m) c).arrAt 0 cfg4.N = V5 m c main_v1_2 :=
  (((dat4 (V4 m) c).arrAt_in 0 rfl _).trans (A_eq4 (V4 m) c 0)).trans (W5_of_ne m c main_v1_2 (by decide) (by decide)).symm
theorem arrAt4_1 (c : Dev nD) : (dat4 (V4 m) c).arrAt 1 cfg4.N = V5 m c main_v3_1 :=
  (((dat4 (V4 m) c).arrAt_in 1 rfl _).trans (A_eq4 (V4 m) c 1)).trans (W5_of_ne m c main_v3_1 (by decide) (by decide)).symm
theorem arrAt4_2 (c : Dev nD) : (dat4 (V4 m) c).arrAt 2 cfg4.N = V5 m c main_v3_1 :=
  (((dat4 (V4 m) c).arrAt_in 2 rfl _).trans (A_eq4 (V4 m) c 2)).trans (W5_of_ne m c main_v3_1 (by decide) (by decide)).symm

/-- Exit: the last region's arrays at their final contents, the two halves of the shared array joined, and the unscoped
    rest are the core's unscoped buffers at the last boundary's contents. -/
theorem exit4 (c : Dev nD) :
    iprop((dat4 (V4 m) c).arrays ((dat4 (V4 m) c).arrAt · cfg4.N)
          ∗ Pipeline.unscopedRest (Ix := Unit) (Name := ℕ) (U := UR sig nD τ) (Lvl := ℕ) spec4 c (V4 m c))
      ⊢ (unscopedBufs c (V5 m c) : sProp 𝕄) := by
  have hs : (unscopedBufs c (V5 m c) : sProp 𝕄) = iprop(Pipeline.arrBufs spec4 c (V5 m c) ∗ Pipeline.unscopedRest spec4 c (V5 m c)) :=
    Pipeline.unscopedBufs_split₀ cfgs 4 winFacts₀4.arr_unscoped c (V5 m c)
  rw [hs, arrBufs4_eq, arrays4_eq, arrAt4_0, arrAt4_1, arrAt4_2,
    show (Pipeline.unscopedRest (Ix := Unit) (Name := ℕ) (U := UR sig nD τ) (Lvl := ℕ) spec4 c (V4 m c) : sProp 𝕄)
        = Pipeline.unscopedRest spec4 c (V5 m c) from by
      unfold Pipeline.unscopedRest
      exact bigSep_congr fun b hb => by
        have hb' := (Finset.mem_sdiff.mp hb).2
        rw [show V5 m c b = V4 m c b from W5_of_ne m c b
          (fun e => hb' (Finset.mem_image.mpr ⟨3, Finset.mem_univ _, e.symm⟩))
          (fun e => hb' (Finset.mem_image.mpr ⟨4, Finset.mem_univ _, e.symm⟩))]]
  have hsh : iprop((((c : Thread nD τ).loc main_v3_1) ↦{fullShare.left} V5 m c main_v3_1) ∗ (((c : Thread nD τ).loc main_v3_1) ↦{fullShare.right} V5 m c main_v3_1))
      ⊢ ((((c : Thread nD τ).loc main_v3_1) ↦{fullShare} V5 m c main_v3_1 : sProp 𝕄)) :=
    (pointsTo_share (PosShare.mem_left_op_right fullShare)).2
  refine .trans ?_ (sep_mono (sep_mono .rfl (sep_mono hsh .rfl)) .rfl)
  iintro ⟨⟨H0, H1l, H1r, H3, H4⟩, Hrest⟩
  isplitr [Hrest]
  · isplitl [H0]; · iexact H0
    isplitl [H1l H1r]
    · isplitl [H1l]; · iexact H1l
      iexact H1r
    isplitl [H3]
    · rw [show V5 m c main_v4_0 = (dat4 (V4 m) c).arrAt 3 cfg4.N from W5_v4_0 m c]; iexact H3
    rw [show V5 m c main_v4_1 = (dat4 (V4 m) c).arrAt 4 cfg4.N from W5_v4_1 m c]; iexact H4
  iexact Hrest

set_option backward.isDefEq.respectTransparency.types false in
/-- The last region over the thread state: entered with every unscoped buffer at `W4`, left with them at `W5`. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (V4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit : (unscopedBufs c (V4 m c) : sProp 𝕄)
        ⊢ iprop((pdats m 4 c).arrays ((pdats m 4 c).arrAt · 0)
            ∗ Pipeline.unscopedRest (Ix := Unit) (Name := ℕ) (U := UR sig nD τ) (Lvl := ℕ) spec4 c (V4 m c)) := entry4 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N)
          ∗ Pipeline.unscopedRest (Ix := Unit) (Name := ℕ) (U := UR sig nD τ) (Lvl := ℕ) spec4 c (V4 m c))
        ⊢ (unscopedBufs c (V5 m c) : sProp 𝕄) := exit4 m c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The five regions in sequence, and the launch -/

abbrev segs : List (Pipeline.Seg (pcfgs (F := F)) adm (pdats m) () defs₀ 𝒱₀ L lv) :=
  [ .region (reg0 m), .region (reg1 m), .region (reg2 m), .region (reg3 m), .region (reg4 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## What a region keeps: every buffer that is not one of its output windows' arrays -/

theorem keep0_in (c : Dev nD) (w : Fin cfg0.W) (h : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w h _).trans (A_eq0 (V0 m) c w))

theorem keep1_in (c : Dev nD) (w : Fin cfg1.W) (h : (cfg1.win w).isOut = false) :
    W2 m c (Proc.devRef .tc (Pipeline.arrRef spec1 w)) = W1 m c (Proc.devRef .tc (Pipeline.arrRef spec1 w)) :=
  (W2_arr m c w).trans (((dat1 (V1 m) c).arrAt_in w h _).trans (A_eq1 (V1 m) c w))

theorem keep2_in (c : Dev nD) (w : Fin cfg2.W) (h : (cfg2.win w).isOut = false) :
    W3 m c (Proc.devRef .tc (Pipeline.arrRef spec2 w)) = W2 m c (Proc.devRef .tc (Pipeline.arrRef spec2 w)) :=
  (W3_arr m c w).trans (((dat2 (V2 m) c).arrAt_in w h _).trans (A_eq2 (V2 m) c w))

theorem keep3_in (c : Dev nD) (w : Fin cfg3.W) (h : (cfg3.win w).isOut = false) :
    W4 m c (Proc.devRef .tc (Pipeline.arrRef spec3 w)) = W3 m c (Proc.devRef .tc (Pipeline.arrRef spec3 w)) :=
  (W4_arr m c w).trans (((dat3 (V3 m) c).arrAt_in w h _).trans (A_eq3 (V3 m) c w))

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide) (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := keep0_in m c 0 rfl
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := keep1_in m c 0 rfl
    _ = W0 m c (Proc.devRef .tc main_arg1) := W1_of_ne m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide) (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := keep0_in m c 1 rfl
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide) (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := keep1_in m c 2 rfl
    _ = W0 m c (Proc.devRef .tc main_arg3) := W1_of_ne m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide) (by decide)
    _ = W3 m c (Proc.devRef .tc main_arg4) := W4_of_ne m c main_arg4 (by decide)
    _ = W2 m c (Proc.devRef .tc main_arg4) := keep2_in m c 3 rfl
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Hand

end
-- ==== Proof.Spec.lean ====
/-
  The encoder as one function of its five argument arrays, index by index, over the extended reals.

  Three graph-convolution layers over a dense weight matrix `adj`: each layer multiplies its input by a small weight
  matrix (the first two then apply the leaky rectifier with slope 0.2 on the negatives), and multiplies the result
  by `adj` on the left. Besides the latent rows `zi` the encoder returns `adj` applied once more to each layer's
  output, and the decoder's logistic of the Gram matrix of the latent rows.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix with `a` rows and `b` columns of extended reals, as a function of its index. -/
abbrev Mat (a b : ℕ) : Type := (⟨2, ![a, b]⟩ : Shape).Idx → EReal

/-- The matrix product: entry `(r, c)` is the sum over `k` of `l (r, k) * r (k, c)`. -/
def mm {M K N : ℕ} (l : Mat M K) (r : Mat K N) : Mat M N :=
  fun i => ∑ k : Fin K, l (ix2 (i 0) k) * r (ix2 k (i 1))

/-- The Gram matrix of the rows: entry `(r, c)` is the sum over `k` of `z (r, k) * z (c, k)`. -/
def gram {M K : ℕ} (z : Mat M K) : Mat M M :=
  fun i => ∑ k : Fin K, z (ix2 (i 0) k) * z (ix2 (i 1) k)

/-- The leaky rectifier on one entry: `v` where `0 ≤ v`, else `0.2 * v` (the single-precision `0.2`). -/
def lrelu1 (v : EReal) : EReal :=
  Scalar.select (Ideal.cmp .oge v (Ideal.ofBits .f32 0x00000000#32)) v (Ideal.ofBits .f32 0x3E4CCCCD#32 * v)

/-- The leaky rectifier, entry by entry. -/
def lrelu {a b : ℕ} (v : Mat a b) : Mat a b := fun i => lrelu1 (v i)

variable (x : Mat 10000 128) (adj : Mat 10000 10000) (w1 : Mat 128 64) (w2 : Mat 64 32) (w3 : Mat 32 16)

def s1 : Mat 10000 64 := lrelu (mm x w1)
def z1 : Mat 10000 64 := mm adj (s1 x w1)
def az1 : Mat 10000 64 := mm adj (z1 x adj w1)
def s2 : Mat 10000 32 := lrelu (mm (z1 x adj w1) w2)
def z2 : Mat 10000 32 := mm adj (s2 x adj w1 w2)
def az2 : Mat 10000 32 := mm adj (z2 x adj w1 w2)
def s3 : Mat 10000 16 := mm (z2 x adj w1 w2) w3
def zi : Mat 10000 16 := mm adj (s3 x adj w1 w2 w3)
def az3 : Mat 10000 16 := mm adj (zi x adj w1 w2 w3)
/-- The decoder: the logistic function of the Gram matrix of the latent rows. -/
def zadj : Mat 10000 10000 := fun i => Ideal.logistic (gram (zi x adj w1 w2 w3) i)

end Cert.Spec

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.SigmoidForms.lean ====
/-
  The logistic function through the hyperbolic tangent.

  For every extended real `g`, `(1/2) * (tanh (g/2) + 1) = 1 / (1 + e^(-g))`. At a real `g`, with `u = e^(g/2)`,
  `tanh (g/2) = (u - 1/u) / (u + 1/u)`, so `tanh (g/2) + 1 = 2u / (u + 1/u) = 2 / (1 + 1/u^2)` and `1/u^2 = e^(-g)`.
  At `-∞` both sides are `0` (`tanh` is `-1`), at `+∞` both are `1` (`tanh` is `1`).
-/
import Idealize.ShloMosaic.PureOps.Ideal
import Idealize.ShloMosaic.PureOps.Ideal.Laws

noncomputable section

namespace Cert.SigmoidForms

open Idealize.ShloMosaic

/-- The single-precision pattern `0x3F800000` is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-- The single-precision pattern `0x3F000000` is the real one half. -/
theorem half_f32 : Ideal.ofBits .f32 0x3F000000#32 = (((1 : ℝ) / 2 : ℝ) : EReal) := by
  simp [Ideal.ofBits, Ideal.ieee, -EReal.coe_mul]; norm_num

/-- The real identity: `(1/2) * (tanh (r/2) + 1) = (1 + e^(-r))⁻¹`. -/
theorem real_half_tanh_half (r : ℝ) : (1 / 2 : ℝ) * (Real.tanh (1 / 2 * r) + 1) = (1 + Real.exp (-r))⁻¹ := by
  have hu : 0 < Real.exp (1 / 2 * r) := Real.exp_pos _
  have hr : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, Real.exp_neg, hr]
  generalize Real.exp (1 / 2 * r) = u at hu
  have hu' : u ≠ 0 := hu.ne'
  have h1 : u + u⁻¹ ≠ 0 := by positivity
  have h2 : 1 + u⁻¹ * u⁻¹ ≠ 0 := by positivity
  field_simp
  ring

/-- The logistic function is one half of one plus the hyperbolic tangent at half the argument. -/
theorem half_tanh_half (g : EReal) :
    Ideal.ofBits .f32 0x3F000000#32 * (Ideal.tanh (Ideal.ofBits .f32 0x3F000000#32 * g) + Ideal.ofBits .f32 0x3F800000#32)
      = Ideal.logistic g := by
  rw [one_f32, half_f32]
  induction g using EReal.rec with
  | bot =>
    have h0 : (-1 : EReal) + 1 = 0 := by
      rw [← EReal.coe_one, ← EReal.coe_neg, ← EReal.coe_add]
      norm_num
    rw [EReal.coe_mul_bot_of_pos (by norm_num), Ideal.tanh_bot, Ideal.logistic_bot, h0, mul_zero]
  | top =>
    rw [EReal.coe_mul_top_of_pos (by norm_num), Ideal.tanh_top, Ideal.logistic_top]
    rw [show (1 : EReal) = ((1 : ℝ) : EReal) by norm_cast, ← EReal.coe_add, ← EReal.coe_mul]
    norm_num
  | coe r =>
    rw [← EReal.coe_mul, Ideal.tanh_coe, Ideal.logistic_coe,
      show (1 : EReal) = ((1 : ℝ) : EReal) by norm_cast, ← EReal.coe_add, ← EReal.coe_mul, real_half_tanh_half]

end Cert.SigmoidForms

end
-- ==== Proof.KI.Pay.lean ====
/-
  The values the kernel's bodies compute, at the ideal instance, as the specification's functions of what they read.

  Over the extended reals a change of format is the identity, a reshape to the same shape is the identity, and the
  kernel's matrix product into a zero accumulator is the contraction sum. For dimension numbers that contract the left
  operand's columns with the right operand's rows this sum is the matrix product `mm`; for those that contract the
  columns of both operands it is the product with the transpose, `mmT`, whose diagonal case is the Gram matrix. The
  comparison with zero, the product with the single-precision 0.2 and the selection are the leaky rectifier, and
  `0.5 * (tanh (0.5 * g) + 1)` is the logistic function of `g`.

  Last, generic in the sizes: a block of rows of a product is the product of the block of rows, and the leaky rectifier
  commutes with any re-indexing.
-/
import proofs.«104007_g67070209294347_cont_9to1_m_584_3_alg».proof.Proof.Gen.KernelIdeal.Skeleton
import proofs.«104007_g67070209294347_cont_9to1_m_584_3_alg».proof.Proof.Spec
import proofs.«104007_g67070209294347_cont_9to1_m_584_3_alg».proof.Proof.LibPlainDot
import proofs.«104007_g67070209294347_cont_9to1_m_584_3_alg».proof.Proof.SigmoidForms
import Idealize.ShloMosaic.Lib.Pipeline.Value
import Idealize.ShloMosaic.Lib.ValueIdx

noncomputable section

namespace Cert.KernelIdeal.PayValue

open Cert.KernelIdeal Cert.KernelIdeal.Gen Idealize.ShloMosaic Idealize.ShloMosaic.ValueIdx Cert.Spec

/-! ## The product with the transpose -/

/-- The product with the transpose of the right operand: entry `(r, c)` is the sum over `k` of `l (r, k) * r (c, k)`. -/
def mmT {M K N : ℕ} (l : Mat M K) (r : Mat N K) : Mat M N :=
  fun i => ∑ k : Fin K, l (ix2 (i 0) k) * r (ix2 (i 1) k)

/-- The product of a matrix with its own transpose is the Gram matrix of its rows. -/
theorem mmT_self {M K : ℕ} (z : Mat M K) : mmT z z = gram z := rfl

section Transposed

variable (M K N : ℕ)

theorem lhs0T (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

theorem rhs0T (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The contraction sum of a product with the transpose, over the contracted coordinate. -/
theorem sum_transposedRhs {α : Type*} [AddCommMonoid α]
    (f : (⟨2, ![M, K]⟩ : Shape).Idx → (⟨2, ![N, K]⟩ : Shape).Idx → α) (i : (⟨2, ![M, N]⟩ : Shape).Idx) :
    ∑ q : (DotDims.transposedRhs M K N).contr.Idx,
        f ((DotDims.transposedRhs M K N).lhsIdx i q) ((DotDims.transposedRhs M K N).rhsIdx i q)
      = ∑ k : Fin K, f (ix2 (i 0) k) (ix2 (i 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact lhs0T M K N _ _
      | ⟨1, _⟩ => exact ((DotDims.transposedRhs M K N).lhsIdx_val_of_single (cl := 1) rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact rhs0T M K N _ _
      | ⟨1, _⟩ => exact ((DotDims.transposedRhs M K N).rhsIdx_val_of_single (cr := 1) rfl i _).trans hk)
  rw [el, er]
  rfl

end Transposed

/-! ## The kernel's matrix products into a zero accumulator -/

/-- Contracting the left operand's columns with the right operand's rows: the matrix product. -/
theorem matmul_plain (M K N : ℕ) {φ₁ φ₂ : FTy} (prec : Option ContractPrecision)
    (l : FVec Ideal ⟨2, ![M, K]⟩ φ₁) (r : FVec Ideal ⟨2, ![K, N]⟩ φ₂) :
    matmul (DotDims.plain M K N) prec l r (constant ⟨2, ![M, N]⟩ .f32 0x00000000#32) = mm l r :=
  funext fun i => Cert.Lib.PlainDot.matmul_zero_apply M K N prec l r i

/-- Contracting the columns of both operands: the product with the transpose. -/
theorem matmul_transposedRhs (M K N : ℕ) {φ₁ φ₂ : FTy} (prec : Option ContractPrecision)
    (l : FVec Ideal ⟨2, ![M, K]⟩ φ₁) (r : FVec Ideal ⟨2, ![N, K]⟩ φ₂) :
    matmul (DotDims.transposedRhs M K N) prec l r (constant ⟨2, ![M, N]⟩ .f32 0x00000000#32) = mmT l r :=
  funext fun i => (Ideal.matmul_constant_zero_apply (DotDims.transposedRhs M K N) prec l r i).trans
    (sum_transposedRhs M K N (fun a b => l a * r b) i)

/-! ## The first kernel: the first layer's features -/

theorem pay0_1 (v0 : Vec Ideal S2000x128 .f32) (v1 : Vec Ideal S128x64 .f32) :
    k0_pay1 (F := Ideal) v0 v1 = lrelu (mm v0 v1) := by
  have h : matmul (F := Ideal) (φ₁ := .f32) (φ₂ := .f32) dot_S2000x128_S128x64_S2000x64_1_0_0_1_n_n (some .fp32) v0 v1 (constant S2000x64 .f32 0x00000000#32)
      = mm v0 v1 := by
    exact matmul_plain 2000 128 64 _ v0 v1
  unfold k0_pay1
  dsimp only
  rw [h]
  rfl

/-! ## The second kernel -/

theorem pay1_1 (v0 : Vec Ideal S200x10000 .f32) : k1_pay1 (F := Ideal) v0 = v0 := rfl

theorem pay1_2 (v0 : Vec Ideal S200x10000 .f32) (v3 : Vec Ideal S10000x64 .f32) :
    k1_pay2 (F := Ideal) v0 v3 = mm v0 v3 := by
  unfold k1_pay2
  dsimp only
  rw [shapeCast_self]
  exact matmul_plain 200 10000 64 none (k1_pay1 (F := Ideal) v0) (truncf .bf16 v3 bitsLt_bf16_f32)

theorem pay1_3 (v0 : Vec Ideal S200x10000 .f32) (v3 : Vec Ideal S10000x64 .f32) (v8 : Vec Ideal S64x32 .f32) :
    k1_pay3 (F := Ideal) v0 v3 v8 = lrelu (mm (mm v0 v3) v8) := by
  have h : matmul (F := Ideal) (φ₁ := .f32) (φ₂ := .f32) dot_S200x64_S64x32_S200x32_1_0_0_1_n_n (some .fp32) (k1_pay2 (F := Ideal) v0 v3) v8
      (constant S200x32 .f32 0x00000000#32) = mm (mm v0 v3) v8 := by
    rw [pay1_2]
    exact matmul_plain 200 64 32 _ (mm v0 v3) v8
  unfold k1_pay3
  dsimp only
  rw [h]
  rfl

/-! ## The third kernel -/

theorem pay2_1 (v0 : Vec Ideal S400x10000 .bf16) : k2_pay1 (F := Ideal) v0 = v0 := shapeCast_self _ _

theorem pay2_2 (v0 : Vec Ideal S400x10000 .bf16) (v2 : Vec Ideal S10000x64 .f32) :
    k2_pay2 (F := Ideal) v0 v2 = mm v0 v2 := by
  unfold k2_pay2
  dsimp only
  rw [shapeCast_self, pay2_1]
  exact matmul_plain 400 10000 64 none v0 (truncf .bf16 v2 bitsLt_bf16_f32)

theorem pay2_3 (v0 : Vec Ideal S400x10000 .bf16) (v7 : Vec Ideal S10000x32 .f32) :
    k2_pay3 (F := Ideal) v0 v7 = mm v0 v7 := by
  unfold k2_pay3
  dsimp only
  rw [shapeCast_self, pay2_1]
  exact matmul_plain 400 10000 32 none v0 (truncf .bf16 v7 bitsLt_bf16_f32)

theorem pay2_4 (v0 : Vec Ideal S400x10000 .bf16) (v7 : Vec Ideal S10000x32 .f32) (v12 : Vec Ideal S32x16 .f32) :
    k2_pay4 (F := Ideal) v0 v7 v12 = mm (mm v0 v7) v12 := by
  unfold k2_pay4
  dsimp only
  rw [pay2_3]
  exact matmul_plain 400 32 16 _ (mm v0 v7) v12

/-! ## The fourth kernel -/

theorem pay3_1 (v0 : Vec Ideal S400x10000 .bf16) : k3_pay1 (F := Ideal) v0 = v0 := shapeCast_self _ _

theorem pay3_2 (v0 : Vec Ideal S400x10000 .bf16) (v2 : Vec Ideal S10000x32 .f32) :
    k3_pay2 (F := Ideal) v0 v2 = mm v0 v2 := by
  unfold k3_pay2
  dsimp only
  rw [shapeCast_self, pay3_1]
  exact matmul_plain 400 10000 32 none v0 (truncf .bf16 v2 bitsLt_bf16_f32)

theorem pay3_3 (v0 : Vec Ideal S400x10000 .bf16) (v7 : Vec Ideal S10000x16 .f32) :
    k3_pay3 (F := Ideal) v0 v7 = mm v0 v7 := by
  unfold k3_pay3
  dsimp only
  rw [shapeCast_self, pay3_1]
  exact matmul_plain 400 10000 16 none v0 (truncf .bf16 v7 bitsLt_bf16_f32)

/-! ## The fifth kernel: the decoder -/

theorem pay4_1 (v0 : Vec Ideal S200x16 .f32) (v2 : Vec Ideal S10000x16 .f32) :
    k4_pay1 (F := Ideal) v0 v2 = fun i => Ideal.logistic (mmT v0 v2 i) := by
  have h : matmul (F := Ideal) (φ₁ := .f32) (φ₂ := .f32) dot_S200x16_S10000x16_S200x10000_1_1_0_0_n_n (some .fp32) v0 v2 (constant S200x10000 .f32 0x00000000#32)
      = mmT v0 v2 := by
    exact matmul_transposedRhs 200 16 10000 _ v0 v2
  unfold k4_pay1
  dsimp only
  rw [shapeCast_self, shapeCast_self, h]
  funext i
  exact Cert.SigmoidForms.half_tanh_half (mmT v0 v2 i)

theorem pay4_2 (v13 : Vec Ideal S200x10000 .bf16) (v15 : Vec Ideal S10000x16 .f32) :
    k4_pay2 (F := Ideal) v13 v15 = mm v13 v15 := by
  unfold k4_pay2
  dsimp only
  rw [shapeCast_self, shapeCast_self]
  exact matmul_plain 200 10000 16 none v13 (truncf .bf16 v15 bitsLt_bf16_f32)

/-! ## Blocks of rows -/

/-- A block of rows of a product is the product of the block of rows: if `lb` holds the rows `e 0, e 1, …` of `l`, then
    `mm lb r` holds those rows of `mm l r`. -/
theorem mm_rows {M K N b : ℕ} (l : Mat M K) (r : Mat K N) (lb : Mat b K) (e : Fin b → Fin M)
    (h : ∀ y : (⟨2, ![b, K]⟩ : Shape).Idx, lb y = l (ix2 (e (y 0)) (y 1))) (y : (⟨2, ![b, N]⟩ : Shape).Idx) :
    mm lb r y = mm l r (ix2 (e (y 0)) (y 1)) := by
  unfold mm
  refine Finset.sum_congr rfl fun k _ => ?_
  rw [h]
  rfl

/-- The same for the product with the transpose, in the rows of the left operand. -/
theorem mmT_rows {M K N b : ℕ} (l : Mat M K) (r : Mat N K) (lb : Mat b K) (e : Fin b → Fin M)
    (h : ∀ y : (⟨2, ![b, K]⟩ : Shape).Idx, lb y = l (ix2 (e (y 0)) (y 1))) (y : (⟨2, ![b, N]⟩ : Shape).Idx) :
    mmT lb r y = mmT l r (ix2 (e (y 0)) (y 1)) := by
  unfold mmT
  refine Finset.sum_congr rfl fun k _ => ?_
  rw [h]
  rfl

/-- The leaky rectifier commutes with any re-indexing. -/
theorem lrelu_reindex {a b a' b' : ℕ} (v : Mat a b) (vb : Mat a' b')
    (f : (⟨2, ![a', b']⟩ : Shape).Idx → (⟨2, ![a, b]⟩ : Shape).Idx) (h : ∀ y, vb y = v (f y))
    (y : (⟨2, ![a', b']⟩ : Shape).Idx) : lrelu vb y = lrelu v (f y) := by
  unfold lrelu
  rw [h]

/-- In particular a block of rows of the rectified matrix is the rectified block of rows. -/
theorem lrelu_rows {M N b : ℕ} (v : Mat M N) (vb : Mat b N) (e : Fin b → Fin M)
    (h : ∀ y : (⟨2, ![b, N]⟩ : Shape).Idx, vb y = v (ix2 (e (y 0)) (y 1))) (y : (⟨2, ![b, N]⟩ : Shape).Idx) :
    lrelu vb y = lrelu v (ix2 (e (y 0)) (y 1)) :=
  lrelu_reindex v vb (fun y => ix2 (e (y 0)) (y 1)) h y

end Cert.KernelIdeal.PayValue

end
-- ==== Proof.KI.Final1.lean ====
/-
  Region 1, from blocks to whole arrays.

  The region runs its body once per grid point `t < 50`. The first window and every output window move with the
  grid point on the row axis: their block at `t` is rows `200 t … 200 t + 199`. The other input windows are
  their whole arrays. So what point `t` writes back into an output window is rows `200 t … 200 t + 199` of ONE
  function of the arrays as the region finds them: a block of rows of a matrix product is the product of the block of
  rows, and the leaky rectifier acts entry by entry. The 50 blocks of 200 rows tile the 10000 rows, so after the region
  each output array holds that function.
-/
import proofs.«104007_g67070209294347_cont_9to1_m_584_3_alg».proof.Proof.KI.R1
import proofs.«104007_g67070209294347_cont_9to1_m_584_3_alg».proof.Proof.KI.Pay
import proofs.«104007_g67070209294347_cont_9to1_m_584_3_alg».proof.Proof.Spec
import Idealize.ShloMosaic.Lib.Pipeline.Value

set_option maxRecDepth 16384

noncomputable section

namespace Cert.KernelIdeal.Final

open Cert.KernelIdeal Cert.KernelIdeal.Gen Cert.KernelIdeal.Hand Cert.KernelIdeal.PayValue Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-! ## Blocks of rows, with the offset as a number -/

/-- A block of rows of a product, read where the block sits: if `lb` is rows `off, off + 1, …` of `l` and `rb` is
    `r`, then `mm lb rb` at `j` is `mm l r` at any index whose row is `off` plus `j`'s and whose column is `j`'s. -/
theorem mm_block {M K N b : ℕ} (off : ℕ) (l : Mat M K) (r : Mat K N) (lb : Mat b K) (rb : Mat K N)
    (hl : ∀ (y : (⟨2, ![b, K]⟩ : Shape).Idx) (i : (⟨2, ![M, K]⟩ : Shape).Idx),
      (i 0).val = off + (y 0).val → (i 1).val = (y 1).val → lb y = l i)
    (hr : ∀ y : (⟨2, ![K, N]⟩ : Shape).Idx, rb y = r y)
    (j : (⟨2, ![b, N]⟩ : Shape).Idx) (i : (⟨2, ![M, N]⟩ : Shape).Idx)
    (h0 : (i 0).val = off + (j 0).val) (h1 : (i 1).val = (j 1).val) : mm lb rb j = mm l r i := by
  unfold mm
  refine Finset.sum_congr rfl fun k _ => ?_
  have e1 : i 1 = j 1 := Fin.ext h1
  rw [hl (ix2 (j 0) k) (ix2 (i 0) k) h0 rfl, hr, e1]

/-- The leaky rectifier of a block, read where the block sits. -/
theorem lrelu_block {a b a' b' : ℕ} (v : Mat a b) (vb : Mat a' b') (j : (⟨2, ![a', b']⟩ : Shape).Idx)
    (i : (⟨2, ![a, b]⟩ : Shape).Idx) (h : vb j = v i) : lrelu vb j = lrelu v i := by
  unfold lrelu
  rw [h]

/-! ## The index maps, decided once over the grid -/

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The input blocks, read where they sit -/

/-- Window 0's block at point `t` is rows `200 t … 200 t + 199` of its array. -/
theorem iblk1_0_apply (c : Dev nD) (t : Fin cfg1.N) (y : S200x10000.Idx) (i : S10000x10000.Idx)
    (h0 : (i 0).val = 200 * t.val + (y 0).val) (h1 : (i 1).val = (y 1).val) :
    (iblk1 V c 0 t : Mat 200 10000) y = (V c main_arg1 : Mat 10000 10000) i := by
  obtain ⟨e0, e1, -⟩ := idx_facts1 t
  show V c main_arg1 (((cfg1.win 0).blk t).view.emb y) = _
  refine congrArg _ (funext fun a => Fin.ext ?_)
  match a with
  | ⟨0, _⟩ => show win1_0.index t (0 : Fin 2) * 200 + 1 * (y 0).val = (i 0).val; omega
  | ⟨1, _⟩ => show win1_0.index t (1 : Fin 2) * 10000 + 1 * (y 1).val = (i 1).val; omega

/-- Window 1's block at every point is its whole array. -/
theorem iblk1_1_apply (c : Dev nD) (t : Fin cfg1.N) (y : S10000x64.Idx) :
    (iblk1 V c 1 t : Mat 10000 64) y = (V c main_v0 : Mat 10000 64) y := by
  obtain ⟨-, -, e2, e3, -⟩ := idx_facts1 t
  show V c main_v0 (((cfg1.win 1).blk t).view.emb y) = _
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 64 + 1 * (y 1).val = (y 1).val; omega

/-- Window 2's block at every point is its whole array. -/
theorem iblk1_2_apply (c : Dev nD) (t : Fin cfg1.N) (y : S64x32.Idx) :
    (iblk1 V c 2 t : Mat 64 32) y = (V c main_arg3 : Mat 64 32) y := by
  obtain ⟨-, -, -, -, e4, e5, -⟩ := idx_facts1 t
  show V c main_arg3 (((cfg1.win 2).blk t).view.emb y) = _
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 32 + 1 * (y 1).val = (y 1).val; omega

/-! ## Output window 3: the product of the first window's array with the second's -/

/-- What point `t` writes back is block `t` of the product. -/
theorem flushed1_3_eq (c : Dev nD) (t : Fin cfg1.N) :
    (dat1 V c).flushed 3 t
      = ((cfg1.win 3).blk t).view.read (Elt Ideal) (mm (V c main_arg1 : Mat 10000 10000) (V c main_v0 : Mat 10000 64)) := by
  show (cfg1.win 3).cut (grid1.coords t) ((dat1 V c).after 3 t) = _
  rw [after1_3]
  unfold out1_3
  rw [View.canon_unit_zero hz1]
  simp only [View.ld_unit_zero (S := S200x10000) hz1, View.ld_unit_zero (S := S10000x64) hz1]
  rw [pay1_2]
  obtain ⟨-, -, -, -, -, -, e6, e7, -⟩ := idx_facts1 t
  funext j
  refine mm_block (200 * t.val) (V c main_arg1 : Mat 10000 10000) (V c main_v0 : Mat 10000 64) (iblk1 V c 0 t) (iblk1 V c 1 t)
    (fun y i h0 h1 => iblk1_0_apply V c t y i h0 h1) (fun y => iblk1_1_apply V c t y) j (((cfg1.win 3).blk t).view.emb j) ?_ ?_
  · show win1_3.index t (0 : Fin 2) * 200 + 1 * (j 0).val = 200 * t.val + (j 0).val; omega
  · show win1_3.index t (1 : Fin 2) * 64 + 1 * (j 1).val = (j 1).val; omega

/-- An index of the array is in point `t`'s block iff each coordinate is in the block's range on its axis. -/
theorem mem_blk1_3 (t : Fin cfg1.N) (i : S10000x64.Idx) :
    i ∈ ((cfg1.win 3).blk t).view.set ↔ ∀ a : Fin 2, win1_3.index t a * S200x64.size a ≤ (i a).val
      ∧ (i a).val < win1_3.index t a * S200x64.size a + S200x64.size a := by
  show i ∈ ((View.whole main_v1_0).slice (win1_3.rect t)).set ↔ _
  rw [View.set_slice_whole, Rect.mem_set_unit]
  exact Iff.rfl

/-- Every row is in the block of the point numbered by its quotient by 200. -/
theorem covered1_3 (i : S10000x64.Idx) :
    ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 50 := N_1
  have hq : (i 0).val / 200 < cfg1.N := by omega
  obtain ⟨-, -, -, -, -, -, e6, e7, -⟩ := idx_facts1 ⟨(i 0).val / 200, hq⟩
  have e6' : win1_3.index ⟨(i 0).val / 200, hq⟩ (0 : Fin 2) = (i 0).val / 200 := e6
  refine ⟨⟨(i 0).val / 200, hq⟩, flush1_3 _, ?_⟩
  rw [mem_blk1_3]
  intro a
  match a with
  | ⟨0, _⟩ =>
    show win1_3.index ⟨(i 0).val / 200, hq⟩ (0 : Fin 2) * 200 ≤ (i 0).val
      ∧ (i 0).val < win1_3.index ⟨(i 0).val / 200, hq⟩ (0 : Fin 2) * 200 + 200
    omega
  | ⟨1, _⟩ =>
    show win1_3.index ⟨(i 0).val / 200, hq⟩ (1 : Fin 2) * 64 ≤ (i 1).val
      ∧ (i 1).val < win1_3.index ⟨(i 0).val / 200, hq⟩ (1 : Fin 2) * 64 + 64
    omega

/-- After the region the array of window 3 holds the product. -/
theorem final1_3 (c : Dev nD) :
    (dat1 V c).arrAt 3 cfg1.N = mm (V c main_arg1 : Mat 10000 10000) (V c main_v0 : Mat 10000 64) :=
  (dat1 V c).arrAt_eq_of_cover 3 _ (fun t _ => flushed1_3_eq V c t) (covered1_3)

/-! ## Output window 4: the rectified product with the third window's array -/

/-- What point `t` writes back is block `t` of the rectified product. -/
theorem flushed1_4_eq (c : Dev nD) (t : Fin cfg1.N) :
    (dat1 V c).flushed 4 t
      = ((cfg1.win 4).blk t).view.read (Elt Ideal)
          (lrelu (mm (mm (V c main_arg1 : Mat 10000 10000) (V c main_v0 : Mat 10000 64)) (V c main_arg3 : Mat 64 32))) := by
  show (cfg1.win 4).cut (grid1.coords t) ((dat1 V c).after 4 t) = _
  rw [after1_4]
  unfold out1_4
  rw [View.canon_unit_zero hz1]
  simp only [View.ld_unit_zero (S := S200x10000) hz1, View.ld_unit_zero (S := S10000x64) hz1,
    View.ld_unit_zero (S := S64x32) hz1]
  rw [pay1_3]
  obtain ⟨-, -, -, -, -, -, -, -, e8, e9, -⟩ := idx_facts1 t
  funext j
  have h0 : ((((cfg1.win 4).blk t).view.emb j) 0).val = 200 * t.val + (j 0).val := by
    show win1_4.index t (0 : Fin 2) * 200 + 1 * (j 0).val = 200 * t.val + (j 0).val; omega
  have h1 : ((((cfg1.win 4).blk t).view.emb j) 1).val = (j 1).val := by
    show win1_4.index t (1 : Fin 2) * 32 + 1 * (j 1).val = (j 1).val; omega
  refine lrelu_block (mm (mm (V c main_arg1 : Mat 10000 10000) (V c main_v0 : Mat 10000 64)) (V c main_arg3 : Mat 64 32))
    (mm (mm (iblk1 V c 0 t) (iblk1 V c 1 t)) (iblk1 V c 2 t)) j (((cfg1.win 4).blk t).view.emb j) ?_
  exact mm_block (200 * t.val) (mm (V c main_arg1 : Mat 10000 10000) (V c main_v0 : Mat 10000 64)) (V c main_arg3 : Mat 64 32)
    (mm (iblk1 V c 0 t) (iblk1 V c 1 t)) (iblk1 V c 2 t)
    (fun y i g0 g1 => mm_block (200 * t.val) (V c main_arg1 : Mat 10000 10000) (V c main_v0 : Mat 10000 64)
      (iblk1 V c 0 t) (iblk1 V c 1 t) (fun y i k0 k1 => iblk1_0_apply V c t y i k0 k1) (fun y => iblk1_1_apply V c t y) y i g0 g1)
    (fun y => iblk1_2_apply V c t y) j (((cfg1.win 4).blk t).view.emb j) h0 h1

theorem mem_blk1_4 (t : Fin cfg1.N) (i : S10000x32.Idx) :
    i ∈ ((cfg1.win 4).blk t).view.set ↔ ∀ a : Fin 2, win1_4.index t a * S200x32.size a ≤ (i a).val
      ∧ (i a).val < win1_4.index t a * S200x32.size a + S200x32.size a := by
  show i ∈ ((View.whole main_v1_1).slice (win1_4.rect t)).set ↔ _
  rw [View.set_slice_whole, Rect.mem_set_unit]
  exact Iff.rfl

theorem covered1_4 (i : S10000x32.Idx) :
    ∃ t : Fin cfg1.N, (cfg1.win 4).flush t = true ∧ i ∈ ((cfg1.win 4).blk t).view.set := by
  have hi0 : (i 0).val < 10000 := (i 0).isLt
  have hi1 : (i 1).val < 32 := (i 1).isLt
  have hN : cfg1.N = 50 := N_1
  have hq : (i 0).val / 200 < cfg1.N := by omega
  obtain ⟨-, -, -, -, -, -, -, -, e8, e9, -⟩ := idx_facts1 ⟨(i 0).val / 200, hq⟩
  have e8' : win1_4.index ⟨(i 0).val / 200, hq⟩ (0 : Fin 2) = (i 0).val / 200 := e8
  refine ⟨⟨(i 0).val / 200, hq⟩, flush1_4 _, ?_⟩
  rw [mem_blk1_4]
  intro a
  match a with
  | ⟨0, _⟩ =>
    show win1_4.index ⟨(i 0).val / 200, hq⟩ (0 : Fin 2) * 200 ≤ (i 0).val
      ∧ (i 0).val < win1_4.index ⟨(i 0).val / 200, hq⟩ (0 : Fin 2) * 200 + 200
    omega
  | ⟨1, _⟩ =>
    show win1_4.index ⟨(i 0).val / 200, hq⟩ (1 : Fin 2) * 32 ≤ (i 1).val
      ∧ (i 1).val < win1_4.index ⟨(i 0).val / 200, hq⟩ (1 : Fin 2) * 32 + 32
    omega

/-- After the region the array of window 4 holds the rectified product. -/
theorem final1_4 (c : Dev nD) :
    (dat1 V c).arrAt 4 cfg1.N
      = lrelu (mm (mm (V c main_arg1 : Mat 10000 10000) (V c main_v0 : Mat 10000 64)) (V c main_arg3 : Mat 64 32)) :=
  (dat1 V c).arrAt_eq_of_cover 4 _ (fun t _ => flushed1_4_eq V c t) (covered1_4)

/-! ## Output window 5: the first window's array, in the narrower format -/

/-- What point `t` writes back is block `t` of the first window's array. -/
theorem flushed1_5_eq (c : Dev nD) (t : Fin cfg1.N) :
    (dat1 V c).flushed 5 t = ((cfg1.win 5).blk t).view.read (Elt Ideal) (V c main_arg1 : Mat 10000 10000) := by
  show (cfg1.win 5).cut (grid1.coords t) ((dat1 V c).after 5 t) = _
  rw [after1_5]
  unfold out1_5
  rw [View.canon_unit_zero hz1]
  simp only [View.ld_unit_zero (S := S200x10000) hz1]
  rw [pay1_1]
  obtain ⟨-, -, -, -, -, -, -, -, -, -, e10, e11⟩ := idx_facts1 t
  funext j
  refine iblk1_0_apply V c t j (((cfg1.win 5).blk t).view.emb j) ?_ ?_
  · show win1_5.index t (0 : Fin 2) * 200 + 1 * (j 0).val = 200 * t.val + (j 0).val; omega
  · show win1_5.index t (1 : Fin 2) * 10000 + 1 * (j 1).val = (j 1).val; omega

theorem mem_blk1_5 (t : Fin cfg1.N) (i : S10000x10000.Idx) :
    i ∈ ((cfg1.win 5).blk t).view.set ↔ ∀ a : Fin 2, win1_5.index t a * S200x10000.size a ≤ (i a).val
      ∧ (i a).val < win1_5.index t a * S200x10000.size a + S200x10000.size a := by
  show i ∈ ((View.whole main_v1_2).slice (win1_5.rect t)).set ↔ _
  rw [View.set_slice_whole, Rect.mem_set_unit]
  exact Iff.rfl

theorem covered1_5 (i : S10000x10000.Idx) :
    ∃ t : Fin cfg1.N, (cfg1.win 5).flush t = true ∧ i ∈ ((cfg1.win 5).blk t).view.set := by
  have hi0 : (i 0).val < 10000 := (i 0).isLt
  have hi1 : (i 1).val < 10000 := (i 1).isLt
  have hN : cfg1.N = 50 := N_1
  have hq : (i 0).val / 200 < cfg1.N := by omega
  obtain ⟨-, -, -, -, -, -, -, -, -, -, e10, e11⟩ := idx_facts1 ⟨(i 0).val / 200, hq⟩
  have e10' : win1_5.index ⟨(i 0).val / 200, hq⟩ (0 : Fin 2) = (i 0).val / 200 := e10
  refine ⟨⟨(i 0).val / 200, hq⟩, flush1_5 _, ?_⟩
  rw [mem_blk1_5]
  intro a
  match a with
  | ⟨0, _⟩ =>
    show win1_5.index ⟨(i 0).val / 200, hq⟩ (0 : Fin 2) * 200 ≤ (i 0).val
      ∧ (i 0).val < win1_5.index ⟨(i 0).val / 200, hq⟩ (0 : Fin 2) * 200 + 200
    omega
  | ⟨1, _⟩ =>
    show win1_5.index ⟨(i 0).val / 200, hq⟩ (1 : Fin 2) * 10000 ≤ (i 1).val
      ∧ (i 1).val < win1_5.index ⟨(i 0).val / 200, hq⟩ (1 : Fin 2) * 10000 + 10000
    omega

/-- After the region the array of window 5 holds the first window's array. -/
theorem final1_5 (c : Dev nD) : (dat1 V c).arrAt 5 cfg1.N = (V c main_arg1 : Mat 10000 10000) :=
  (dat1 V c).arrAt_eq_of_cover 5 _ (fun t _ => flushed1_5_eq V c t) (covered1_5)

end Cert.KernelIdeal.Final

end
-- ==== Proof.KI.Final0.lean ====
/-
  Region 0, from blocks to whole arrays.

  The region runs its body once per grid point `t < 5`. The first window and the output window move with the grid
  point on the row axis: their block at `t` is rows `2000 t … 2000 t + 1999`. The second window is its whole array.
  What point `t` writes back is those rows of the rectified product of the two arrays as the region finds them (a block
  of rows of a product is the product of the block of rows; the leaky rectifier acts entry by entry), and the 5 blocks
  of 2000 rows tile the 10000 rows.
-/
import proofs.«104007_g67070209294347_cont_9to1_m_584_3_alg».proof.Proof.KI.R0
import proofs.«104007_g67070209294347_cont_9to1_m_584_3_alg».proof.Proof.KI.Pay
import proofs.«104007_g67070209294347_cont_9to1_m_584_3_alg».proof.Proof.KI.Final1
import proofs.«104007_g67070209294347_cont_9to1_m_584_3_alg».proof.Proof.Spec
import Idealize.ShloMosaic.Lib.Pipeline.Value

set_option maxRecDepth 16384

noncomputable section

namespace Cert.KernelIdeal.Final

open Cert.KernelIdeal Cert.KernelIdeal.Gen Cert.KernelIdeal.Hand Cert.KernelIdeal.PayValue Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The index maps, decided once over the grid -/

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The input blocks, read where they sit -/

/-- Window 0's block at point `t` is rows `2000 t … 2000 t + 1999` of its array. -/
theorem iblk0_0_apply (c : Dev nD) (t : Fin cfg0.N) (y : S2000x128.Idx) (i : S10000x128.Idx)
    (h0 : (i 0).val = 2000 * t.val + (y 0).val) (h1 : (i 1).val = (y 1).val) :
    (iblk0 V c 0 t : Mat 2000 128) y = (V c main_arg0 : Mat 10000 128) i := by
  obtain ⟨e0, e1, -, -, -, -⟩ := idx_facts0 t
  show V c main_arg0 (((cfg0.win 0).blk t).view.emb y) = _
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- Window 1's block at every point is its whole array. -/
theorem iblk0_1_apply (c : Dev nD) (t : Fin cfg0.N) (y : S128x64.Idx) :
    (iblk0 V c 1 t : Mat 128 64) y = (V c main_arg2 : Mat 128 64) y := by
  obtain ⟨-, -, e0, e1, -, -⟩ := idx_facts0 t
  show V c main_arg2 (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-! ## Output window 2: the rectified product of the first window's array with the second's -/

/-- What point `t` writes back is block `t` of the rectified product. -/
theorem flushed0_2_eq (c : Dev nD) (t : Fin cfg0.N) :
    (dat0 V c).flushed 2 t
      = ((cfg0.win 2).blk t).view.read (Elt Ideal) (lrelu (mm (V c main_arg0 : Mat 10000 128) (V c main_arg2 : Mat 128 64))) := by
  show (cfg0.win 2).cut (grid0.coords t) ((dat0 V c).after 2 t) = _
  rw [after0_2]
  unfold out0_2
  rw [View.canon_unit_zero hz1]
  simp only [View.ld_unit_zero (S := S2000x128) hz1, View.ld_unit_zero (S := S128x64) hz1]
  rw [pay0_1]
  obtain ⟨-, -, -, -, e0, e1⟩ := idx_facts0 t
  funext j
  have h0 : ((((cfg0.win 2).blk t).view.emb j) 0).val = 2000 * t.val + (j 0).val := by
    show win0_2.index t (0 : Fin 2) * 2000 + 1 * (j 0).val = 2000 * t.val + (j 0).val; omega
  have h1 : ((((cfg0.win 2).blk t).view.emb j) 1).val = (j 1).val := by
    show win0_2.index t (1 : Fin 2) * 64 + 1 * (j 1).val = (j 1).val; omega
  exact lrelu_block (mm (V c main_arg0 : Mat 10000 128) (V c main_arg2 : Mat 128 64)) (mm (iblk0 V c 0 t) (iblk0 V c 1 t)) j (((cfg0.win 2).blk t).view.emb j)
    (mm_block (2000 * t.val) (V c main_arg0 : Mat 10000 128) (V c main_arg2 : Mat 128 64) (iblk0 V c 0 t) (iblk0 V c 1 t)
      (fun y i g0 g1 => iblk0_0_apply V c t y i g0 g1) (fun y => iblk0_1_apply V c t y) j (((cfg0.win 2).blk t).view.emb j) h0 h1)

/-- An index of the array is in point `t`'s block iff each coordinate is in the block's range on its axis. -/
theorem mem_blk0_2 (t : Fin cfg0.N) (i : S10000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v0).slice (win0_2.rect t)).set ↔ _
  rw [View.set_slice_whole, Rect.mem_set_unit]
  exact Iff.rfl

/-- Every row is in the block of the point numbered by its quotient by 2000. -/
theorem covered0_2 (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  have hN : cfg0.N = 5 := N_0
  have hq : (i 0).val / 2000 < cfg0.N := by omega
  obtain ⟨-, -, -, -, e0, e1⟩ := idx_facts0 ⟨(i 0).val / 2000, hq⟩
  have e0' : win0_2.index ⟨(i 0).val / 2000, hq⟩ (0 : Fin 2) = (i 0).val / 2000 := e0
  refine ⟨⟨(i 0).val / 2000, hq⟩, flush0_2 _, ?_⟩
  rw [mem_blk0_2]
  intro a
  match a with
  | ⟨0, _⟩ =>
    show win0_2.index ⟨(i 0).val / 2000, hq⟩ (0 : Fin 2) * 2000 ≤ (i 0).val
      ∧ (i 0).val < win0_2.index ⟨(i 0).val / 2000, hq⟩ (0 : Fin 2) * 2000 + 2000
    omega
  | ⟨1, _⟩ =>
    show win0_2.index ⟨(i 0).val / 2000, hq⟩ (1 : Fin 2) * 64 ≤ (i 1).val
      ∧ (i 1).val < win0_2.index ⟨(i 0).val / 2000, hq⟩ (1 : Fin 2) * 64 + 64
    omega

/-- After the region the array of window 2 holds the rectified product. -/
theorem final0_2 (c : Dev nD) :
    (dat0 V c).arrAt 2 cfg0.N = lrelu (mm (V c main_arg0 : Mat 10000 128) (V c main_arg2 : Mat 128 64)) :=
  (dat0 V c).arrAt_eq_of_cover 2 _ (fun t _ => flushed0_2_eq V c t) (covered0_2)

end Cert.KernelIdeal.Final

end
-- ==== Proof.KI.Final2.lean ====
/-
  Region 2, from blocks to whole arrays.

  The region runs its body once per grid point `t < 25`. The first window and every output window move with the
  grid point on the row axis: their block at `t` is rows `400 t … 400 t + 399`. The other input windows are their
  whole arrays. What point `t` writes back into an output window is those rows of a product (or of a product of a
  product) of the arrays as the region finds them — a block of rows of a product is the product of the block of rows —
  and the 25 blocks of 400 rows tile the 10000 rows.
-/
import proofs.«104007_g67070209294347_cont_9to1_m_584_3_alg».proof.Proof.KI.R2
import proofs.«104007_g67070209294347_cont_9to1_m_584_3_alg».proof.Proof.KI.Pay
import proofs.«104007_g67070209294347_cont_9to1_m_584_3_alg».proof.Proof.KI.Final1
import proofs.«104007_g67070209294347_cont_9to1_m_584_3_alg».proof.Proof.Spec
import Idealize.ShloMosaic.Lib.Pipeline.Value

set_option maxRecDepth 16384

noncomputable section

namespace Cert.KernelIdeal.Final

open Cert.KernelIdeal Cert.KernelIdeal.Gen Cert.KernelIdeal.Hand Cert.KernelIdeal.PayValue Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The index maps, decided once over the grid -/

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## The input blocks, read where they sit -/

/-- Window 0's block at point `t` is rows `400 t … 400 t + 399` of its array. -/
theorem iblk2_0_apply (c : Dev nD) (t : Fin cfg2.N) (y : S400x10000.Idx) (i : S10000x10000.Idx)
    (h0 : (i 0).val = 400 * t.val + (y 0).val) (h1 : (i 1).val = (y 1).val) :
    (iblk2 V c 0 t : Mat 400 10000) y = (V c main_v1_2 : Mat 10000 10000) i := by
  obtain ⟨e0, e1, -, -, -, -, -, -, -, -, -, -, -, -⟩ := idx_facts2 t
  show V c main_v1_2 (((cfg2.win 0).blk t).view.emb y) = _
  refine congrArg _ (funext fun a => Fin.ext ?_)
  match a with
  | ⟨0, _⟩ => show win2_0.index t (0 : Fin 2) * 400 + 1 * (y 0).val = (i 0).val; omega
  | ⟨1, _⟩ => show win2_0.index t (1 : Fin 2) * 10000 + 1 * (y 1).val = (i 1).val; omega

/-- Window 1's block at every point is its whole array. -/
theorem iblk2_1_apply (c : Dev nD) (t : Fin cfg2.N) (y : S10000x64.Idx) :
    (iblk2 V c 1 t : Mat 10000 64) y = (V c main_v1_0 : Mat 10000 64) y := by
  obtain ⟨-, -, e0, e1, -, -, -, -, -, -, -, -, -, -⟩ := idx_facts2 t
  show V c main_v1_0 (((cfg2.win 1).blk t).view.emb y) = _
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 64 + 1 * (y 1).val = (y 1).val; omega

/-- Window 2's block at every point is its whole array. -/
theorem iblk2_2_apply (c : Dev nD) (t : Fin cfg2.N) (y : S10000x32.Idx) :
    (iblk2 V c 2 t : Mat 10000 32) y = (V c main_v1_1 : Mat 10000 32) y := by
  obtain ⟨-, -, -, -, e0, e1, -, -, -, -, -, -, -, -⟩ := idx_facts2 t
  show V c main_v1_1 (((cfg2.win 2).blk t).view.emb y) = _
  refine congrArg _ (funext fun a => Fin.ext ?_)
  match a with
  | ⟨0, _⟩ => show win2_2.index t (0 : Fin 2) * 10000 + 1 * (y 0).val = (y 0).val; omega
  | ⟨1, _⟩ => show win2_2.index t (1 : Fin 2) * 32 + 1 * (y 1).val = (y 1).val; omega

/-- Window 3's block at every point is its whole array. -/
theorem iblk2_3_apply (c : Dev nD) (t : Fin cfg2.N) (y : S32x16.Idx) :
    (iblk2 V c 3 t : Mat 32 16) y = (V c main_arg4 : Mat 32 16) y := by
  obtain ⟨-, -, -, -, -, -, e0, e1, -, -, -, -, -, -⟩ := idx_facts2 t
  show V c main_arg4 (((cfg2.win 3).blk t).view.emb y) = _
  refine congrArg _ (funext fun a => Fin.ext ?_)
  match a with
  | ⟨0, _⟩ => show win2_3.index t (0 : Fin 2) * 32 + 1 * (y 0).val = (y 0).val; omega
  | ⟨1, _⟩ => show win2_3.index t (1 : Fin 2) * 16 + 1 * (y 1).val = (y 1).val; omega

/-! ## Output window 4: the product of the first window's array with the second's -/

/-- What point `t` writes back is block `t` of that product. -/
theorem flushed2_4_eq (c : Dev nD) (t : Fin cfg2.N) :
    (dat2 V c).flushed 4 t
      = ((cfg2.win 4).blk t).view.read (Elt Ideal) (mm (V c main_v1_2 : Mat 10000 10000) (V c main_v1_0 : Mat 10000 64)) := by
  show (cfg2.win 4).cut (grid2.coords t) ((dat2 V c).after 4 t) = _
  rw [after2_4]
  unfold out2_4
  rw [View.canon_unit_zero hz1]
  simp only [View.ld_unit_zero (S := S400x10000) hz1, View.ld_unit_zero (S := S10000x64) hz1]
  rw [pay2_2]
  obtain ⟨-, -, -, -, -, -, -, -, e0, e1, -, -, -, -⟩ := idx_facts2 t
  funext j
  have h0 : ((((cfg2.win 4).blk t).view.emb j) 0).val = 400 * t.val + (j 0).val := by
    show win2_4.index t (0 : Fin 2) * 400 + 1 * (j 0).val = 400 * t.val + (j 0).val; omega
  have h1 : ((((cfg2.win 4).blk t).view.emb j) 1).val = (j 1).val := by
    show win2_4.index t (1 : Fin 2) * 64 + 1 * (j 1).val = (j 1).val; omega
  exact mm_block (400 * t.val) (V c main_v1_2 : Mat 10000 10000) (V c main_v1_0 : Mat 10000 64) (iblk2 V c 0 t) (iblk2 V c 1 t)
      (fun y i g0 g1 => iblk2_0_apply V c t y i g0 g1) (fun y => iblk2_1_apply V c t y) j (((cfg2.win 4).blk t).view.emb j) h0 h1

/-- An index of the array is in point `t`'s block iff each coordinate is in the block's range on its axis. -/
theorem mem_blk2_4 (t : Fin cfg2.N) (i : S10000x64.Idx) :
    i ∈ ((cfg2.win 4).blk t).view.set ↔ ∀ a : Fin 2, win2_4.index t a * S400x64.size a ≤ (i a).val
      ∧ (i a).val < win2_4.index t a * S400x64.size a + S400x64.size a := by
  show i ∈ ((View.whole main_v2_0).slice (win2_4.rect t)).set ↔ _
  rw [View.set_slice_whole, Rect.mem_set_unit]
  exact Iff.rfl

/-- Every row is in the block of the point numbered by its quotient by 400. -/
theorem covered2_4 (i : S10000x64.Idx) :
    ∃ t : Fin cfg2.N, (cfg2.win 4).flush t = true ∧ i ∈ ((cfg2.win 4).blk t).view.set := by
  have hi0 : (i 0).val < 10000 := (i 0).isLt
  have hi1 : (i 1).val < 64 := (i 1).isLt
  have hN : cfg2.N = 25 := N_2
  have hq : (i 0).val / 400 < cfg2.N := by omega
  obtain ⟨-, -, -, -, -, -, -, -, e0, e1, -, -, -, -⟩ := idx_facts2 ⟨(i 0).val / 400, hq⟩
  have e0' : win2_4.index ⟨(i 0).val / 400, hq⟩ (0 : Fin 2) = (i 0).val / 400 := e0
  refine ⟨⟨(i 0).val / 400, hq⟩, flush2_4 _, ?_⟩
  rw [mem_blk2_4]
  intro a
  match a with
  | ⟨0, _⟩ =>
    show win2_4.index ⟨(i 0).val / 400, hq⟩ (0 : Fin 2) * 400 ≤ (i 0).val
      ∧ (i 0).val < win2_4.index ⟨(i 0).val / 400, hq⟩ (0 : Fin 2) * 400 + 400
    omega
  | ⟨1, _⟩ =>
    show win2_4.index ⟨(i 0).val / 400, hq⟩ (1 : Fin 2) * 64 ≤ (i 1).val
      ∧ (i 1).val < win2_4.index ⟨(i 0).val / 400, hq⟩ (1 : Fin 2) * 64 + 64
    omega

/-- After the region the array of window 4 holds that product. -/
theorem final2_4 (c : Dev nD) :
    (dat2 V c).arrAt 4 cfg2.N = mm (V c main_v1_2 : Mat 10000 10000) (V c main_v1_0 : Mat 10000 64) :=
  (dat2 V c).arrAt_eq_of_cover 4 _ (fun t _ => flushed2_4_eq V c t) (covered2_4)

/-! ## Output window 5: the product of the first window's array with the third's -/

/-- What point `t` writes back is block `t` of that product. -/
theorem flushed2_5_eq (c : Dev nD) (t : Fin cfg2.N) :
    (dat2 V c).flushed 5 t
      = ((cfg2.win 5).blk t).view.read (Elt Ideal) (mm (V c main_v1_2 : Mat 10000 10000) (V c main_v1_1 : Mat 10000 32)) := by
  show (cfg2.win 5).cut (grid2.coords t) ((dat2 V c).after 5 t) = _
  rw [after2_5]
  unfold out2_5
  rw [View.canon_unit_zero hz1]
  simp only [View.ld_unit_zero (S := S400x10000) hz1, View.ld_unit_zero (S := S10000x32) hz1]
  rw [pay2_3]
  obtain ⟨-, -, -, -, -, -, -, -, -, -, e0, e1, -, -⟩ := idx_facts2 t
  funext j
  have h0 : ((((cfg2.win 5).blk t).view.emb j) 0).val = 400 * t.val + (j 0).val := by
    show win2_5.index t (0 : Fin 2) * 400 + 1 * (j 0).val = 400 * t.val + (j 0).val; omega
  have h1 : ((((cfg2.win 5).blk t).view.emb j) 1).val = (j 1).val := by
    show win2_5.index t (1 : Fin 2) * 32 + 1 * (j 1).val = (j 1).val; omega
  exact mm_block (400 * t.val) (V c main_v1_2 : Mat 10000 10000) (V c main_v1_1 : Mat 10000 32) (iblk2 V c 0 t) (iblk2 V c 2 t)
      (fun y i g0 g1 => iblk2_0_apply V c t y i g0 g1) (fun y => iblk2_2_apply V c t y) j (((cfg2.win 5).blk t).view.emb j) h0 h1

/-- An index of the array is in point `t`'s block iff each coordinate is in the block's range on its axis. -/
theorem mem_blk2_5 (t : Fin cfg2.N) (i : S10000x32.Idx) :
    i ∈ ((cfg2.win 5).blk t).view.set ↔ ∀ a : Fin 2, win2_5.index t a * S400x32.size a ≤ (i a).val
      ∧ (i a).val < win2_5.index t a * S400x32.size a + S400x32.size a := by
  show i ∈ ((View.whole main_v2_1).slice (win2_5.rect t)).set ↔ _
  rw [View.set_slice_whole, Rect.mem_set_unit]
  exact Iff.rfl

/-- Every row is in the block of the point numbered by its quotient by 400. -/
theorem covered2_5 (i : S10000x32.Idx) :
    ∃ t : Fin cfg2.N, (cfg2.win 5).flush t = true ∧ i ∈ ((cfg2.win 5).blk t).view.set := by
  have hi0 : (i 0).val < 10000 := (i 0).isLt
  have hi1 : (i 1).val < 32 := (i 1).isLt
  have hN : cfg2.N = 25 := N_2
  have hq : (i 0).val / 400 < cfg2.N := by omega
  obtain ⟨-, -, -, -, -, -, -, -, -, -, e0, e1, -, -⟩ := idx_facts2 ⟨(i 0).val / 400, hq⟩
  have e0' : win2_5.index ⟨(i 0).val / 400, hq⟩ (0 : Fin 2) = (i 0).val / 400 := e0
  refine ⟨⟨(i 0).val / 400, hq⟩, flush2_5 _, ?_⟩
  rw [mem_blk2_5]
  intro a
  match a with
  | ⟨0, _⟩ =>
    show win2_5.index ⟨(i 0).val / 400, hq⟩ (0 : Fin 2) * 400 ≤ (i 0).val
      ∧ (i 0).val < win2_5.index ⟨(i 0).val / 400, hq⟩ (0 : Fin 2) * 400 + 400
    omega
  | ⟨1, _⟩ =>
    show win2_5.index ⟨(i 0).val / 400, hq⟩ (1 : Fin 2) * 32 ≤ (i 1).val
      ∧ (i 1).val < win2_5.index ⟨(i 0).val / 400, hq⟩ (1 : Fin 2) * 32 + 32
    omega

/-- After the region the array of window 5 holds that product. -/
theorem final2_5 (c : Dev nD) :
    (dat2 V c).arrAt 5 cfg2.N = mm (V c main_v1_2 : Mat 10000 10000) (V c main_v1_1 : Mat 10000 32) :=
  (dat2 V c).arrAt_eq_of_cover 5 _ (fun t _ => flushed2_5_eq V c t) (covered2_5)

/-! ## Output window 6: the product of that product with the fourth window's array -/

/-- What point `t` writes back is block `t` of the product of the product with the fourth window's array. -/
theorem flushed2_6_eq (c : Dev nD) (t : Fin cfg2.N) :
    (dat2 V c).flushed 6 t
      = ((cfg2.win 6).blk t).view.read (Elt Ideal) (mm (mm (V c main_v1_2 : Mat 10000 10000) (V c main_v1_1 : Mat 10000 32)) (V c main_arg4 : Mat 32 16)) := by
  show (cfg2.win 6).cut (grid2.coords t) ((dat2 V c).after 6 t) = _
  rw [after2_6]
  unfold out2_6
  rw [View.canon_unit_zero hz1]
  simp only [View.ld_unit_zero (S := S400x10000) hz1, View.ld_unit_zero (S := S10000x32) hz1, View.ld_unit_zero (S := S32x16) hz1]
  rw [pay2_4]
  obtain ⟨-, -, -, -, -, -, -, -, -, -, -, -, e0, e1⟩ := idx_facts2 t
  funext j
  have h0 : ((((cfg2.win 6).blk t).view.emb j) 0).val = 400 * t.val + (j 0).val := by
    show win2_6.index t (0 : Fin 2) * 400 + 1 * (j 0).val = 400 * t.val + (j 0).val; omega
  have h1 : ((((cfg2.win 6).blk t).view.emb j) 1).val = (j 1).val := by
    show win2_6.index t (1 : Fin 2) * 16 + 1 * (j 1).val = (j 1).val; omega
  exact mm_block (400 * t.val) (mm (V c main_v1_2 : Mat 10000 10000) (V c main_v1_1 : Mat 10000 32)) (V c main_arg4 : Mat 32 16) (mm (iblk2 V c 0 t) (iblk2 V c 2 t)) (iblk2 V c 3 t)
    (fun y i k0 k1 => mm_block (400 * t.val) (V c main_v1_2 : Mat 10000 10000) (V c main_v1_1 : Mat 10000 32) (iblk2 V c 0 t) (iblk2 V c 2 t)
      (fun y i g0 g1 => iblk2_0_apply V c t y i g0 g1) (fun y => iblk2_2_apply V c t y) y i k0 k1)
    (fun y => iblk2_3_apply V c t y) j (((cfg2.win 6).blk t).view.emb j) h0 h1

/-- An index of the array is in point `t`'s block iff each coordinate is in the block's range on its axis. -/
theorem mem_blk2_6 (t : Fin cfg2.N) (i : S10000x16.Idx) :
    i ∈ ((cfg2.win 6).blk t).view.set ↔ ∀ a : Fin 2, win2_6.index t a * S400x16.size a ≤ (i a).val
      ∧ (i a).val < win2_6.index t a * S400x16.size a + S400x16.size a := by
  show i ∈ ((View.whole main_v2_2).slice (win2_6.rect t)).set ↔ _
  rw [View.set_slice_whole, Rect.mem_set_unit]
  exact Iff.rfl

/-- Every row is in the block of the point numbered by its quotient by 400. -/
theorem covered2_6 (i : S10000x16.Idx) :
    ∃ t : Fin cfg2.N, (cfg2.win 6).flush t = true ∧ i ∈ ((cfg2.win 6).blk t).view.set := by
  have hi0 : (i 0).val < 10000 := (i 0).isLt
  have hi1 : (i 1).val < 16 := (i 1).isLt
  have hN : cfg2.N = 25 := N_2
  have hq : (i 0).val / 400 < cfg2.N := by omega
  obtain ⟨-, -, -, -, -, -, -, -, -, -, -, -, e0, e1⟩ := idx_facts2 ⟨(i 0).val / 400, hq⟩
  have e0' : win2_6.index ⟨(i 0).val / 400, hq⟩ (0 : Fin 2) = (i 0).val / 400 := e0
  refine ⟨⟨(i 0).val / 400, hq⟩, flush2_6 _, ?_⟩
  rw [mem_blk2_6]
  intro a
  match a with
  | ⟨0, _⟩ =>
    show win2_6.index ⟨(i 0).val / 400, hq⟩ (0 : Fin 2) * 400 ≤ (i 0).val
      ∧ (i 0).val < win2_6.index ⟨(i 0).val / 400, hq⟩ (0 : Fin 2) * 400 + 400
    omega
  | ⟨1, _⟩ =>
    show win2_6.index ⟨(i 0).val / 400, hq⟩ (1 : Fin 2) * 16 ≤ (i 1).val
      ∧ (i 1).val < win2_6.index ⟨(i 0).val / 400, hq⟩ (1 : Fin 2) * 16 + 16
    omega

/-- After the region the array of window 6 holds the product of the product with the fourth window's array. -/
theorem final2_6 (c : Dev nD) :
    (dat2 V c).arrAt 6 cfg2.N = mm (mm (V c main_v1_2 : Mat 10000 10000) (V c main_v1_1 : Mat 10000 32)) (V c main_arg4 : Mat 32 16) :=
  (dat2 V c).arrAt_eq_of_cover 6 _ (fun t _ => flushed2_6_eq V c t) (covered2_6)

end Cert.KernelIdeal.Final

end
-- ==== Proof.KI.Final3.lean ====
/-
  Region 3, from blocks to whole arrays.

  The region runs its body once per grid point `t < 25`. The first window and both output windows move with the grid
  point on the row axis: their block at `t` is rows `400 t … 400 t + 399`. The other two input windows are their whole
  arrays. A block of rows of a matrix product is the product of the block of rows, and the 25 blocks of 400 rows tile
  the 10000 rows, so after the region each output array holds the product of the first window's array with the
  corresponding whole array.
-/
import proofs.«104007_g67070209294347_cont_9to1_m_584_3_alg».proof.Proof.KI.R3
import proofs.«104007_g67070209294347_cont_9to1_m_584_3_alg».proof.Proof.KI.Pay
import proofs.«104007_g67070209294347_cont_9to1_m_584_3_alg».proof.Proof.Spec
import Idealize.ShloMosaic.Lib.Pipeline.Value

set_option maxRecDepth 16384

noncomputable section

namespace Cert.KernelIdeal.Final

open Cert.KernelIdeal Cert.KernelIdeal.Gen Cert.KernelIdeal.Hand Cert.KernelIdeal.PayValue Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- A block of rows of a product, read where the block sits: if `lb` is rows `off, off + 1, …` of `l` and `rb` is
    `r`, then `mm lb rb` at `j` is `mm l r` at any index whose row is `off` plus `j`'s and whose column is `j`'s. -/
theorem mm_block3 {M K N b : ℕ} (off : ℕ) (l : Mat M K) (r : Mat K N) (lb : Mat b K) (rb : Mat K N)
    (hl : ∀ (y : (⟨2, ![b, K]⟩ : Shape).Idx) (i : (⟨2, ![M, K]⟩ : Shape).Idx),
      (i 0).val = off + (y 0).val → (i 1).val = (y 1).val → lb y = l i)
    (hr : ∀ y : (⟨2, ![K, N]⟩ : Shape).Idx, rb y = r y)
    (j : (⟨2, ![b, N]⟩ : Shape).Idx) (i : (⟨2, ![M, N]⟩ : Shape).Idx)
    (h0 : (i 0).val = off + (j 0).val) (h1 : (i 1).val = (j 1).val) : mm lb rb j = mm l r i := by
  unfold mm
  refine Finset.sum_congr rfl fun k _ => ?_
  have e1 : i 1 = j 1 := Fin.ext h1
  rw [hl (ix2 (j 0) k) (ix2 (i 0) k) h0 rfl, hr, e1]

/-! ## The index maps, decided once over the grid -/

theorem idx3_0 : ∀ t : Fin cfg3.N, win3_0.index t (0 : Fin 2) = t.val ∧ win3_0.index t (1 : Fin 2) = 0 :=
  (by decide +kernel : ∀ t : Fin grid3.N, _)

theorem idx3_1 : ∀ t : Fin cfg3.N, win3_1.index t (0 : Fin 2) = 0 ∧ win3_1.index t (1 : Fin 2) = 0 :=
  (by decide +kernel : ∀ t : Fin grid3.N, _)

theorem idx3_2 : ∀ t : Fin cfg3.N, win3_2.index t (0 : Fin 2) = 0 ∧ win3_2.index t (1 : Fin 2) = 0 :=
  (by decide +kernel : ∀ t : Fin grid3.N, _)

theorem idx3_3 : ∀ t : Fin cfg3.N, win3_3.index t (0 : Fin 2) = t.val ∧ win3_3.index t (1 : Fin 2) = 0 :=
  (by decide +kernel : ∀ t : Fin grid3.N, _)

theorem idx3_4 : ∀ t : Fin cfg3.N, win3_4.index t (0 : Fin 2) = t.val ∧ win3_4.index t (1 : Fin 2) = 0 :=
  (by decide +kernel : ∀ t : Fin grid3.N, _)

/-! ## The input blocks, read where they sit -/

/-- Window 0's block at point `t` is rows `400 t … 400 t + 399` of its array. -/
theorem iblk3_0_apply (c : Dev nD) (t : Fin cfg3.N) (y : S400x10000.Idx) (i : S10000x10000.Idx)
    (h0 : (i 0).val = 400 * t.val + (y 0).val) (h1 : (i 1).val = (y 1).val) :
    (iblk3 V c 0 t : Mat 400 10000) y = (V c main_v1_2 : Mat 10000 10000) i := by
  obtain ⟨e0, e1⟩ := idx3_0 t
  show V c main_v1_2 (((cfg3.win 0).blk t).view.emb y) = _
  refine congrArg _ (funext fun a => Fin.ext ?_)
  match a with
  | ⟨0, _⟩ => show win3_0.index t (0 : Fin 2) * 400 + 1 * (y 0).val = (i 0).val; omega
  | ⟨1, _⟩ => show win3_0.index t (1 : Fin 2) * 10000 + 1 * (y 1).val = (i 1).val; omega

/-- Window 1's block at every point is its whole array. -/
theorem iblk3_1_apply (c : Dev nD) (t : Fin cfg3.N) (y : S10000x32.Idx) :
    (iblk3 V c 1 t : Mat 10000 32) y = (V c main_v2_1 : Mat 10000 32) y := by
  obtain ⟨e0, e1⟩ := idx3_1 t
  show V c main_v2_1 (((cfg3.win 1).blk t).view.emb y) = _
  refine congrArg _ (funext fun a => Fin.ext ?_)
  match a with
  | ⟨0, _⟩ => show win3_1.index t (0 : Fin 2) * 10000 + 1 * (y 0).val = (y 0).val; omega
  | ⟨1, _⟩ => show win3_1.index t (1 : Fin 2) * 32 + 1 * (y 1).val = (y 1).val; omega

/-- Window 2's block at every point is its whole array. -/
theorem iblk3_2_apply (c : Dev nD) (t : Fin cfg3.N) (y : S10000x16.Idx) :
    (iblk3 V c 2 t : Mat 10000 16) y = (V c main_v2_2 : Mat 10000 16) y := by
  obtain ⟨e0, e1⟩ := idx3_2 t
  show V c main_v2_2 (((cfg3.win 2).blk t).view.emb y) = _
  refine congrArg _ (funext fun a => Fin.ext ?_)
  match a with
  | ⟨0, _⟩ => show win3_2.index t (0 : Fin 2) * 10000 + 1 * (y 0).val = (y 0).val; omega
  | ⟨1, _⟩ => show win3_2.index t (1 : Fin 2) * 16 + 1 * (y 1).val = (y 1).val; omega

/-! ## Output window 3: the product of the first window's array with the second's -/

/-- What point `t` writes back is block `t` of that function of the arrays as the region finds them. -/
theorem flushed3_3_eq (c : Dev nD) (t : Fin cfg3.N) :
    (dat3 V c).flushed 3 t = ((cfg3.win 3).blk t).view.read (Elt Ideal) (mm (V c main_v1_2 : Mat 10000 10000) (V c main_v2_1 : Mat 10000 32)) := by
  show (cfg3.win 3).cut (grid3.coords t) ((dat3 V c).after 3 t) = _
  rw [after3_3]
  unfold out3_3
  rw [View.canon_unit_zero hz3]
  simp only [View.ld_unit_zero (S := S400x10000) hz3, View.ld_unit_zero (S := S10000x32) hz3]
  rw [pay3_2]
  obtain ⟨e0, e1⟩ := idx3_3 t
  funext j
  have h0 : ((((cfg3.win 3).blk t).view.emb j) 0).val = 400 * t.val + (j 0).val := by
    show win3_3.index t (0 : Fin 2) * 400 + 1 * (j 0).val = 400 * t.val + (j 0).val; omega
  have h1 : ((((cfg3.win 3).blk t).view.emb j) 1).val = (j 1).val := by
    show win3_3.index t (1 : Fin 2) * 32 + 1 * (j 1).val = (j 1).val; omega
  exact mm_block3 (400 * t.val) (V c main_v1_2 : Mat 10000 10000) (V c main_v2_1 : Mat 10000 32) (iblk3 V c 0 t) (iblk3 V c 1 t)
    (fun y i g0 g1 => iblk3_0_apply V c t y i g0 g1) (fun y => iblk3_1_apply V c t y) j (((cfg3.win 3).blk t).view.emb j) h0 h1

/-- An index of the array is in point `t`'s block iff each coordinate is in the block's range on its axis. -/
theorem mem_blk3_3 (t : Fin cfg3.N) (i : S10000x32.Idx) :
    i ∈ ((cfg3.win 3).blk t).view.set ↔ ∀ a : Fin 2, win3_3.index t a * S400x32.size a ≤ (i a).val
      ∧ (i a).val < win3_3.index t a * S400x32.size a + S400x32.size a := by
  show i ∈ ((View.whole main_v3_0).slice (win3_3.rect t)).set ↔ _
  rw [View.set_slice_whole, Rect.mem_set_unit]
  exact Iff.rfl

/-- Every row is in the block of the point numbered by its quotient by 400. -/
theorem covered3_3 (i : S10000x32.Idx) :
    ∃ t : Fin cfg3.N, (cfg3.win 3).flush t = true ∧ i ∈ ((cfg3.win 3).blk t).view.set := by
  have hi0 : (i 0).val < 10000 := (i 0).isLt
  have hi1 : (i 1).val < 32 := (i 1).isLt
  have hN : cfg3.N = 25 := N_3
  have hq : (i 0).val / 400 < cfg3.N := by omega
  obtain ⟨e0, e1⟩ := idx3_3 ⟨(i 0).val / 400, hq⟩
  have e0' : win3_3.index ⟨(i 0).val / 400, hq⟩ (0 : Fin 2) = (i 0).val / 400 := e0
  refine ⟨⟨(i 0).val / 400, hq⟩, flush3_3 _, ?_⟩
  rw [mem_blk3_3]
  intro a
  match a with
  | ⟨0, _⟩ =>
    show win3_3.index ⟨(i 0).val / 400, hq⟩ (0 : Fin 2) * 400 ≤ (i 0).val
      ∧ (i 0).val < win3_3.index ⟨(i 0).val / 400, hq⟩ (0 : Fin 2) * 400 + 400
    omega
  | ⟨1, _⟩ =>
    show win3_3.index ⟨(i 0).val / 400, hq⟩ (1 : Fin 2) * 32 ≤ (i 1).val
      ∧ (i 1).val < win3_3.index ⟨(i 0).val / 400, hq⟩ (1 : Fin 2) * 32 + 32
    omega

/-- After the region the array of window 3 holds that function. -/
theorem final3_3 (c : Dev nD) : (dat3 V c).arrAt 3 cfg3.N = (mm (V c main_v1_2 : Mat 10000 10000) (V c main_v2_1 : Mat 10000 32)) :=
  (dat3 V c).arrAt_eq_of_cover 3 _ (fun t _ => flushed3_3_eq V c t) (covered3_3)

/-! ## Output window 4: the product of the first window's array with the third's -/

/-- What point `t` writes back is block `t` of that function of the arrays as the region finds them. -/
theorem flushed3_4_eq (c : Dev nD) (t : Fin cfg3.N) :
    (dat3 V c).flushed 4 t = ((cfg3.win 4).blk t).view.read (Elt Ideal) (mm (V c main_v1_2 : Mat 10000 10000) (V c main_v2_2 : Mat 10000 16)) := by
  show (cfg3.win 4).cut (grid3.coords t) ((dat3 V c).after 4 t) = _
  rw [after3_4]
  unfold out3_4
  rw [View.canon_unit_zero hz3]
  simp only [View.ld_unit_zero (S := S400x10000) hz3, View.ld_unit_zero (S := S10000x16) hz3]
  rw [pay3_3]
  obtain ⟨e0, e1⟩ := idx3_4 t
  funext j
  have h0 : ((((cfg3.win 4).blk t).view.emb j) 0).val = 400 * t.val + (j 0).val := by
    show win3_4.index t (0 : Fin 2) * 400 + 1 * (j 0).val = 400 * t.val + (j 0).val; omega
  have h1 : ((((cfg3.win 4).blk t).view.emb j) 1).val = (j 1).val := by
    show win3_4.index t (1 : Fin 2) * 16 + 1 * (j 1).val = (j 1).val; omega
  exact mm_block3 (400 * t.val) (V c main_v1_2 : Mat 10000 10000) (V c main_v2_2 : Mat 10000 16) (iblk3 V c 0 t) (iblk3 V c 2 t)
    (fun y i g0 g1 => iblk3_0_apply V c t y i g0 g1) (fun y => iblk3_2_apply V c t y) j (((cfg3.win 4).blk t).view.emb j) h0 h1

/-- An index of the array is in point `t`'s block iff each coordinate is in the block's range on its axis. -/
theorem mem_blk3_4 (t : Fin cfg3.N) (i : S10000x16.Idx) :
    i ∈ ((cfg3.win 4).blk t).view.set ↔ ∀ a : Fin 2, win3_4.index t a * S400x16.size a ≤ (i a).val
      ∧ (i a).val < win3_4.index t a * S400x16.size a + S400x16.size a := by
  show i ∈ ((View.whole main_v3_1).slice (win3_4.rect t)).set ↔ _
  rw [View.set_slice_whole, Rect.mem_set_unit]
  exact Iff.rfl

/-- Every row is in the block of the point numbered by its quotient by 400. -/
theorem covered3_4 (i : S10000x16.Idx) :
    ∃ t : Fin cfg3.N, (cfg3.win 4).flush t = true ∧ i ∈ ((cfg3.win 4).blk t).view.set := by
  have hi0 : (i 0).val < 10000 := (i 0).isLt
  have hi1 : (i 1).val < 16 := (i 1).isLt
  have hN : cfg3.N = 25 := N_3
  have hq : (i 0).val / 400 < cfg3.N := by omega
  obtain ⟨e0, e1⟩ := idx3_4 ⟨(i 0).val / 400, hq⟩
  have e0' : win3_4.index ⟨(i 0).val / 400, hq⟩ (0 : Fin 2) = (i 0).val / 400 := e0
  refine ⟨⟨(i 0).val / 400, hq⟩, flush3_4 _, ?_⟩
  rw [mem_blk3_4]
  intro a
  match a with
  | ⟨0, _⟩ =>
    show win3_4.index ⟨(i 0).val / 400, hq⟩ (0 : Fin 2) * 400 ≤ (i 0).val
      ∧ (i 0).val < win3_4.index ⟨(i 0).val / 400, hq⟩ (0 : Fin 2) * 400 + 400
    omega
  | ⟨1, _⟩ =>
    show win3_4.index ⟨(i 0).val / 400, hq⟩ (1 : Fin 2) * 16 ≤ (i 1).val
      ∧ (i 1).val < win3_4.index ⟨(i 0).val / 400, hq⟩ (1 : Fin 2) * 16 + 16
    omega

/-- After the region the array of window 4 holds that function. -/
theorem final3_4 (c : Dev nD) : (dat3 V c).arrAt 4 cfg3.N = (mm (V c main_v1_2 : Mat 10000 10000) (V c main_v2_2 : Mat 10000 16)) :=
  (dat3 V c).arrAt_eq_of_cover 4 _ (fun t _ => flushed3_4_eq V c t) (covered3_4)

end Cert.KernelIdeal.Final

end
-- ==== Proof.KI.Final4.lean ====
/-
  Region 4, from blocks to whole arrays.

  The region runs its body once per grid point `t < 50`. The first two windows and both output windows move with the
  grid point on the row axis: their block at `t` is rows `200 t … 200 t + 199`. The third input window is its whole array —
  the same array as the second window's. So point `t` writes back rows `200 t … 200 t + 199` of the logistic function of
  the Gram matrix of that array's rows (the decoder's 0.5 * (tanh (0.5 * g) + 1) is the logistic function of g), and
  the same rows of the product of the first window's array with it. The 50 blocks of 200 rows tile the 10000 rows.
-/
import proofs.«104007_g67070209294347_cont_9to1_m_584_3_alg».proof.Proof.KI.R4
import proofs.«104007_g67070209294347_cont_9to1_m_584_3_alg».proof.Proof.KI.Pay
import proofs.«104007_g67070209294347_cont_9to1_m_584_3_alg».proof.Proof.Spec
import Idealize.ShloMosaic.Lib.Pipeline.Value

set_option maxRecDepth 16384

noncomputable section

namespace Cert.KernelIdeal.Final

open Cert.KernelIdeal Cert.KernelIdeal.Gen Cert.KernelIdeal.Hand Cert.KernelIdeal.PayValue Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- A block of rows of a product, read where the block sits: if `lb` is rows `off, off + 1, …` of `l` and `rb` is
    `r`, then `mm lb rb` at `j` is `mm l r` at any index whose row is `off` plus `j`'s and whose column is `j`'s. -/
theorem mm_block4 {M K N b : ℕ} (off : ℕ) (l : Mat M K) (r : Mat K N) (lb : Mat b K) (rb : Mat K N)
    (hl : ∀ (y : (⟨2, ![b, K]⟩ : Shape).Idx) (i : (⟨2, ![M, K]⟩ : Shape).Idx),
      (i 0).val = off + (y 0).val → (i 1).val = (y 1).val → lb y = l i)
    (hr : ∀ y : (⟨2, ![K, N]⟩ : Shape).Idx, rb y = r y)
    (j : (⟨2, ![b, N]⟩ : Shape).Idx) (i : (⟨2, ![M, N]⟩ : Shape).Idx)
    (h0 : (i 0).val = off + (j 0).val) (h1 : (i 1).val = (j 1).val) : mm lb rb j = mm l r i := by
  unfold mm
  refine Finset.sum_congr rfl fun k _ => ?_
  have e1 : i 1 = j 1 := Fin.ext h1
  rw [hl (ix2 (j 0) k) (ix2 (i 0) k) h0 rfl, hr, e1]

/-- The same for the product with the transposed right operand: a block of rows of `l` against all rows of `r`. -/
theorem mmT_block4 {M K N b : ℕ} (off : ℕ) (l : Mat M K) (r : Mat N K) (lb : Mat b K) (rb : Mat N K)
    (hl : ∀ (y : (⟨2, ![b, K]⟩ : Shape).Idx) (i : (⟨2, ![M, K]⟩ : Shape).Idx),
      (i 0).val = off + (y 0).val → (i 1).val = (y 1).val → lb y = l i)
    (hr : ∀ y : (⟨2, ![N, K]⟩ : Shape).Idx, rb y = r y)
    (j : (⟨2, ![b, N]⟩ : Shape).Idx) (i : (⟨2, ![M, N]⟩ : Shape).Idx)
    (h0 : (i 0).val = off + (j 0).val) (h1 : (i 1).val = (j 1).val) : mmT lb rb j = mmT l r i := by
  unfold mmT
  refine Finset.sum_congr rfl fun k _ => ?_
  have e1 : i 1 = j 1 := Fin.ext h1
  rw [hl (ix2 (j 0) k) (ix2 (i 0) k) h0 rfl, hr, e1]

/-! ## The index maps, decided once over the grid -/

theorem idx4_0 : ∀ t : Fin cfg4.N, win4_0.index t (0 : Fin 2) = t.val ∧ win4_0.index t (1 : Fin 2) = 0 :=
  (by decide +kernel : ∀ t : Fin grid4.N, _)

theorem idx4_1 : ∀ t : Fin cfg4.N, win4_1.index t (0 : Fin 2) = t.val ∧ win4_1.index t (1 : Fin 2) = 0 :=
  (by decide +kernel : ∀ t : Fin grid4.N, _)

theorem idx4_2 : ∀ t : Fin cfg4.N, win4_2.index t (0 : Fin 2) = 0 ∧ win4_2.index t (1 : Fin 2) = 0 :=
  (by decide +kernel : ∀ t : Fin grid4.N, _)

theorem idx4_3 : ∀ t : Fin cfg4.N, win4_3.index t (0 : Fin 2) = t.val ∧ win4_3.index t (1 : Fin 2) = 0 :=
  (by decide +kernel : ∀ t : Fin grid4.N, _)

theorem idx4_4 : ∀ t : Fin cfg4.N, win4_4.index t (0 : Fin 2) = t.val ∧ win4_4.index t (1 : Fin 2) = 0 :=
  (by decide +kernel : ∀ t : Fin grid4.N, _)

/-! ## The input blocks, read where they sit -/

/-- Window 0's block at point `t` is rows `200 t … 200 t + 199` of its array. -/
theorem iblk4_0_apply (c : Dev nD) (t : Fin cfg4.N) (y : S200x10000.Idx) (i : S10000x10000.Idx)
    (h0 : (i 0).val = 200 * t.val + (y 0).val) (h1 : (i 1).val = (y 1).val) :
    (iblk4 V c 0 t : Mat 200 10000) y = (V c main_v1_2 : Mat 10000 10000) i := by
  obtain ⟨e0, e1⟩ := idx4_0 t
  show V c main_v1_2 (((cfg4.win 0).blk t).view.emb y) = _
  refine congrArg _ (funext fun a => Fin.ext ?_)
  match a with
  | ⟨0, _⟩ => show win4_0.index t (0 : Fin 2) * 200 + 1 * (y 0).val = (i 0).val; omega
  | ⟨1, _⟩ => show win4_0.index t (1 : Fin 2) * 10000 + 1 * (y 1).val = (i 1).val; omega

/-- Window 1's block at point `t` is rows `200 t … 200 t + 199` of its array. -/
theorem iblk4_1_apply (c : Dev nD) (t : Fin cfg4.N) (y : S200x16.Idx) (i : S10000x16.Idx)
    (h0 : (i 0).val = 200 * t.val + (y 0).val) (h1 : (i 1).val = (y 1).val) :
    (iblk4 V c 1 t : Mat 200 16) y = (V c main_v3_1 : Mat 10000 16) i := by
  obtain ⟨e0, e1⟩ := idx4_1 t
  show V c main_v3_1 (((cfg4.win 1).blk t).view.emb y) = _
  refine congrArg _ (funext fun a => Fin.ext ?_)
  match a with
  | ⟨0, _⟩ => show win4_1.index t (0 : Fin 2) * 200 + 1 * (y 0).val = (i 0).val; omega
  | ⟨1, _⟩ => show win4_1.index t (1 : Fin 2) * 16 + 1 * (y 1).val = (i 1).val; omega

/-- Window 2's block at every point is its whole array. -/
theorem iblk4_2_apply (c : Dev nD) (t : Fin cfg4.N) (y : S10000x16.Idx) :
    (iblk4 V c 2 t : Mat 10000 16) y = (V c main_v3_1 : Mat 10000 16) y := by
  obtain ⟨e0, e1⟩ := idx4_2 t
  show V c main_v3_1 (((cfg4.win 2).blk t).view.emb y) = _
  refine congrArg _ (funext fun a => Fin.ext ?_)
  match a with
  | ⟨0, _⟩ => show win4_2.index t (0 : Fin 2) * 10000 + 1 * (y 0).val = (y 0).val; omega
  | ⟨1, _⟩ => show win4_2.index t (1 : Fin 2) * 16 + 1 * (y 1).val = (y 1).val; omega

/-! ## Output window 3: the logistic function of the Gram matrix of the latent rows -/

/-- What point `t` writes back is block `t` of that function of the arrays as the region finds them. -/
theorem flushed4_3_eq (c : Dev nD) (t : Fin cfg4.N) :
    (dat4 V c).flushed 3 t = ((cfg4.win 3).blk t).view.read (Elt Ideal) (fun i => Ideal.logistic (gram (V c main_v3_1 : Mat 10000 16) i)) := by
  show (cfg4.win 3).cut (grid4.coords t) ((dat4 V c).after 3 t) = _
  rw [after4_3]
  unfold out4_3
  rw [View.canon_unit_zero hz4]
  simp only [View.ld_unit_zero (S := S200x16) hz4, View.ld_unit_zero (S := S10000x16) hz4]
  rw [pay4_1]
  obtain ⟨e0, e1⟩ := idx4_3 t
  funext j
  have h0 : ((((cfg4.win 3).blk t).view.emb j) 0).val = 200 * t.val + (j 0).val := by
    show win4_3.index t (0 : Fin 2) * 200 + 1 * (j 0).val = 200 * t.val + (j 0).val; omega
  have h1 : ((((cfg4.win 3).blk t).view.emb j) 1).val = (j 1).val := by
    show win4_3.index t (1 : Fin 2) * 10000 + 1 * (j 1).val = (j 1).val; omega
  show Ideal.logistic (mmT (iblk4 V c 1 t) (iblk4 V c 2 t) j)
    = Ideal.logistic (mmT (V c main_v3_1 : Mat 10000 16) (V c main_v3_1 : Mat 10000 16) (((cfg4.win 3).blk t).view.emb j))
  refine congrArg Ideal.logistic ?_
  exact mmT_block4 (200 * t.val) (V c main_v3_1 : Mat 10000 16) (V c main_v3_1 : Mat 10000 16) (iblk4 V c 1 t) (iblk4 V c 2 t)
    (fun y i g0 g1 => iblk4_1_apply V c t y i g0 g1) (fun y => iblk4_2_apply V c t y) j (((cfg4.win 3).blk t).view.emb j) h0 h1

/-- An index of the array is in point `t`'s block iff each coordinate is in the block's range on its axis. -/
theorem mem_blk4_3 (t : Fin cfg4.N) (i : S10000x10000.Idx) :
    i ∈ ((cfg4.win 3).blk t).view.set ↔ ∀ a : Fin 2, win4_3.index t a * S200x10000.size a ≤ (i a).val
      ∧ (i a).val < win4_3.index t a * S200x10000.size a + S200x10000.size a := by
  show i ∈ ((View.whole main_v4_0).slice (win4_3.rect t)).set ↔ _
  rw [View.set_slice_whole, Rect.mem_set_unit]
  exact Iff.rfl

/-- Every row is in the block of the point numbered by its quotient by 200. -/
theorem covered4_3 (i : S10000x10000.Idx) :
    ∃ t : Fin cfg4.N, (cfg4.win 3).flush t = true ∧ i ∈ ((cfg4.win 3).blk t).view.set := by
  have hi0 : (i 0).val < 10000 := (i 0).isLt
  have hi1 : (i 1).val < 10000 := (i 1).isLt
  have hN : cfg4.N = 50 := N_4
  have hq : (i 0).val / 200 < cfg4.N := by omega
  obtain ⟨e0, e1⟩ := idx4_3 ⟨(i 0).val / 200, hq⟩
  have e0' : win4_3.index ⟨(i 0).val / 200, hq⟩ (0 : Fin 2) = (i 0).val / 200 := e0
  refine ⟨⟨(i 0).val / 200, hq⟩, flush4_3 _, ?_⟩
  rw [mem_blk4_3]
  intro a
  match a with
  | ⟨0, _⟩ =>
    show win4_3.index ⟨(i 0).val / 200, hq⟩ (0 : Fin 2) * 200 ≤ (i 0).val
      ∧ (i 0).val < win4_3.index ⟨(i 0).val / 200, hq⟩ (0 : Fin 2) * 200 + 200
    omega
  | ⟨1, _⟩ =>
    show win4_3.index ⟨(i 0).val / 200, hq⟩ (1 : Fin 2) * 10000 ≤ (i 1).val
      ∧ (i 1).val < win4_3.index ⟨(i 0).val / 200, hq⟩ (1 : Fin 2) * 10000 + 10000
    omega

/-- After the region the array of window 3 holds that function. -/
theorem final4_3 (c : Dev nD) : (dat4 V c).arrAt 3 cfg4.N = (fun i => Ideal.logistic (gram (V c main_v3_1 : Mat 10000 16) i)) :=
  (dat4 V c).arrAt_eq_of_cover 3 _ (fun t _ => flushed4_3_eq V c t) (covered4_3)

/-! ## Output window 4: the product of the first window's array with the third's -/

/-- What point `t` writes back is block `t` of that function of the arrays as the region finds them. -/
theorem flushed4_4_eq (c : Dev nD) (t : Fin cfg4.N) :
    (dat4 V c).flushed 4 t = ((cfg4.win 4).blk t).view.read (Elt Ideal) (mm (V c main_v1_2 : Mat 10000 10000) (V c main_v3_1 : Mat 10000 16)) := by
  show (cfg4.win 4).cut (grid4.coords t) ((dat4 V c).after 4 t) = _
  rw [after4_4]
  unfold out4_4
  rw [View.canon_unit_zero hz4]
  simp only [View.ld_unit_zero (S := S200x10000) hz4, View.ld_unit_zero (S := S10000x16) hz4]
  rw [pay4_2]
  obtain ⟨e0, e1⟩ := idx4_4 t
  funext j
  have h0 : ((((cfg4.win 4).blk t).view.emb j) 0).val = 200 * t.val + (j 0).val := by
    show win4_4.index t (0 : Fin 2) * 200 + 1 * (j 0).val = 200 * t.val + (j 0).val; omega
  have h1 : ((((cfg4.win 4).blk t).view.emb j) 1).val = (j 1).val := by
    show win4_4.index t (1 : Fin 2) * 16 + 1 * (j 1).val = (j 1).val; omega
  exact mm_block4 (200 * t.val) (V c main_v1_2 : Mat 10000 10000) (V c main_v3_1 : Mat 10000 16) (iblk4 V c 0 t) (iblk4 V c 2 t)
    (fun y i g0 g1 => iblk4_0_apply V c t y i g0 g1) (fun y => iblk4_2_apply V c t y) j (((cfg4.win 4).blk t).view.emb j) h0 h1

/-- An index of the array is in point `t`'s block iff each coordinate is in the block's range on its axis. -/
theorem mem_blk4_4 (t : Fin cfg4.N) (i : S10000x16.Idx) :
    i ∈ ((cfg4.win 4).blk t).view.set ↔ ∀ a : Fin 2, win4_4.index t a * S200x16.size a ≤ (i a).val
      ∧ (i a).val < win4_4.index t a * S200x16.size a + S200x16.size a := by
  show i ∈ ((View.whole main_v4_1).slice (win4_4.rect t)).set ↔ _
  rw [View.set_slice_whole, Rect.mem_set_unit]
  exact Iff.rfl

/-- Every row is in the block of the point numbered by its quotient by 200. -/
theorem covered4_4 (i : S10000x16.Idx) :
    ∃ t : Fin cfg4.N, (cfg4.win 4).flush t = true ∧ i ∈ ((cfg4.win 4).blk t).view.set := by
  have hi0 : (i 0).val < 10000 := (i 0).isLt
  have hi1 : (i 1).val < 16 := (i 1).isLt
  have hN : cfg4.N = 50 := N_4
  have hq : (i 0).val / 200 < cfg4.N := by omega
  obtain ⟨e0, e1⟩ := idx4_4 ⟨(i 0).val / 200, hq⟩
  have e0' : win4_4.index ⟨(i 0).val / 200, hq⟩ (0 : Fin 2) = (i 0).val / 200 := e0
  refine ⟨⟨(i 0).val / 200, hq⟩, flush4_4 _, ?_⟩
  rw [mem_blk4_4]
  intro a
  match a with
  | ⟨0, _⟩ =>
    show win4_4.index ⟨(i 0).val / 200, hq⟩ (0 : Fin 2) * 200 ≤ (i 0).val
      ∧ (i 0).val < win4_4.index ⟨(i 0).val / 200, hq⟩ (0 : Fin 2) * 200 + 200
    omega
  | ⟨1, _⟩ =>
    show win4_4.index ⟨(i 0).val / 200, hq⟩ (1 : Fin 2) * 16 ≤ (i 1).val
      ∧ (i 1).val < win4_4.index ⟨(i 0).val / 200, hq⟩ (1 : Fin 2) * 16 + 16
    omega

/-- After the region the array of window 4 holds that function. -/
theorem final4_4 (c : Dev nD) : (dat4 V c).arrAt 4 cfg4.N = (mm (V c main_v1_2 : Mat 10000 10000) (V c main_v3_1 : Mat 10000 16)) :=
  (dat4 V c).arrAt_eq_of_cover 4 _ (fun t _ => flushed4_4_eq V c t) (covered4_4)

end Cert.KernelIdeal.Final

end
-- ==== Proof.KI.Values.lean ====
/-
  The values of the whole run at the ideal instance.

  The contents of the buffers at each boundary between regions, read one region at a time: each region's output arrays
  are one function of the arrays the region finds, and those are the launch arguments or earlier regions' outputs. So
  after the last region each result is the encoder's function of the five argument arrays: the layers' products with
  the weight matrix, taken once more for the extra outputs, and the logistic function of the latent rows' Gram matrix.
-/
import proofs.«104007_g67070209294347_cont_9to1_m_584_3_alg».proof.Proof.KI.Run
import proofs.«104007_g67070209294347_cont_9to1_m_584_3_alg».proof.Proof.KI.Final0
import proofs.«104007_g67070209294347_cont_9to1_m_584_3_alg».proof.Proof.KI.Final1
import proofs.«104007_g67070209294347_cont_9to1_m_584_3_alg».proof.Proof.KI.Final2
import proofs.«104007_g67070209294347_cont_9to1_m_584_3_alg».proof.Proof.KI.Final3
import proofs.«104007_g67070209294347_cont_9to1_m_584_3_alg».proof.Proof.KI.Final4
import proofs.«104007_g67070209294347_cont_9to1_m_584_3_alg».proof.Proof.Spec

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The five argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)

/-! ## After the first region: the first layer's weighted and rectified input -/

theorem v1_s1 : V1 m c main_v0 = Cert.Spec.s1 (A0 m c) (A2 m c) := (W1_arr m c 2).trans (Cert.KernelIdeal.Final.final0_2 (V0 m) c)
theorem v1_arg1 : V1 m c main_arg1 = A1 m c := W1_of_ne m c main_arg1 (by decide)
theorem v1_arg3 : V1 m c main_arg3 = A3 m c := W1_of_ne m c main_arg3 (by decide)
theorem v1_arg4 : V1 m c main_arg4 = A4 m c := W1_of_ne m c main_arg4 (by decide)

/-! ## After the second region: the first layer's output, the second layer's input, and the copy of the weight matrix -/

theorem v2_z1 : V2 m c main_v1_0 = Cert.Spec.z1 (A0 m c) (A1 m c) (A2 m c) :=
  (W2_arr m c 3).trans ((Cert.KernelIdeal.Final.final1_3 (V1 m) c).trans (by rw [v1_arg1, v1_s1]; rfl))
theorem v2_s2 : V2 m c main_v1_1 = Cert.Spec.s2 (A0 m c) (A1 m c) (A2 m c) (A3 m c) :=
  (W2_arr m c 4).trans ((Cert.KernelIdeal.Final.final1_4 (V1 m) c).trans (by rw [v1_arg1, v1_s1, v1_arg3]; rfl))
theorem v2_adj : V2 m c main_v1_2 = A1 m c :=
  (W2_arr m c 5).trans ((Cert.KernelIdeal.Final.final1_5 (V1 m) c).trans (v1_arg1 m c))
theorem v2_arg4 : V2 m c main_arg4 = A4 m c := (W2_of_ne m c main_arg4 (by decide)).trans (v1_arg4 m c)

/-! ## After the third region -/

theorem v3_az1 : V3 m c main_v2_0 = Cert.Spec.az1 (A0 m c) (A1 m c) (A2 m c) :=
  (W3_arr m c 4).trans ((Cert.KernelIdeal.Final.final2_4 (V2 m) c).trans (by rw [v2_adj, v2_z1]; rfl))
theorem v3_z2 : V3 m c main_v2_1 = Cert.Spec.z2 (A0 m c) (A1 m c) (A2 m c) (A3 m c) :=
  (W3_arr m c 5).trans ((Cert.KernelIdeal.Final.final2_5 (V2 m) c).trans (by rw [v2_adj, v2_s2]; rfl))
theorem v3_s3 : V3 m c main_v2_2 = Cert.Spec.s3 (A0 m c) (A1 m c) (A2 m c) (A3 m c) (A4 m c) :=
  (W3_arr m c 6).trans ((Cert.KernelIdeal.Final.final2_6 (V2 m) c).trans (by rw [v2_adj, v2_s2, v2_arg4]; rfl))
theorem v3_adj : V3 m c main_v1_2 = A1 m c := (keep2_in m c 0 rfl).trans (v2_adj m c)
theorem v3_z1 : V3 m c main_v1_0 = Cert.Spec.z1 (A0 m c) (A1 m c) (A2 m c) := (keep2_in m c 1 rfl).trans (v2_z1 m c)

/-! ## After the fourth region -/

theorem v4_az2 : V4 m c main_v3_0 = Cert.Spec.az2 (A0 m c) (A1 m c) (A2 m c) (A3 m c) :=
  (W4_arr m c 3).trans ((Cert.KernelIdeal.Final.final3_3 (V3 m) c).trans (by rw [v3_adj, v3_z2]; rfl))
theorem v4_zi : V4 m c main_v3_1 = Cert.Spec.zi (A0 m c) (A1 m c) (A2 m c) (A3 m c) (A4 m c) :=
  (W4_arr m c 4).trans ((Cert.KernelIdeal.Final.final3_4 (V3 m) c).trans (by rw [v3_adj, v3_s3]; rfl))
theorem v4_adj : V4 m c main_v1_2 = A1 m c := (keep3_in m c 0 rfl).trans (v3_adj m c)
theorem v4_z2 : V4 m c main_v2_1 = Cert.Spec.z2 (A0 m c) (A1 m c) (A2 m c) (A3 m c) := (keep3_in m c 1 rfl).trans (v3_z2 m c)
theorem v4_az1 : V4 m c main_v2_0 = Cert.Spec.az1 (A0 m c) (A1 m c) (A2 m c) := (W4_of_ne m c main_v2_0 (by decide)).trans (v3_az1 m c)
theorem v4_z1 : V4 m c main_v1_0 = Cert.Spec.z1 (A0 m c) (A1 m c) (A2 m c) := (W4_of_ne m c main_v1_0 (by decide)).trans (v3_z1 m c)

/-! ## After the last region: every result -/

theorem v5_zadj : V5 m c main_v4_0 = Cert.Spec.zadj (A0 m c) (A1 m c) (A2 m c) (A3 m c) (A4 m c) :=
  (W5_v4_0 m c).trans ((Cert.KernelIdeal.Final.final4_3 (V4 m) c).trans (by rw [v4_zi]; rfl))
theorem v5_az3 : V5 m c main_v4_1 = Cert.Spec.az3 (A0 m c) (A1 m c) (A2 m c) (A3 m c) (A4 m c) :=
  (W5_v4_1 m c).trans ((Cert.KernelIdeal.Final.final4_4 (V4 m) c).trans (by rw [v4_adj, v4_zi]; rfl))
theorem v5_zi : V5 m c main_v3_1 = Cert.Spec.zi (A0 m c) (A1 m c) (A2 m c) (A3 m c) (A4 m c) :=
  (W5_of_ne m c main_v3_1 (by decide) (by decide)).trans (v4_zi m c)
theorem v5_az2 : V5 m c main_v3_0 = Cert.Spec.az2 (A0 m c) (A1 m c) (A2 m c) (A3 m c) :=
  (W5_of_ne m c main_v3_0 (by decide) (by decide)).trans (v4_az2 m c)
theorem v5_az1 : V5 m c main_v2_0 = Cert.Spec.az1 (A0 m c) (A1 m c) (A2 m c) :=
  (W5_of_ne m c main_v2_0 (by decide) (by decide)).trans (v4_az1 m c)
theorem v5_z2 : V5 m c main_v2_1 = Cert.Spec.z2 (A0 m c) (A1 m c) (A2 m c) (A3 m c) :=
  (W5_of_ne m c main_v2_1 (by decide) (by decide)).trans (v4_z2 m c)
theorem v5_z1 : V5 m c main_v1_0 = Cert.Spec.z1 (A0 m c) (A1 m c) (A2 m c) :=
  (W5_of_ne m c main_v1_0 (by decide) (by decide)).trans (v4_z1 m c)

/-- THE RUN WITH ITS VALUES: every weakly fair execution terminates, nothing faulting, with each result array at the
    encoder's function of the argument arrays and the argument arrays as launched. -/
theorem run_values (ρ : Dev nD → PrngReg) : θ_run defs (onTc (τ := τ) (main (F := Ideal))) ⟨m, fun _ => 0, ρ⟩ (fun r => ∀ c : Dev nD,
      r.2.mem ((c.tc : Thread nD τ).loc main_v3_1) = Cert.Spec.zi (A0 m c) (A1 m c) (A2 m c) (A3 m c) (A4 m c)
      ∧ r.2.mem ((c.tc : Thread nD τ).loc main_v4_0) = Cert.Spec.zadj (A0 m c) (A1 m c) (A2 m c) (A3 m c) (A4 m c)
      ∧ r.2.mem ((c.tc : Thread nD τ).loc main_v2_0) = Cert.Spec.az1 (A0 m c) (A1 m c) (A2 m c)
      ∧ r.2.mem ((c.tc : Thread nD τ).loc main_v3_0) = Cert.Spec.az2 (A0 m c) (A1 m c) (A2 m c) (A3 m c)
      ∧ r.2.mem ((c.tc : Thread nD τ).loc main_v4_1) = Cert.Spec.az3 (A0 m c) (A1 m c) (A2 m c) (A3 m c) (A4 m c)
      ∧ r.2.mem ((c.tc : Thread nD τ).loc main_v1_0) = Cert.Spec.z1 (A0 m c) (A1 m c) (A2 m c)
      ∧ r.2.mem ((c.tc : Thread nD τ).loc main_v2_1) = Cert.Spec.z2 (A0 m c) (A1 m c) (A2 m c) (A3 m c)
      ∧ r.2.mem ((c.tc : Thread nD τ).loc main_v3_1) = Cert.Spec.zi (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3_1 (by decide))).trans (v5_zi m c),
     (h c _ (mem_uc main_v4_0 (by decide))).trans (v5_zadj m c),
     (h c _ (mem_uc main_v2_0 (by decide))).trans (v5_az1 m c),
     (h c _ (mem_uc main_v3_0 (by decide))).trans (v5_az2 m c),
     (h c _ (mem_uc main_v4_1 (by decide))).trans (v5_az3 m c),
     (h c _ (mem_uc main_v1_0 (by decide))).trans (v5_z1 m c),
     (h c _ (mem_uc main_v2_1 (by decide))).trans (v5_z2 m c),
     (h c _ (mem_uc main_v3_1 (by decide))).trans (v5_zi m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Hand

end
-- ==== Proof.RefIsSpec.lean ====
/-
  The reference program computes the encoder of Spec.lean.

  Each `dot_general` of the reference is a plain matrix product (contract the left operand's columns with the right
  operand's rows), which at the ideal instance is the sum `mm` of Spec.lean; the comparison with zero, the product
  with the single-precision 0.2 and the selection between them are the leaky rectifier `lrelu1` entry by entry. The
  product of the latent rows with their transpose is their Gram matrix, and `1 / (1 + exp (-g))` with both constants
  the single-precision one is the logistic function of `g`. So every array the reference returns is the
  corresponding stage of the specification, as a function of the five argument arrays.
-/
import proofs.«104007_g67070209294347_cont_9to1_m_584_3_alg».proof.Proof.Gen.ReferenceIdeal.Read
import proofs.«104007_g67070209294347_cont_9to1_m_584_3_alg».proof.Proof.Spec
import proofs.«104007_g67070209294347_cont_9to1_m_584_3_alg».proof.Proof.LibPlainDot
import proofs.«104007_g67070209294347_cont_9to1_m_584_3_alg».proof.Proof.SigmoidForms

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The host's plain matrix product, at the ideal instance, is the sum over the contracted coordinate. -/
theorem host_dot (M K N : ℕ) (l : Cert.Spec.Mat M K) (r : Cert.Spec.Mat K N) :
    Host.dotGeneral (F := Ideal) (φ₁ := .f32) (φ₂ := .f32) (DotDims.plain M K N) none l r = Cert.Spec.mm l r := by
  funext i
  exact Cert.Lib.PlainDot.dotGeneral_apply M K N none .single l r i

/-! ## The first layer -/

theorem ref_s1 (x0 : (⟨S10000x128, .f32⟩ : BufTy).Contents (Elt Ideal)) (x2 : (⟨S128x64, .f32⟩ : BufTy).Contents (Elt Ideal)) : val_main_v5 (F := Ideal) x0 x2 = Cert.Spec.s1 x0 x2 := by
  have h0 : val_main_v0 (F := Ideal) x0 x2 = Cert.Spec.mm x0 x2 := host_dot 10000 128 64 x0 x2
  funext i
  rw [val_main_v5_apply, val_main_v2_apply, val_main_v4_apply, val_main_v1_apply, val_main_cst_apply, val_main_v3_apply,
    val_main_cst_0_apply, h0]
  rfl

theorem ref_z1 (x0 : (⟨S10000x128, .f32⟩ : BufTy).Contents (Elt Ideal)) (x1 : (⟨S10000x10000, .f32⟩ : BufTy).Contents (Elt Ideal)) (x2 : (⟨S128x64, .f32⟩ : BufTy).Contents (Elt Ideal)) : val_main_v6 (F := Ideal) x0 x1 x2 = Cert.Spec.z1 x0 x1 x2 := by
  unfold val_main_v6
  rw [ref_s1]
  exact host_dot 10000 10000 64 x1 (Cert.Spec.s1 x0 x2)

theorem ref_az1 (x0 : (⟨S10000x128, .f32⟩ : BufTy).Contents (Elt Ideal)) (x1 : (⟨S10000x10000, .f32⟩ : BufTy).Contents (Elt Ideal)) (x2 : (⟨S128x64, .f32⟩ : BufTy).Contents (Elt Ideal)) : val_main_v7 (F := Ideal) x0 x1 x2 = Cert.Spec.az1 x0 x1 x2 := by
  unfold val_main_v7
  rw [ref_z1]
  exact host_dot 10000 10000 64 x1 (Cert.Spec.z1 x0 x1 x2)

/-! ## The second layer -/

theorem ref_s2 (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64x32, .f32⟩ : BufTy).Contents (Elt Ideal)) : val_main_v13 (F := Ideal) x0 x1 x2 x3 = Cert.Spec.s2 x0 x1 x2 x3 := by
  have h8 : val_main_v8 (F := Ideal) x0 x1 x2 x3 = Cert.Spec.mm (Cert.Spec.z1 x0 x1 x2) x3 := by
    unfold val_main_v8
    rw [ref_z1]
    exact host_dot 10000 64 32 (Cert.Spec.z1 x0 x1 x2) x3
  funext i
  rw [val_main_v13_apply, val_main_v10_apply, val_main_v12_apply, val_main_v9_apply, val_main_cst_1_apply,
    val_main_v11_apply, val_main_cst_2_apply, h8]
  rfl

theorem ref_z2 (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64x32, .f32⟩ : BufTy).Contents (Elt Ideal)) : val_main_v14 (F := Ideal) x0 x1 x2 x3 = Cert.Spec.z2 x0 x1 x2 x3 := by
  unfold val_main_v14
  rw [ref_s2]
  exact host_dot 10000 10000 32 x1 (Cert.Spec.s2 x0 x1 x2 x3)

theorem ref_az2 (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64x32, .f32⟩ : BufTy).Contents (Elt Ideal)) : val_main_v15 (F := Ideal) x0 x1 x2 x3 = Cert.Spec.az2 x0 x1 x2 x3 := by
  unfold val_main_v15
  rw [ref_z2]
  exact host_dot 10000 10000 32 x1 (Cert.Spec.z2 x0 x1 x2 x3)

/-! ## The third layer -/

theorem ref_s3 (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64x32, .f32⟩ : BufTy).Contents (Elt Ideal)) (x4 : (⟨S32x16, .f32⟩ : BufTy).Contents (Elt Ideal)) :
    val_main_v16 (F := Ideal) x0 x1 x2 x3 x4 = Cert.Spec.s3 x0 x1 x2 x3 x4 := by
  unfold val_main_v16
  rw [ref_z2]
  exact host_dot 10000 32 16 (Cert.Spec.z2 x0 x1 x2 x3) x4

theorem ref_zi (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64x32, .f32⟩ : BufTy).Contents (Elt Ideal)) (x4 : (⟨S32x16, .f32⟩ : BufTy).Contents (Elt Ideal)) :
    val_main_v17 (F := Ideal) x0 x1 x2 x3 x4 = Cert.Spec.zi x0 x1 x2 x3 x4 := by
  unfold val_main_v17
  rw [ref_s3]
  exact host_dot 10000 10000 16 x1 (Cert.Spec.s3 x0 x1 x2 x3 x4)

theorem ref_az3 (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64x32, .f32⟩ : BufTy).Contents (Elt Ideal)) (x4 : (⟨S32x16, .f32⟩ : BufTy).Contents (Elt Ideal)) :
    val_main_v18 (F := Ideal) x0 x1 x2 x3 x4 = Cert.Spec.az3 x0 x1 x2 x3 x4 := by
  unfold val_main_v18
  rw [ref_zi]
  exact host_dot 10000 10000 16 x1 (Cert.Spec.zi x0 x1 x2 x3 x4)

/-! ## The decoder -/

/-- The transpose is read at the swapped index. -/
theorem idx_transpose (a : Fin 16) (b : Fin 10000) : idx_main_v19 (ix2 a b) = ix2 b a :=
  funext fun d => Fin.ext (by match d with | ⟨0, _⟩ => rfl | ⟨1, _⟩ => rfl)

/-- The product of the latent rows with their transpose is their Gram matrix. -/
theorem ref_gram (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64x32, .f32⟩ : BufTy).Contents (Elt Ideal)) (x4 : (⟨S32x16, .f32⟩ : BufTy).Contents (Elt Ideal)) :
    val_main_v20 (F := Ideal) x0 x1 x2 x3 x4 = Cert.Spec.gram (Cert.Spec.zi x0 x1 x2 x3 x4) := by
  have h : val_main_v20 (F := Ideal) x0 x1 x2 x3 x4
      = Cert.Spec.mm (val_main_v17 (F := Ideal) x0 x1 x2 x3 x4) (val_main_v19 (F := Ideal) x0 x1 x2 x3 x4) := by
    unfold val_main_v20
    exact host_dot 10000 16 10000 _ _
  rw [h]
  funext i
  unfold Cert.Spec.mm Cert.Spec.gram
  refine Finset.sum_congr rfl fun k _ => ?_
  have e : idx_main_v19 (ix2 (n0 := 16) (n1 := 10000) k (i 1)) = ix2 (n0 := 10000) (n1 := 16) (i 1) k :=
    idx_transpose k (i 1)
  rw [val_main_v19_apply, e, ref_zi]

theorem ref_zadj (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64x32, .f32⟩ : BufTy).Contents (Elt Ideal)) (x4 : (⟨S32x16, .f32⟩ : BufTy).Contents (Elt Ideal)) :
    val_main_v26 (F := Ideal) x0 x1 x2 x3 x4 = Cert.Spec.zadj x0 x1 x2 x3 x4 := by
  funext i
  rw [val_main_v26_apply, val_main_v25_apply, val_main_cst_4_apply, val_main_v24_apply, val_main_v23_apply,
    val_main_cst_3_apply, val_main_v22_apply, val_main_v21_apply, ref_gram]
  simp only [Ideal.hostDivf_def, Ideal.addf_def, Ideal.hostUnary_exp_def, Ideal.hostNegf_def, Ideal.negf_def,
    Ideal.ofBits_def, Cert.SigmoidForms.one_f32]
  rfl

/-! ## The reference's run -/

/-- On every device, from any memory with zero counters, every weakly fair execution of the reference terminates with
    each result array at its stage of the specification, as a function of the five argument arrays, and the arguments
    unchanged. -/
theorem run_spec (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v17) = Cert.Spec.zi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = Cert.Spec.zadj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v7) = Cert.Spec.az1 (m ((c.tc : Thread nD τ).loc main_arg0)) (m ((c.tc : Thread nD τ).loc main_arg1)) (m ((c.tc : Thread nD τ).loc main_arg2))
      ∧ r.2.mem ((c.tc : Thread nD τ).loc main_v15) = Cert.Spec.az2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v18) = Cert.Spec.az3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6) = Cert.Spec.z1 (m ((c.tc : Thread nD τ).loc main_arg0)) (m ((c.tc : Thread nD τ).loc main_arg1)) (m ((c.tc : Thread nD τ).loc main_arg2))
      ∧ r.2.mem ((c.tc : Thread nD τ).loc main_v14) = Cert.Spec.z2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = Cert.Spec.zi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run Cert.ReferenceIdeal.defs _ _).mono (fun _ h c =>
    ⟨((h c).1.trans (val_main_v17_eq _ _ _ _ _)).trans (ref_zi _ _ _ _ _),
      ((h c).2.1.trans (val_main_v26_eq m c)).trans (ref_zadj _ _ _ _ _),
      ((h c).2.2.1.trans (val_main_v7_eq _ _ _)).trans (ref_az1 _ _ _),
      ((h c).2.2.2.1.trans (val_main_v15_eq _ _ _ _)).trans (ref_az2 _ _ _ _),
      ((h c).2.2.2.2.1.trans (val_main_v18_eq _ _ _ _ _)).trans (ref_az3 _ _ _ _ _),
      ((h c).2.2.2.2.2.1.trans (val_main_v6_eq _ _ _)).trans (ref_z1 _ _ _),
      ((h c).2.2.2.2.2.2.1.trans (val_main_v14_eq _ _ _ _)).trans (ref_z2 _ _ _ _),
      ((h c).2.2.2.2.2.2.2.1.trans (val_main_v17_eq _ _ _ _ _)).trans (ref_zi _ _ _ _ _),
      (h c).2.2.2.2.2.2.2.2⟩)
    (Cert.ReferenceIdeal.Value.run (F := Ideal) m ρ)

end Cert.RefValue

end
-- ==== Proof.lean ====
/-
  The certificate's five claims.

  The kernel computes a three-layer graph-convolution encoder over a dense weight matrix and its inner-product
  decoder in five grid-blocked regions: each region multiplies row blocks of the weight matrix (or of the input) by
  whole right operands, so every output row block is the same rows of the whole-array product; the leaky rectifier
  acts entry by entry; the decoder's 0.5 * (tanh (0.5 * g) + 1) is the logistic function of g on every extended real.
  The reference computes the same products, rectifiers and 1 / (1 + exp (-g)) on whole arrays. At the ideal instance
  both programs therefore end with each result at one function of the five argument arrays (Spec.lean), with no
  appeal to finiteness of the inputs: only sums and products in one fixed order occur on both sides.

  The three frames: each program runs to the end, faults nowhere, and leaves its arguments as launched — for the two
  kernel programs from the run of the five regions in sequence, for the reference from its run as a list of host
  operations. The idealization rewrote nothing, so its claim is trivial.
-/
import proofs.«104007_g67070209294347_cont_9to1_m_584_3_alg».proof.Defs
import proofs.«104007_g67070209294347_cont_9to1_m_584_3_alg».proof.Proof.Gen.Kernel
import proofs.«104007_g67070209294347_cont_9to1_m_584_3_alg».proof.Proof.Gen.KernelIdeal
import proofs.«104007_g67070209294347_cont_9to1_m_584_3_alg».proof.Proof.Gen.ReferenceIdeal
import proofs.«104007_g67070209294347_cont_9to1_m_584_3_alg».proof.Proof.Gen.Pre_finite_inputs
import proofs.«104007_g67070209294347_cont_9to1_m_584_3_alg».proof.Proof.K.Run
import proofs.«104007_g67070209294347_cont_9to1_m_584_3_alg».proof.Proof.KI.Values
import proofs.«104007_g67070209294347_cont_9to1_m_584_3_alg».proof.Proof.RefIsSpec
import Idealize.ShloMosaic.Adequacy
import Idealize.ShloMosaic.Init

noncomputable section

namespace Cert.Proof

open Idealize.ShloMosaic Idealize.ShloMosaic.TcCoe Idealize.SL.Sem
open Cert.KernelIdeal.Hand (A0 A1 A2 A3 A4)

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2.2.2.2.2.2) (Cert.ReferenceIdeal.Value.run (F := Ideal) m ρ)

theorem preserves : Cert.preserves_Kernel_KernelIdeal := trivial

/-- Run from memories that agree on the five arguments, the kernel ends with each result at the encoder's function of
    its arguments and the reference at the same function of its own. -/
theorem algebraic : Cert.algebraic_KernelIdeal_ReferenceIdeal := by
  intro m ρ m' ρ' _ hagree
  refine ⟨fun c => Cert.Spec.zi (A0 m c) (A1 m c) (A2 m c) (A3 m c) (A4 m c),
    fun c => Cert.Spec.zadj (A0 m c) (A1 m c) (A2 m c) (A3 m c) (A4 m c),
    fun c => Cert.Spec.az1 (A0 m c) (A1 m c) (A2 m c),
    fun c => Cert.Spec.az2 (A0 m c) (A1 m c) (A2 m c) (A3 m c),
    fun c => Cert.Spec.az3 (A0 m c) (A1 m c) (A2 m c) (A3 m c) (A4 m c),
    fun c => Cert.Spec.z1 (A0 m c) (A1 m c) (A2 m c),
    fun c => Cert.Spec.z2 (A0 m c) (A1 m c) (A2 m c) (A3 m c),
    fun c => Cert.Spec.zi (A0 m c) (A1 m c) (A2 m c) (A3 m c) (A4 m c),
    Cert.KernelIdeal.Hand.run_values m ρ, ?_⟩
  refine (θ_run Cert.ReferenceIdeal.defs _ _).mono (fun _ h c => ?_) (Cert.RefValue.run_spec m' ρ')
  obtain ⟨h0, h1, h2, h3, h4⟩ := hagree c
  obtain ⟨r0, r1, r2, r3, r4, r5, r6, r7, k0, k1, k2, k3, k4⟩ := h c
  rw [h0, h1, h2, h3, h4] at r0 r1 r4 r7
  rw [h0, h1, h2, h3] at r3 r6
  rw [h0, h1, h2] at r2 r5
  exact ⟨r0, r1, r2, r3, r4, r5, r6, r7, k0, k1, k2, k3, k4⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
